-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x512 : Shape := ⟨3, ![2, 512, 512]⟩
abbrev S2x48x512 : Shape := ⟨3, ![2, 48, 512]⟩
abbrev S2x1x512 : Shape := ⟨3, ![2, 1, 512]⟩
abbrev S1024x1024 : Shape := ⟨2, ![1024, 1024]⟩
abbrev S1024 : Shape := ⟨1, ![1024]⟩
abbrev S128x1024 : Shape := ⟨2, ![128, 1024]⟩
abbrev S128 : Shape := ⟨1, ![128]⟩
abbrev S128x512 : Shape := ⟨2, ![128, 512]⟩
abbrev S_ : Shape := ⟨0, ![]⟩

class Facts : Prop where
  bcast_S_S2x512x512 : S_.BroadcastsInDim S2x512x512 (![] : Fin 0 → Fin S2x512x512.rank)
  reducesTo_S2x512x512_S_d0_1_2 : S2x512x512.ReducesTo [0, 1, 2] S_
  h_S_ : 0 < S_.numel
  bcast_S_S2x48x512 : S_.BroadcastsInDim S2x48x512 (![] : Fin 0 → Fin S2x48x512.rank)
  reducesTo_S2x48x512_S_d0_1_2 : S2x48x512.ReducesTo [0, 1, 2] S_
  bcast_S_S2x1x512 : S_.BroadcastsInDim S2x1x512 (![] : Fin 0 → Fin S2x1x512.rank)
  reducesTo_S2x1x512_S_d0_1_2 : S2x1x512.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S128x1024 : S_.BroadcastsInDim S128x1024 (![] : Fin 0 → Fin S128x1024.rank)
  reducesTo_S128x1024_S_d0_1 : S128x1024.ReducesTo [0, 1] S_
  bcast_S_S128 : S_.BroadcastsInDim S128 (![] : Fin 0 → Fin S128.rank)
  reducesTo_S128_S_d0 : S128.ReducesTo [0] S_
  bcast_S_S128x512 : S_.BroadcastsInDim S128x512 (![] : Fin 0 → Fin S128x512.rank)
  reducesTo_S128x512_S_d0_1 : S128x512.ReducesTo [0, 1] S_

variable [Facts]

def fn_part2 {F : FTy → Type} [FloatOps F] (main_arg7 : FVec F S128x512 .f32) (main_arg8 : FVec F S128 .f32) (main_v33 : IVec S_ 1) : IVec S_ 1 :=
  let main_v34 : FVec F S128x512 .f32 := Host.absf main_arg7
  let main_cst_12 : FVec F S_ .f32 := constant S_ .f32 0x7F800000#32
  let main_v35 : FVec F S128x512 .f32 := broadcastInDim S128x512 ![] bcast_S_S128x512 main_cst_12
  let main_v36 : IVec S128x512 1 := cmpf .olt main_v34 main_v35
  let main_c_13 : IVec S_ 1 := constantI S_ 1 1#1
  let main_v37 : IVec S_ 1 := (fun x v => Host.reduce IntOp.andi x v reducesTo_S128x512_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S1024 .f32) (main_arg5 : FVec F S128x1024 .f32) (main_arg6 : FVec F S128 .f32) (main_arg7 : FVec F S128x512 .f32) (main_arg8 : FVec F S128 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S128x1024 .f32 := Host.absf main_arg5
  let main_cst_8 : FVec F S_ .f32 := constant S_ .f32 0x7F800000#32
  let main_v25 : FVec F S128x1024 .f32 := broadcastInDim S128x1024 ![] bcast_S_S128x1024 main_cst_8
  let main_v26 : IVec S128x1024 1 := cmpf .olt main_v24 main_v25
  let main_c_9 : IVec S_ 1 := constantI S_ 1 1#1
  let main_v27 : IVec S_ 1 := (fun x v => Host.reduce IntOp.andi x v reducesTo_S128x1024_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S2x512x512 .f32) (main_arg1 : FVec F S2x48x512 .f32) (main_arg2 : FVec F S2x1x512 .f32) (main_arg3 : FVec F S1024x1024 .f32) (main_arg4 : FVec F S1024 .f32) (main_arg5 : FVec F S128x1024 .f32) (main_arg6 : FVec F S128 .f32) (main_arg7 : FVec F S128x512 .f32) (main_arg8 : FVec F S128 .f32) : IVec S_ 1 :=
  let main_v0 : FVec F S2x512x512 .f32 := Host.absf main_arg0
  let main_cst : FVec F S_ .f32 := constant S_ .f32 0x7F800000#32
  let main_v1 : FVec F S2x512x512 .f32 := broadcastInDim S2x512x512 ![] bcast_S_S2x512x512 main_cst
  let main_v2 : IVec S2x512x512 1 := cmpf .olt main_v0 main_v1
  let main_c : IVec S_ 1 := constantI S_ 1 1#1
  let main_v3 : IVec S_ 1 := (fun x v => Host.reduce IntOp.andi x v reducesTo_S2x512x512_S_d0_1_2 h_S_) main_v2 main_c
  let main_v4 : FVec F S2x48x512 .f32 := Host.absf main_arg1
  let main_cst_0 : FVec F S_ .f32 := constant S_ .f32 0x7F800000#32
  let main_v5 : FVec F S2x48x512 .f32 := broadcastInDim S2x48x512 ![] bcast_S_S2x48x512 main_cst_0
  let main_v6 : IVec S2x48x512 1 := cmpf .olt main_v4 main_v5
  let main_c_1 : IVec S_ 1 := constantI S_ 1 1#1
  let main_v7 : IVec S_ 1 := (fun x v => Host.reduce IntOp.andi x v reducesTo_S2x48x512_S_d0_1_2 h_S_) main_v6 main_c_1
  let main_v8 : IVec S_ 1 := andi main_v3 main_v7
  let main_v9 : FVec F S2x1x512 .f32 := Host.absf main_arg2
  let main_cst_2 : FVec F S_ .f32 := constant S_ .f32 0x7F800000#32
  let main_v10 : FVec F S2x1x512 .f32 := broadcastInDim S2x1x512 ![] bcast_S_S2x1x512 main_cst_2
  let main_v11 : IVec S2x1x512 1 := cmpf .olt main_v9 main_v10
  let main_c_3 : IVec S_ 1 := constantI S_ 1 1#1
  let main_v12 : IVec S_ 1 := (fun x v => Host.reduce IntOp.andi x v reducesTo_S2x1x512_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S2x512x512 : Shape := ⟨3, ![2, 512, 512]⟩
abbrev S2x48x512 : Shape := ⟨3, ![2, 48, 512]⟩
abbrev S2x1x512 : Shape := ⟨3, ![2, 1, 512]⟩
abbrev S1024x1024 : Shape := ⟨2, ![1024, 1024]⟩
abbrev S1024 : Shape := ⟨1, ![1024]⟩
abbrev S128x1024 : Shape := ⟨2, ![128, 1024]⟩
abbrev S128 : Shape := ⟨1, ![128]⟩
abbrev S128x512 : Shape := ⟨2, ![128, 512]⟩
abbrev S1024x512 : Shape := ⟨2, ![1024, 512]⟩
abbrev S2x128x512 : Shape := ⟨3, ![2, 128, 512]⟩
abbrev S2x48x512x128 : Shape := ⟨4, ![2, 48, 512, 128]⟩
abbrev S1x128x512 : Shape := ⟨3, ![1, 128, 512]⟩
abbrev S1x8x512 : Shape := ⟨3, ![1, 8, 512]⟩
abbrev S1x1x128 : Shape := ⟨3, ![1, 1, 128]⟩
abbrev S1x128x128 : Shape := ⟨3, ![1, 128, 128]⟩
abbrev S1x8x128x128 : Shape := ⟨4, ![1, 8, 128, 128]⟩
abbrev S512x1024 : Shape := ⟨2, ![512, 1024]⟩
abbrev S512x128 : Shape := ⟨2, ![512, 128]⟩
abbrev S128x128 : Shape := ⟨2, ![128, 128]⟩
abbrev S128x1 : Shape := ⟨2, ![128, 1]⟩
abbrev S1x128 : Shape := ⟨2, ![1, 128]⟩
abbrev S8x512 : Shape := ⟨2, ![8, 512]⟩
abbrev S8x1024 : Shape := ⟨2, ![8, 1024]⟩
abbrev S8x1x1024 : Shape := ⟨3, ![8, 1, 1024]⟩
abbrev S1x128x1024 : Shape := ⟨3, ![1, 128, 1024]⟩
abbrev S8x128x1024 : Shape := ⟨3, ![8, 128, 1024]⟩
abbrev S1x1x1024 : Shape := ⟨3, ![1, 1, 1024]⟩
abbrev S1024x128 : Shape := ⟨2, ![1024, 128]⟩
abbrev S8x128x128 : Shape := ⟨3, ![8, 128, 128]⟩
abbrev S8x128 : Shape := ⟨2, ![8, 128]⟩
abbrev S8x128x1 : Shape := ⟨3, ![8, 128, 1]⟩

abbrev nBuf : Space → Nat
  | .hbm => 19
  | .vmem => 18
  | .smem => 0
  | _ => 0

abbrev bufTy : (tb : Table) → Fin (tcTables nBuf tb) → BufTy
  | .hbm, ⟨0, _⟩ => ⟨S2x512x512, .f32⟩
  | .hbm, ⟨1, _⟩ => ⟨S2x48x512, .f32⟩
  | .hbm, ⟨2, _⟩ => ⟨S2x1x512, .f32⟩
  | .hbm, ⟨3, _⟩ => ⟨S1024x1024, .f32⟩
  | .hbm, ⟨4, _⟩ => ⟨S1024, .f32⟩
  | .hbm, ⟨5, _⟩ => ⟨S128x1024, .f32⟩
  | .hbm, ⟨6, _⟩ => ⟨S128, .f32⟩
  | .hbm, ⟨7, _⟩ => ⟨S128x512, .f32⟩
  | .hbm, ⟨8, _⟩ => ⟨S128, .f32⟩
  | .hbm, ⟨9, _⟩ => ⟨S1024x512, .f32⟩
  | .hbm, ⟨10, _⟩ => ⟨S1024x512, .bf16⟩
  | .hbm, ⟨11, _⟩ => ⟨S1024x512, .f32⟩
  | .hbm, ⟨12, _⟩ => ⟨S1024x512, .bf16⟩
  | .hbm, ⟨13, _⟩ => ⟨S128x1024, .bf16⟩
  | .hbm, ⟨14, _⟩ => ⟨S128x512, .bf16⟩
  | .hbm, ⟨15, _⟩ => ⟨S2x512x512, .bf16⟩
  | .hbm, ⟨16, _⟩ => ⟨S2x48x512, .bf16⟩
  | .hbm, ⟨17, _⟩ => ⟨S2x128x512, .f32⟩
  | .hbm, ⟨18, _⟩ => ⟨S2x48x512x128, .f32⟩
  | .local _ .vmem, ⟨0, _⟩ => ⟨S1x128x512, .bf16⟩
  | .local _ .vmem, ⟨1, _⟩ => ⟨S1x128x512, .bf16⟩
  | .local _ .vmem, ⟨2, _⟩ => ⟨S1x8x512, .bf16⟩
  | .local _ .vmem, ⟨3, _⟩ => ⟨S1x8x512, .bf16⟩
  | .local _ .vmem, ⟨4, _⟩ => ⟨S1x1x128, .f32⟩
  | .local _ .vmem, ⟨5, _⟩ => ⟨S1x1x128, .f32⟩
  | .local _ .vmem, ⟨6, _⟩ => ⟨S1024x512, .bf16⟩
  | .local _ .vmem, ⟨7, _⟩ => ⟨S1024x512, .bf16⟩
  | .local _ .vmem, ⟨8, _⟩ => ⟨S1024, .f32⟩
  | .local _ .vmem, ⟨9, _⟩ => ⟨S128x1024, .bf16⟩
  | .local _ .vmem, ⟨10, _⟩ => ⟨S128, .f32⟩
  | .local _ .vmem, ⟨11, _⟩ => ⟨S128x512, .bf16⟩
  | .local _ .vmem, ⟨12, _⟩ => ⟨S128, .f32⟩
  | .local _ .vmem, ⟨13, _⟩ => ⟨S1x128x128, .f32⟩
  | .local _ .vmem, ⟨14, _⟩ => ⟨S1x128x128, .f32⟩
  | .local _ .vmem, ⟨15, _⟩ => ⟨S1x8x128x128, .f32⟩
  | .local _ .vmem, ⟨16, _⟩ => ⟨S1x8x128x128, .f32⟩
  | .local _ .vmem, ⟨17, _⟩ => ⟨S128x1024, .f32⟩
  | _, _ => ⟨S2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨3, ![2, 4, 6], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x8x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x8x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

class Facts₀ : Prop where
  slices_S1024x1024_S1024x512_0_0 : S1024x1024.Slices ![0, 0] S1024x512
  bitsLt_bf16_f32 : FTy.bits .bf16 < FTy.bits .f32
  slices_S1024x1024_S1024x512_0_512 : S1024x1024.Slices ![0, 512] S1024x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  transposes_S1024x512_p1_0_S512x1024 : S1024x512.Transposes [1, 0] S512x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S128x512_S128x512_0_0 : ∀ a, (![0, 0] : Fin 2 → Nat) a + S128x512.size a ≤ S128x512.size a
  h_S128x512 : 0 < S128x512.numel
  shapeCasts_S128x512_S128x512 : S128x512.ShapeCasts S128x512
  transposes_S128x512_p1_0_S512x128 : S128x512.Transposes [1, 0] S512x128
  inb_S128_S128_0 : ∀ a, (![0] : Fin 1 → Nat) a + S128.size a ≤ S128.size a
  h_S128 : 0 < S128.numel
  shapeCasts_S128_S128x1 : S128.ShapeCasts S128x1
  broadcasts_S128x1_S128x128 : S128x1.Broadcasts S128x128
  inb_S1x1x128_S1x1x128_0_0_0 : ∀ a, (![0, 0, 0] : Fin 3 → Nat) a + S1x1x128.size a ≤ S1x1x128.size a
  h_S1x1x128 : 0 < S1x1x128.numel
  shapeCasts_S1x1x128_S128 : S1x1x128.ShapeCasts S128
  shapeCasts_S128_S1x128 : S128.ShapeCasts S1x128
  broadcasts_S1x128_S128x128 : S1x128.Broadcasts S128x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  inb_S1x8x512_S1x8x512_0_0_0 : ∀ a, (![0, 0, 0] : Fin 3 → Nat) a + S1x8x512.size a ≤ S1x8x512.size a
  h_S1x8x512 : 0 < S1x8x512.numel
  shapeCasts_S1x8x512_S8x512 : S1x8x512.ShapeCasts S8x512
  shapeCasts_S8x1024_S8x1x1024 : S8x1024.ShapeCasts S8x1x1024
  shapeCasts_S128x1024_S1x128x1024 : S128x1024.ShapeCasts S1x128x1024
  broadcasts_S8x1x1024_S8x128x1024 : S8x1x1024.Broadcasts S8x128x1024
  broadcasts_S1x128x1024_S8x128x1024 : S1x128x1024.Broadcasts S8x128x1024
  inb_S1024_S1024_0 : ∀ a, (![0] : Fin 1 → Nat) a + S1024.size a ≤ S1024.size a
  h_S1024 : 0 < S1024.numel
  shapeCasts_S1024_S1x1x1024 : S1024.ShapeCasts S1x1x1024
  broadcasts_S1x1x1024_S8x128x1024 : S1x1x1024.Broadcasts S8x128x1024
  shapeCasts_S8x128x1024_S1024x1024 : S8x128x1024.ShapeCasts S1024x1024
  transposes_S128x1024_p1_0_S1024x128 : S128x1024.Transposes [1, 0] S1024x128
  shapeCasts_S1024x128_S8x128x128 : S1024x128.ShapeCasts S8x128x128
  shapeCasts_S128_S1x1x128 : S128.ShapeCasts S1x1x128
  broadcasts_S1x1x128_S8x128x128 : S1x1x128.Broadcasts S8x128x128
  reduces_S8x128x128_S8x128 : S8x128x128.Reduces [2] S8x128
  shapeCasts_S8x128_S8x128x1 : S8x128.ShapeCasts S8x128x1
  broadcasts_S8x128x1_S8x128x128 : S8x128x1.Broadcasts S8x128x128
  inb_S1x8x128x128_S1x8x128x128_0_0_0_0 : ∀ a, (![0, 0, 0, 0] : Fin 4 → Nat) a + S1x8x128x128.size a ≤ S1x8x128x128.size a
  h_S1x8x128x128 : 0 < S1x8x128x128.numel
  shapeCasts_S1x8x128x128_S8x128x128 : S1x8x128x128.ShapeCasts S8x128x128
  shapeCasts_S8x128x128_S1x8x128x128 : S8x128x128.ShapeCasts S1x8x128x128
  dot_S128x512_S512x1024_S128x1024_1_0_0_1_n_n_wf : DotDims.WF S128x512 S512x1024 S128x1024 [1] [0] [0] [1] [] []
  dot_S128x512_S512x128_S128x128_1_0_0_1_n_n_wf : DotDims.WF S128x512 S512x128 S128x128 [1] [0] [0] [1] [] []
  dot_S8x512_S512x1024_S8x1024_1_0_0_1_n_n_wf : DotDims.WF S8x512 S512x1024 S8x1024 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x512.size a ≤ S2x512x512.size a
  hwx0_0 : ∀ i : grid0.Coords, EltTy.bits .bf16 = 32 ∨ (Rect.block (s := S2x512x512) S1x128x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x512.size a ≤ S2x48x512.size a
  hwx0_1 : ∀ i : grid0.Coords, EltTy.bits .bf16 = 32 ∨ (Rect.block (s := S2x48x512) S1x8x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S2x1x512.size a
  hwx0_2 : ∀ i : grid0.Coords, EltTy.bits .f32 = 32 ∨ (Rect.block (s := S2x1x512) S1x1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .bf16 = 32 ∨ (Rect.block (s := S1024x512) S1024x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S1024x512.size a
  hwx0_4 : ∀ i : grid0.Coords, EltTy.bits .bf16 = 32 ∨ (Rect.block (s := S1024x512) S1024x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S128x1024.size a
  hwx0_6 : ∀ i : grid0.Coords, EltTy.bits .bf16 = 32 ∨ (Rect.block (s := S128x1024) S128x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x512.size a ≤ S128x512.size a
  hwx0_8 : ∀ i : grid0.Coords, EltTy.bits .bf16 = 32 ∨ (Rect.block (s := S128x512) S128x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x128x128.size a ≤ S2x128x512.size a
  hwx0_10 : ∀ i : grid0.Coords, EltTy.bits .f32 = 32 ∨ (Rect.block (s := S2x128x512) S1x128x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x8x128x128.size a ≤ S2x48x512x128.size a
  hwx0_11 : ∀ i : grid0.Coords, EltTy.bits .f32 = 32 ∨ (Rect.block (s := S2x48x512x128) S1x8x128x128.size (cc0_transform_11 i) (hinb0_11 i)).WholeWords (EltTy.packing .f32)

variable [Facts₀]

def dot_S128x512_S512x1024_S128x1024_1_0_0_1_n_n : DotDims S128x512 S512x1024 S128x1024 where
  lhsContracting := [1]
  rhsContracting := [0]
  lhsNonContracting := [0]
  rhsNonContracting := [1]
  lhsBatch := []
  rhsBatch := []
  wf := dot_S128x512_S512x1024_S128x1024_1_0_0_1_n_n_wf
def dot_S128x512_S512x128_S128x128_1_0_0_1_n_n : DotDims S128x512 S512x128 S128x128 where
  lhsContracting := [1]
  rhsContracting := [0]
  lhsNonContracting := [0]
  rhsNonContracting := [1]
  lhsBatch := []
  rhsBatch := []
  wf := dot_S128x512_S512x128_S128x128_1_0_0_1_n_n_wf
def dot_S8x512_S512x1024_S8x1024_1_0_0_1_n_n : DotDims S8x512 S512x1024 S8x1024 where
  lhsContracting := [1]
  rhsContracting := [0]
  lhsNonContracting := [0]
  rhsNonContracting := [1]
  lhsBatch := []
  rhsBatch := []
  wf := dot_S8x512_S512x1024_S8x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_v6) S1x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x8x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S128x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S128x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8_0) S1x128x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v8_1) S1x8x128x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond1 i == 1#1) | 11 => fun _ => false | ⟨_ + 12, h⟩ => absurd h (Nat.not_lt.2 (Nat.le_add_left _ _))

class Facts : Prop extends Facts₀ where

variable [Facts]
-- ==== ReferenceIdeal.lean ====
abbrev S2x512x512 : Shape := ⟨3, ![2, 512, 512]⟩
abbrev S2x48x512 : Shape := ⟨3, ![2, 48, 512]⟩
abbrev S2x1x512 : Shape := ⟨3, ![2, 1, 512]⟩
abbrev S1024x1024 : Shape := ⟨2, ![1024, 1024]⟩
abbrev S1024 : Shape := ⟨1, ![1024]⟩
abbrev S128x1024 : Shape := ⟨2, ![128, 1024]⟩
abbrev S128 : Shape := ⟨1, ![128]⟩
abbrev S128x512 : Shape := ⟨2, ![128, 512]⟩
abbrev S128x2x512 : Shape := ⟨3, ![128, 2, 512]⟩
abbrev S2x128x512 : Shape := ⟨3, ![2, 128, 512]⟩
abbrev S1x128x1 : Shape := ⟨3, ![1, 128, 1]⟩
abbrev S1024x512 : Shape := ⟨2, ![1024, 512]⟩
abbrev S2x48x1024 : Shape := ⟨3, ![2, 48, 1024]⟩
abbrev S2x512x1024 : Shape := ⟨3, ![2, 512, 1024]⟩
abbrev S2x48x1x1024 : Shape := ⟨4, ![2, 48, 1, 1024]⟩
abbrev S2x1x512x1024 : Shape := ⟨4, ![2, 1, 512, 1024]⟩
abbrev S2x48x512x1024 : Shape := ⟨4, ![2, 48, 512, 1024]⟩
abbrev S1x1x1x1024 : Shape := ⟨4, ![1, 1, 1, 1024]⟩
abbrev S2x48x512x128 : Shape := ⟨4, ![2, 48, 512, 128]⟩
abbrev S1x1x1x128 : Shape := ⟨4, ![1, 1, 1, 128]⟩
abbrev S_ : Shape := ⟨0, ![]⟩
abbrev S2x48x512x1 : Shape := ⟨4, ![2, 48, 512, 1]⟩

abbrev nBuf : Space → Nat
  | .hbm => 48
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S2x48x512, .f32⟩
  | .hbm, ⟨2, _⟩ => ⟨S2x1x512, .f32⟩
  | .hbm, ⟨3, _⟩ => ⟨S1024x1024, .f32⟩
  | .hbm, ⟨4, _⟩ => ⟨S1024, .f32⟩
  | .hbm, ⟨5, _⟩ => ⟨S128x1024, .f32⟩
  | .hbm, ⟨6, _⟩ => ⟨S128, .f32⟩
  | .hbm, ⟨7, _⟩ => ⟨S128x512, .f32⟩
  | .hbm, ⟨8, _⟩ => ⟨S128, .f32⟩
  | .hbm, ⟨9, _⟩ => ⟨S128x2x512, .f32⟩
  | .hbm, ⟨10, _⟩ => ⟨S2x128x512, .f32⟩
  | .hbm, ⟨11, _⟩ => ⟨S1x128x1, .f32⟩
  | .hbm, ⟨12, _⟩ => ⟨S2x128x512, .f32⟩
  | .hbm, ⟨13, _⟩ => ⟨S2x128x512, .f32⟩
  | .hbm, ⟨14, _⟩ => ⟨S2x128x512, .f32⟩
  | .hbm, ⟨15, _⟩ => ⟨S2x128x512, .f32⟩
  | .hbm, ⟨16, _⟩ => ⟨S1024x512, .f32⟩
  | .hbm, ⟨17, _⟩ => ⟨S1024x512, .f32⟩
  | .hbm, ⟨18, _⟩ => ⟨S2x48x1024, .f32⟩
  | .hbm, ⟨19, _⟩ => ⟨S2x512x1024, .f32⟩
  | .hbm, ⟨20, _⟩ => ⟨S2x48x1x1024, .f32⟩
  | .hbm, ⟨21, _⟩ => ⟨S2x1x512x1024, .f32⟩
  | .hbm, ⟨22, _⟩ => ⟨S2x48x512x1024, .f32⟩
  | .hbm, ⟨23, _⟩ => ⟨S2x48x512x1024, .f32⟩
  | .hbm, ⟨24, _⟩ => ⟨S2x48x512x1024, .f32⟩
  | .hbm, ⟨25, _⟩ => ⟨S1x1x1x1024, .f32⟩
  | .hbm, ⟨26, _⟩ => ⟨S2x48x512x1024, .f32⟩
  | .hbm, ⟨27, _⟩ => ⟨S2x48x512x1024, .f32⟩
  | .hbm, ⟨28, _⟩ => ⟨S2x48x512x1024, .f32⟩
  | .hbm, ⟨29, _⟩ => ⟨S2x48x512x128, .f32⟩
  | .hbm, ⟨30, _⟩ => ⟨S1x1x1x128, .f32⟩
  | .hbm, ⟨31, _⟩ => ⟨S2x48x512x128, .f32⟩
  | .hbm, ⟨32, _⟩ => ⟨S2x48x512x128, .f32⟩
  | .hbm, ⟨33, _⟩ => ⟨S_, .f32⟩
  | .hbm, ⟨34, _⟩ => ⟨S2x48x512, .f32⟩
  | .hbm, ⟨35, _⟩ => ⟨S_, .f32⟩
  | .hbm, ⟨36, _⟩ => ⟨S2x48x512, .f32⟩
  | .hbm, ⟨37, _⟩ => ⟨S2x48x512, .f32⟩
  | .hbm, ⟨38, _⟩ => ⟨S2x48x512x1, .f32⟩
  | .hbm, ⟨39, _⟩ => ⟨S2x48x512x128, .f32⟩
  | .hbm, ⟨40, _⟩ => ⟨S2x48x512x128, .f32⟩
  | .hbm, ⟨41, _⟩ => ⟨S2x48x512x128, .f32⟩
  | .hbm, ⟨42, _⟩ => ⟨S_, .f32⟩
  | .hbm, ⟨43, _⟩ => ⟨S2x48x512, .f32⟩
  | .hbm, ⟨44, _⟩ => ⟨S2x48x512x1, .f32⟩
  | .hbm, ⟨45, _⟩ => ⟨S2x48x512x1, .f32⟩
  | .hbm, ⟨46, _⟩ => ⟨S2x48x512x128, .f32⟩
  | .hbm, ⟨47, _⟩ => ⟨S2x48x512x128, .f32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_cst : Ref sig .tc := ⟨.hbm, 33, rfl⟩
abbrev main_call0_v0 : Ref sig .tc := ⟨.hbm, 34, rfl⟩
abbrev main_call0_cst_0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_cst_1 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_v24 : Ref sig .tc := ⟨.hbm, 47, rfl⟩

abbrev nD : Nat := 1
abbrev τ : Topo := Topo.v7x

variable {F : FTy → Type} [FloatOps F]

class Facts₀ : Prop where
  transposes_S128x2x512_S2x128x512_1_0_2 : S128x2x512.Transposes [1, 0, 2] S2x128x512
  bcast_S128_S1x128x1_1 : S128.BroadcastsInDim S1x128x1 (![1] : Fin 1 → Fin S1x128x1.rank)
  bcast_S1x128x1_S2x128x512_0_1_2 : S1x128x1.BroadcastsInDim S2x128x512 (![0, 1, 2] : Fin 3 → Fin S2x128x512.rank)
  bcast_S2x1x512_S2x128x512_0_1_2 : S2x1x512.BroadcastsInDim S2x128x512 (![0, 1, 2] : Fin 3 → Fin S2x128x512.rank)
  slices_S1024x1024_S1024x512_0_0 : S1024x1024.Slices ![0, 0] S1024x512
  slices_S1024x1024_S1024x512_0_512 : S1024x1024.Slices ![0, 512] S1024x512
  bcast_S2x48x1024_S2x48x1x1024_0_1_3 : S2x48x1024.BroadcastsInDim S2x48x1x1024 (![0, 1, 3] : Fin 3 → Fin S2x48x1x1024.rank)
  bcast_S2x512x1024_S2x1x512x1024_0_2_3 : S2x512x1024.BroadcastsInDim S2x1x512x1024 (![0, 2, 3] : Fin 3 → Fin S2x1x512x1024.rank)
  bcast_S2x48x1x1024_S2x48x512x1024_0_1_2_3 : S2x48x1x1024.BroadcastsInDim S2x48x512x1024 (![0, 1, 2, 3] : Fin 4 → Fin S2x48x512x1024.rank)
  bcast_S2x1x512x1024_S2x48x512x1024_0_1_2_3 : S2x1x512x1024.BroadcastsInDim S2x48x512x1024 (![0, 1, 2, 3] : Fin 4 → Fin S2x48x512x1024.rank)
  bcast_S1024_S1x1x1x1024_3 : S1024.BroadcastsInDim S1x1x1x1024 (![3] : Fin 1 → Fin S1x1x1x1024.rank)
  bcast_S1x1x1x1024_S2x48x512x1024_0_1_2_3 : S1x1x1x1024.BroadcastsInDim S2x48x512x1024 (![0, 1, 2, 3] : Fin 4 → Fin S2x48x512x1024.rank)
  bcast_S128_S1x1x1x128_3 : S128.BroadcastsInDim S1x1x1x128 (![3] : Fin 1 → Fin S1x1x1x128.rank)
  bcast_S1x1x1x128_S2x48x512x128_0_1_2_3 : S1x1x1x128.BroadcastsInDim S2x48x512x128 (![0, 1, 2, 3] : Fin 4 → Fin S2x48x512x128.rank)
  reducesTo_S2x48x512x128_S2x48x512_d3 : S2x48x512x128.ReducesTo [3] S2x48x512
  h_S_ : 0 < S_.numel
  bcast_S_S2x48x512 : S_.BroadcastsInDim S2x48x512 (![] : Fin 0 → Fin S2x48x512.rank)
  bcast_S2x48x512_S2x48x512x1_0_1_2 : S2x48x512.BroadcastsInDim S2x48x512x1 (![0, 1, 2] : Fin 3 → Fin S2x48x512x1.rank)
  bcast_S2x48x512x1_S2x48x512x128_0_1_2_3 : S2x48x512x1.BroadcastsInDim S2x48x512x128 (![0, 1, 2, 3] : Fin 4 → Fin S2x48x512x128.rank)
  dot_S128x512_S2x512x512_S128x2x512_1_2_0_01_n_n_wf : DotDims.WF S128x512 S2x512x512 S128x2x512 [1] [2] [0] [0, 1] [] []
  dot_S2x48x512_S1024x512_S2x48x1024_2_1_01_0_n_n_wf : DotDims.WF S2x48x512 S1024x512 S2x48x1024 [2] [1] [0, 1] [0] [] []
  dot_S2x512x512_S1024x512_S2x512x1024_2_1_01_0_n_n_wf : DotDims.WF S2x512x512 S1024x512 S2x512x1024 [2] [1] [0, 1] [0] [] []
  dot_S2x48x512x1024_S128x1024_S2x48x512x128_3_1_012_0_n_n_wf : DotDims.WF S2x48x512x1024 S128x1024 S2x48x512x128 [3] [1] [0, 1, 2] [0] [] []

variable [Facts₀]

def dot_S128x512_S2x512x512_S128x2x512_1_2_0_01_n_n : DotDims S128x512 S2x512x512 S128x2x512 where
  lhsContracting := [1]
  rhsContracting := [2]
  lhsNonContracting := [0]
  rhsNonContracting := [0, 1]
  lhsBatch := []
  rhsBatch := []
  wf := dot_S128x512_S2x512x512_S128x2x512_1_2_0_01_n_n_wf
def dot_S2x48x512_S1024x512_S2x48x1024_2_1_01_0_n_n : DotDims S2x48x512 S1024x512 S2x48x1024 where
  lhsContracting := [2]
  rhsContracting := [1]
  lhsNonContracting := [0, 1]
  rhsNonContracting := [0]
  lhsBatch := []
  rhsBatch := []
  wf := dot_S2x48x512_S1024x512_S2x48x1024_2_1_01_0_n_n_wf
def dot_S2x512x512_S1024x512_S2x512x1024_2_1_01_0_n_n : DotDims S2x512x512 S1024x512 S2x512x1024 where
  lhsContracting := [2]
  rhsContracting := [1]
  lhsNonContracting := [0, 1]
  rhsNonContracting := [0]
  lhsBatch := []
  rhsBatch := []
  wf := dot_S2x512x512_S1024x512_S2x512x1024_2_1_01_0_n_n_wf
def dot_S2x48x512x1024_S128x1024_S2x48x512x128_3_1_012_0_n_n : DotDims S2x48x512x1024 S128x1024 S2x48x512x128 where
  lhsContracting := [3]
  rhsContracting := [1]
  lhsNonContracting := [0, 1, 2]
  rhsNonContracting := [0]
  lhsBatch := []
  rhsBatch := []
  wf := dot_S2x48x512x1024_S128x1024_S2x48x512x128_3_1_012_0_n_n_wf

class Facts : Prop extends Facts₀ where

variable [Facts]
-- ==== Proof.BodyK.lean ====
import proofs.«164176_j85237920956984_1_alg».proof.Proof.Gen.Kernel.Frame
import proofs.«164176_j85237920956984_1_alg».proof.Proof.Gen.Kernel.Skeleton
import Idealize.ShloMosaic.Lib.Pipeline.Value

set_option maxRecDepth 16384

noncomputable section

/-!
  The kernel body's run at one grid step, for any float instance, with what it leaves NAMED.

  A grid step is a point (b, ti, u) of the 2 × 4 × 6 grid. The body reads ten input blocks (x0 … x9 below: the 128 image
  rows of (b, ti), the 8 label rows of (b, u), the mask row, the two halves of the first layer, its bias, the second
  layer, its bias, the convolution weights and their bias), a scratch of 128 × 1024 numbers it keeps between steps,
  and writes two output blocks.

  * At u = 0 it stores the image projection (payload 3 of the ten blocks) into the scratch and the masked
    convolution (payload 4) into the first output block, and then, as at every step, the normalised class scores
    (payload 1 over payloads 5 and 6) of the label rows against the scratch into the second output block.
  * At u ≠ 0 it stores nothing into the scratch or the first output block: both keep what they held, and the
    second output block is computed from the scratch as it was found.
-/

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The class scores a step stores, from its label-side blocks and the scratch contents `sc`. -/
abbrev scores (x1 : Vec F S1x8x512 .bf16) (x3 : Vec F S1024x512 .bf16) (sc : Vec F S128x1024 .f32) (x5 : Vec F S1024 .f32)
    (x6 : Vec F S128x1024 .bf16) (x7 : Vec F S128 .f32) : Vec F S1x8x128x128 .f32 :=
  k0_pay1 (k0_pay5 x1 x3 sc x5 x6 x7) (k0_pay6 x1 x3 sc x5 x6 x7)

set_option maxHeartbeats 1000000 in
/-- A step with u = 0: the scratch and both output blocks may hold anything; afterwards the scratch holds the image
    projection, the first output block the masked convolution, the second the class scores over that projection. -/
theorem runA (c : Dev nD) (i : grid0.Coords) (arg3 : Memref sig .tc .vmem S1x128x512 .bf16) (harg3 : arg3.IsWhole) (arg4 : Memref sig .tc .vmem S1x8x512 .bf16) (harg4 : arg4.IsWhole) (arg5 : Memref sig .tc .vmem S1x1x128 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024 .f32) (harg8 : arg8.IsWhole) (arg9 : Memref sig .tc .vmem S128x1024 .bf16) (harg9 : arg9.IsWhole) (arg10 : Memref sig .tc .vmem S128 .f32) (harg10 : arg10.IsWhole) (arg11 : Memref sig .tc .vmem S128x512 .bf16) (harg11 : arg11.IsWhole) (arg12 : Memref sig .tc .vmem S128 .f32) (harg12 : arg12.IsWhole) (arg13 : Memref sig .tc .vmem S1x128x128 .f32) (harg13 : arg13.IsWhole) (arg14 : Memref sig .tc .vmem S1x8x128x128 .f32) (harg14 : arg14.IsWhole) (arg15 : Memref sig .tc .vmem S128x1024 .f32) (harg15 : arg15.IsWhole) (hc0 : k0_cond1 i = 1#1)
    (x0 : Vec F S1x128x512 .bf16) (x1 : Vec F S1x8x512 .bf16) (x2 : Vec F S1x1x128 .f32) (x3 : Vec F S1024x512 .bf16) (x4 : Vec F S1024x512 .bf16) (x5 : Vec F S1024 .f32) (x6 : Vec F S128x1024 .bf16) (x7 : Vec F S128 .f32) (x8 : Vec F S128x512 .bf16) (x9 : Vec F S128 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare (k0_pay4 x0 x8 x9 x2) ∗ owns (c : Thread nD τ) arg14 fullShare (scores x1 x3 (k0_pay3 x0 x4) x5 x6 x7) ∗ owns (c : Thread nD τ) arg15 fullShare (k0_pay3 x0 x4)) -∗ K ⟨⟩))
          ⊢ wp frame (wpE (defs₀ (F := F)) Variants.none c none) E (cc0__joint_kernel i arg3 harg3 arg4 harg4 arg5 harg5 arg6 harg6 arg7 harg7 arg8 harg8 arg9 harg9 arg10 harg10 arg11 harg11 arg12 harg12 arg13 harg13 arg14 harg14 arg15 harg15) K := by
    intro E K
    simp only [cc0__joint_kernel_eq_skeleton]; unfold cc0__joint_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; swap; · iexact H10
      ipureintro
      sl_unfold_run_names
      rw [View.read_writes_eq_canon _ _ _ (fun y => ⟨_, List.mem_singleton_self _, View.mem_set_unit_zero hz3 inb_S1x128x128_S1x128x128_0_0_0 y⟩)]
      rw [View.canon_unit_zero hz3]
      simp only [View.readAt_eq_ld, harg3.read_unread, harg4.read_unread, harg5.read_unread, harg6.read_unread, harg7.read_unread, harg8.read_unread, harg9.read_unread, harg10.read_unread, harg11.read_unread, harg12.read_unread, View.ld_unit_zero (S := S1x128x512) hz3, View.ld_unit_zero (S := S1x8x512) hz3, View.ld_unit_zero (S := S1x1x128) hz3, View.ld_unit_zero (S := S1024x512) hz2, View.ld_unit_zero (S := S1024) hz1, View.ld_unit_zero (S := S128x1024) hz2, View.ld_unit_zero (S := S128) hz1, View.ld_unit_zero (S := S128x512) hz2]
    isplitl [H11]
    · iexists _; isplitr; swap; · iexact H11
      ipureintro
      sl_unfold_run_names
      rw [View.read_writes_eq_canon _ _ _ (fun y => ⟨_, List.mem_singleton_self _, View.mem_set_unit_zero hz4 inb_S1x8x128x128_S1x8x128x128_0_0_0_0 y⟩)]
      rw [View.canon_unit_zero hz4]
      simp only [View.readAt_eq_ld, View.readCov_unit_zero (S := S128x1024) _ hz2, harg3.read_unread, harg4.read_unread, harg5.read_unread, harg6.read_unread, harg7.read_unread, harg8.read_unread, harg9.read_unread, harg10.read_unread, harg11.read_unread, harg12.read_unread, View.ld_unit_zero (S := S1x128x512) hz3, View.ld_unit_zero (S := S1x8x512) hz3, View.ld_unit_zero (S := S1x1x128) hz3, View.ld_unit_zero (S := S1024x512) hz2, View.ld_unit_zero (S := S1024) hz1, View.ld_unit_zero (S := S128x1024) hz2, View.ld_unit_zero (S := S128) hz1, View.ld_unit_zero (S := S128x512) hz2]
    iexists _; isplitr; swap; · iexact HS0
    ipureintro
    sl_unfold_run_names
    rw [View.read_writes_eq_canon _ _ _ (fun y => ⟨_, List.mem_singleton_self _, View.mem_set_unit_zero hz2 inb_S128x1024_S128x1024_0_0 y⟩)]
    rw [View.canon_unit_zero hz2]
    simp only [View.readAt_eq_ld, harg3.read_unread, harg4.read_unread, harg5.read_unread, harg6.read_unread, harg7.read_unread, harg8.read_unread, harg9.read_unread, harg10.read_unread, harg11.read_unread, harg12.read_unread, View.ld_unit_zero (S := S1x128x512) hz3, View.ld_unit_zero (S := S1x8x512) hz3, View.ld_unit_zero (S := S1x1x128) hz3, View.ld_unit_zero (S := S1024x512) hz2, View.ld_unit_zero (S := S1024) hz1, View.ld_unit_zero (S := S128x1024) hz2, View.ld_unit_zero (S := S128) hz1, View.ld_unit_zero (S := S128x512) hz2]

set_option maxHeartbeats 1000000 in
/-- A step with u ≠ 0: the scratch holds `sc` and the first output block `d13`, both are handed back untouched, and
    the second output block ends at the class scores over `sc`. -/
theorem runB (c : Dev nD) (i : grid0.Coords) (arg3 : Memref sig .tc .vmem S1x128x512 .bf16) (harg3 : arg3.IsWhole) (arg4 : Memref sig .tc .vmem S1x8x512 .bf16) (harg4 : arg4.IsWhole) (arg5 : Memref sig .tc .vmem S1x1x128 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024 .f32) (harg8 : arg8.IsWhole) (arg9 : Memref sig .tc .vmem S128x1024 .bf16) (harg9 : arg9.IsWhole) (arg10 : Memref sig .tc .vmem S128 .f32) (harg10 : arg10.IsWhole) (arg11 : Memref sig .tc .vmem S128x512 .bf16) (harg11 : arg11.IsWhole) (arg12 : Memref sig .tc .vmem S128 .f32) (harg12 : arg12.IsWhole) (arg13 : Memref sig .tc .vmem S1x128x128 .f32) (harg13 : arg13.IsWhole) (arg14 : Memref sig .tc .vmem S1x8x128x128 .f32) (harg14 : arg14.IsWhole) (arg15 : Memref sig .tc .vmem S128x1024 .f32) (harg15 : arg15.IsWhole) (hc0 : ¬ k0_cond1 i = 1#1)
    (x0 : Vec F S1x128x512 .bf16) (x1 : Vec F S1x8x512 .bf16) (x2 : Vec F S1x1x128 .f32) (x3 : Vec F S1024x512 .bf16) (x4 : Vec F S1024x512 .bf16) (x5 : Vec F S1024 .f32) (x6 : Vec F S128x1024 .bf16) (x7 : Vec F S128 .f32) (x8 : Vec F S128x512 .bf16) (x9 : Vec F S128 .f32) (d13 : Vec F S1x128x128 .f32) (sc : Vec F S128x1024 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare d13 ∗ (∃ d, owns (c : Thread nD τ) arg14 fullShare d) ∗ owns (c : Thread nD τ) arg15 fullShare sc
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare d13 ∗ owns (c : Thread nD τ) arg14 fullShare (scores x1 x3 sc x5 x6 x7) ∗ owns (c : Thread nD τ) arg15 fullShare sc) -∗ K ⟨⟩))
          ⊢ wp frame (wpE (defs₀ (F := F)) Variants.none c none) E (cc0__joint_kernel i arg3 harg3 arg4 harg4 arg5 harg5 arg6 harg6 arg7 harg7 arg8 harg8 arg9 harg9 arg10 harg10 arg11 harg11 arg12 harg12 arg13 harg13 arg14 harg14 arg15 harg15) K := by
    intro E K
    simp only [cc0__joint_kernel_eq_skeleton]; unfold cc0__joint_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9
    obtain rfl := harg13.eq_unread hf10; obtain rfl := harg15.eq_unread hfs0
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; swap; · iexact H11
      ipureintro
      sl_unfold_run_names
      rw [View.read_writes_eq_canon _ _ _ (fun y => ⟨_, List.mem_singleton_self _, View.mem_set_unit_zero hz4 inb_S1x8x128x128_S1x8x128x128_0_0_0_0 y⟩)]
      rw [View.canon_unit_zero hz4]
      simp only [View.readAt_eq_ld, harg15.read_unread, harg3.read_unread, harg4.read_unread, harg5.read_unread, harg6.read_unread, harg7.read_unread, harg8.read_unread, harg9.read_unread, harg10.read_unread, harg11.read_unread, harg12.read_unread, View.ld_unit_zero (S := S1x128x512) hz3, View.ld_unit_zero (S := S1x8x512) hz3, View.ld_unit_zero (S := S1x1x128) hz3, View.ld_unit_zero (S := S1024x512) hz2, View.ld_unit_zero (S := S1024) hz1, View.ld_unit_zero (S := S128x1024) hz2, View.ld_unit_zero (S := S128) hz1, View.ld_unit_zero (S := S128x512) hz2]
    iexists _; isplitr; · ipureintro; exact harg15.read_unread _
    iexact HS0

end Cert.Kernel.Body

end
-- ==== Proof.FrameK.lean ====
import proofs.«164176_j85237920956984_1_alg».proof.Proof.BodyK
import Idealize.ShloMosaic.Lib.Pipeline.Value

set_option maxRecDepth 16384

noncomputable section

/-!
  The pipeline's proof data and the frame run, for any float instance.

  The 48 grid steps fall into eight runs of six (u = 0 … 5) sharing one (b, ti). Within a run the image block, the
  mask row and the first output's block index do not move. At the run's first step the body fills the scratch with
  the image projection and the first output's staging buffer with the masked convolution; the five later steps
  leave both as they are, and the buffer is written back after the last one. So at EVERY step of a run the scratch
  and that buffer hold the payloads of the run's FIRST step (its "anchor"), and the second output's buffer holds the
  class scores of the step's own label rows over that scratch.
-/

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

/-- The branch is taken exactly at the first step of each run of six. -/
theorem hcond : ∀ t : Fin cfg0.N, k0_cond1 (grid0.coords t) = 1#1 ↔ t.val % 6 = 0 :=
  (by decide +kernel : ∀ t : Fin grid0.N, k0_cond1 (grid0.coords t) = 1#1 ↔ t.val % 6 = 0)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_11 : ∀ t : Fin cfg0.N, cfg0.idle 11 (grid0.coords t) = false := by decide +kernel
/-- The first output's window is idle at every step but a run's first. -/
theorem idle10 : ∀ t : Fin cfg0.N, cfg0.idle 10 (grid0.coords t) = true ↔ ¬ t.val % 6 = 0 :=
  (by decide +kernel : ∀ t : Fin grid0.N, cfg0.idle 10 (grid0.coords t) = true ↔ ¬ t.val % 6 = 0)

abbrev ms0_0 (t : Fin cfg0.N) : Memref sig .tc .vmem S1x128x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x8x128x128 .f32 := win0_11.stage (cfg0.slots t 11)
abbrev hs0_11 (t : Fin cfg0.N) : (ms0_11 t).IsWhole := hstage0_11 ((cfg0.slots t 11).cast nbuf0_11)
/-- The scratch: a whole buffer of the kernel's own. -/
abbrev scM0_0 : Memref sig .tc .vmem S128x1024 .f32 := Memref.whole cc0_scratch0

/-- Between steps the kernel's own state is its scratch, at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## Runs of six steps -/

/-- The first step of the run a step belongs to. -/
def anchor (t : Fin cfg0.N) : Fin cfg0.N := ⟨t.val - t.val % 6, lt_of_le_of_lt (Nat.sub_le _ _) t.isLt⟩

theorem anchor_first (t : Fin cfg0.N) (h : t.val % 6 = 0) : anchor t = t :=
  Fin.ext (by show t.val - t.val % 6 = t.val; omega)

/-- A step that is not a run's first has the anchor of the step before it. -/
theorem anchor_pred (t : Fin cfg0.N) (h : ¬ t.val % 6 = 0) :
    anchor ⟨t.val - 1, Nat.lt_of_le_of_lt (Nat.sub_le _ _) t.isLt⟩ = anchor t :=
  Fin.ext (by show t.val - 1 - (t.val - 1) % 6 = t.val - t.val % 6; omega)

/-! ## What the buffers hold -/

/-- The scratch during a run: the image projection of the run's image block. -/
def scrAt (c : Dev nD) (t : Fin cfg0.N) : Vec F S128x1024 .f32 :=
  k0_pay3 (iblk m c 0 (anchor t)) (iblk m c 4 (anchor t))

/-- The first output's staging buffer during a run: the masked convolution of the run's image block. -/
def segBlk (c : Dev nD) (t : Fin cfg0.N) : Vec F S1x128x128 .f32 :=
  k0_pay4 (iblk m c 0 (anchor t)) (iblk m c 8 (anchor t)) (iblk m c 9 (anchor t)) (iblk m c 2 (anchor t))

/-- The second output's staging buffer after a step: the class scores of the step's label rows over the scratch. -/
def jointBlk (c : Dev nD) (t : Fin cfg0.N) : Vec F S1x8x128x128 .f32 :=
  scores (iblk m c 1 t) (iblk m c 3 t) (scrAt m c t) (iblk m c 5 t) (iblk m c 6 t) (iblk m c 7 t)

theorem scrAt_first (c : Dev nD) (t : Fin cfg0.N) (h : t.val % 6 = 0) :
    scrAt m c t = k0_pay3 (iblk m c 0 t) (iblk m c 4 t) := by unfold scrAt; rw [anchor_first t h]
theorem segBlk_first (c : Dev nD) (t : Fin cfg0.N) (h : t.val % 6 = 0) :
    segBlk m c t = k0_pay4 (iblk m c 0 t) (iblk m c 8 t) (iblk m c 9 t) (iblk m c 2 t) := by unfold segBlk; rw [anchor_first t h]
theorem scrAt_pred (c : Dev nD) (t : Fin cfg0.N) (h : ¬ t.val % 6 = 0) :
    scrAt m c ⟨t.val - 1, Nat.lt_of_le_of_lt (Nat.sub_le _ _) t.isLt⟩ = scrAt m c t := by unfold scrAt; rw [anchor_pred t h]
theorem segBlk_pred (c : Dev nD) (t : Fin cfg0.N) (h : ¬ t.val % 6 = 0) :
    segBlk m c ⟨t.val - 1, Nat.lt_of_le_of_lt (Nat.sub_le _ _) t.isLt⟩ = segBlk m c t := by unfold segBlk; rw [anchor_pred t h]

/-- The invariant before step `n`: before the first step the scratch holds anything; afterwards the image
    projection of the run of step `n - 1`. -/
def PhiS (c : Dev nD) : (n : ℕ) → n ≤ cfg0.N → sProp 𝕄
  | 0, _ => Pipeline.ΦA spec0 c
  | n + 1, hn => iprop(iprop(owns (c : Thread nD τ) scM0_0 fullShare (scrAt m c ⟨n, hn⟩)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (scrAt m c ⟨n, hn⟩)) ∗ (∃ r, prngReg c r)) := rfl
theorem PhiS_pos (c : Dev nD) (n : ℕ) (h : n ≤ cfg0.N) (hz : n ≠ 0) :
    PhiS m c n h = iprop(iprop(owns (c : Thread nD τ) scM0_0 fullShare (scrAt m c ⟨n - 1, by omega⟩)) ∗ (∃ r, prngReg c r)) := by
  cases n with
  | zero => exact absurd rfl hz
  | succ n => rfl

/-! ## The proof data -/

/-- The arrays as the region finds them; after each step every input's buffer at its block, the first output's at the
    run's masked convolution, the second's at the step's class scores; the invariant tracking the scratch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => segBlk m c t
    | ⟨11, _⟩ => jointBlk m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = segBlk m c t := by dsimp only [dats]
theorem after0_11 (c : Dev nD) (t : Fin cfg0.N) : (dats m 0 c).after 11 t = jointBlk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- At a step that is not a run's first, the first output's staging buffer still holds the run's masked convolution:
    it was filled at the run's first step, no later step of the run stores into it, and it is not written back
    before the run's last step. By induction along the run. -/
theorem before0_10 (c : Dev nD) (d) : ∀ (n : ℕ) (t : Fin cfg0.N), t.val = n → ¬ t.val % 6 = 0 →
    (dats m 0 c).before 10 t d = segBlk m c t := by
  intro n
  induction n using Nat.strong_induction_on with
  | _ n ih =>
    intro t htn h0
    have hN : t.val < 48 := lt_of_lt_of_eq t.isLt (show cfg0.N = 48 from N_0)
    have ht : t.val ≠ 0 := fun h => h0 (by rw [h])
    have hfl : (cfg0.win 10).flush ⟨t.val - 1, Nat.lt_of_le_of_lt (Nat.sub_le _ _) t.isLt⟩ = false :=
      Bool.eq_false_iff.mpr fun h => by have := (flush0_10 _).mp h; dsimp only at this; omega
    rw [(dats m 0 c).before_of_pos 10 t ht ((cfg0.win 10).fetch_out rfl t), hfl, if_neg Bool.false_ne_true]
    unfold Dat.left
    have hcoords : ∀ b : Bool, cfg0.idle 10 (grid0.coords ⟨t.val - 1, Nat.lt_of_le_of_lt (Nat.sub_le _ _) t.isLt⟩) = b →
        (b = true ↔ ¬ (t.val - 1) % 6 = 0) := fun b hb => by rw [← hb]; exact idle10 _
    split
    · rename_i hq
      have hp : ¬ (t.val - 1) % 6 = 0 := (hcoords true hq).mp rfl
      rw [ih (t.val - 1) (by omega) ⟨t.val - 1, Nat.lt_of_le_of_lt (Nat.sub_le _ _) t.isLt⟩ rfl hp, segBlk_pred m c t h0]
    · rename_i hq
      show (dats m 0 c).after 10 ⟨t.val - 1, Nat.lt_of_le_of_lt (Nat.sub_le _ _) t.isLt⟩ = segBlk m c t
      rw [after0_10, segBlk_pred m c t h0]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 4800000 in
/-- The body at any step. At a run's first step the run with u = 0 applies, whatever the scratch and the output buffers
    held; at a later step the run with u ≠ 0 applies, the scratch found at the run's image projection (the invariant)
    and the first output's buffer at the run's masked convolution, which is what it must hold when the run's last
    step writes it back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ]
  have hN : t.val < 48 := lt_of_lt_of_eq t.isLt (show cfg0.N = 48 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 11 t = owns (c : Thread nD τ) (ms0_11 t) fullShare ((dats m 0 c).after 11 t) from by
    unfold Dat.leavesExact; rw [liveAt0_11 t], after0_11]
  by_cases h0 : t.val % 6 = 0
  · have hlive : cfg0.idle 10 (grid0.coords t) = false := by
      cases hh : cfg0.idle 10 (grid0.coords t) with
      | false => rfl
      | true => exact absurd h0 ((idle10 t).mp hh)
    rw [show (dats m 0 c).leavesExact 10 t = owns (c : Thread nD τ) (ms0_10 t) fullShare ((dats m 0 c).after 10 t) from by
      unfold Dat.leavesExact; rw [hlive], after0_10]
    rw [show scrAt m c ⟨t.val, t.isLt⟩ = k0_pay3 (iblk m c 0 t) (iblk m c 4 t) from scrAt_first m c t h0,
      segBlk_first m c t h0]
    unfold jointBlk
    rw [scrAt_first m c t h0]
    have hΦ : (dats m 0 c).Φ t.castSucc ⊢ (iprop(iprop((∃ d, owns (c : Thread nD τ) scM0_0 fullShare d)) ∗ (∃ r, prngReg c r)) : sProp 𝕄) := by
      rw [PhiS_castSucc m c t]
      by_cases hz : t.val = 0
      · rw [PhiS_zero m c _ _ hz, PhiA0_eq]
      · rw [PhiS_pos m c _ _ hz]
        iintro ⟨HS0, Hg⟩
        isplitl [HS0]
        · iexists _; iexact HS0
        iexact Hg
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    ihave HΦ' := hΦ $$ HΦ
    icases HΦ' with ⟨HS0, Hg⟩
    iapply ((runA c (grid0.coords t) _ _ _ _ _ _ _ _ _ _ _ _ _ _ _ _ _ _ _ _ _ _ _ _ _ _ ((hcond t).mpr h0) (iblk m c 0 t) (iblk m c 1 t) (iblk m c 2 t) (iblk m c 3 t) (iblk m c 4 t) (iblk m c 5 t) (iblk m c 6 t) (iblk m c 7 t) (iblk m c 8 t) (iblk m c 9 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HS0]; · iexact HS0
    iintro ⟨H0, H1, H2, H3, H4, H5, H6, H7, H8, H9, H10, H11, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · have hidle : cfg0.idle 10 (grid0.coords t) = true := (idle10 t).mpr h0
    have hz : t.val ≠ 0 := fun h => h0 (by rw [h])
    rw [PhiS_castSucc m c t, PhiS_pos m c _ _ hz, scrAt_pred m c t h0]
    rw [show scrAt m c ⟨t.val, t.isLt⟩ = scrAt m c t from rfl]
    simp only [before0_10 m c _ t.val t rfl h0]
    unfold jointBlk
    by_cases h5 : t.val % 6 = 5
    · have hfl : (cfg0.win 10).flush t = true := (flush0_10 t).mpr h5
      rw [show (dats m 0 c).leavesExact 10 t = owns (c : Thread nD τ) (ms0_10 t) fullShare ((dats m 0 c).after 10 t) from by
        unfold Dat.leavesExact; rw [hidle, hfl], after0_10]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runB c (grid0.coords t) _ _ _ _ _ _ _ _ _ _ _ _ _ _ _ _ _ _ _ _ _ _ _ _ _ _ (fun h => h0 ((hcond t).mp h)) (iblk m c 0 t) (iblk m c 1 t) (iblk m c 2 t) (iblk m c 3 t) (iblk m c 4 t) (iblk m c 5 t) (iblk m c 6 t) (iblk m c 7 t) (iblk m c 8 t) (iblk m c 9 t) (segBlk m c t) (scrAt m c t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      iintro ⟨H0, H1, H2, H3, H4, H5, H6, H7, H8, H9, H10, H11, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · have hfl : (cfg0.win 10).flush t = false :=
        Bool.eq_false_iff.mpr fun h => h5 ((flush0_10 t).mp h)
      rw [Dat.leavesExact_idle (dats m 0 c) 10 t hidle hfl]
      simp only [before0_10 m c _ t.val t rfl h0]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runB c (grid0.coords t) _ _ _ _ _ _ _ _ _ _ _ _ _ _ _ _ _ _ _ _ _ _ _ _ _ _ (fun h => h0 ((hcond t).mp h)) (iblk m c 0 t) (iblk m c 1 t) (iblk m c 2 t) (iblk m c 3 t) (iblk m c 4 t) (iblk m c 5 t) (iblk m c 6 t) (iblk m c 7 t) (iblk m c 8 t) (iblk m c 9 t) (segBlk m c t) (scrAt m c t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      iintro ⟨H0, H1, H2, H3, H4, H5, H6, H7, H8, H9, H10, H11, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists (segBlk m c t); iexact H10
      iexact H11

/-- The library's body obligation, at every step. -/
theorem body_obligation (c : Dev nD) : BodyObligation (dats (F := F) m 0 c) (defs₀ (F := F)) Variants.none () Set.univ := fun t => by
  rw [bigSep_W0, bigSep_W0]
  exact sound_body m c t

/-- Before the first step the scratch may hold anything. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last step the scratch's contents are forgotten. -/
theorem hout (c : Dev nD) : (dats m 0 c).Φ (Fin.last cfg0.N) ⊢ Pipeline.ΦA spec0 c := by
  have hne : (Fin.last cfg0.N).val ≠ 0 := by rw [Fin.val_last]; have : cfg0.N = 48 := N_0; omega
  rw [show (dats m 0 c).Φ (Fin.last cfg0.N) = PhiS m c (Fin.last cfg0.N).val (Nat.le_of_lt_succ (Fin.last cfg0.N).isLt) from rfl,
    PhiS_pos m c _ _ hne, PhiA0_eq]
  iintro ⟨HS0, Hg⟩
  isplitl [HS0]
  · iexists _; iexact HS0
  iexact Hg

/-! ## The run and the frame -/

set_option backward.isDefEq.respectTransparency.types false in
/-- Every weakly fair execution of @main terminates with every array of the pipeline at what the proof data says:
    the inputs unchanged, each output array the write-backs of its blocks. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Body

end
-- ==== Proof.BodyKI.lean ====
import proofs.«164176_j85237920956984_1_alg».proof.Proof.Gen.KernelIdeal.Frame
import proofs.«164176_j85237920956984_1_alg».proof.Proof.Gen.KernelIdeal.Skeleton
import Idealize.ShloMosaic.Lib.Pipeline.Value

set_option maxRecDepth 16384

noncomputable section

/-!
  The kernel body's run at one grid step, for any float instance, with what it leaves NAMED.

  A grid step is a point (b, ti, u) of the 2 × 4 × 6 grid. The body reads ten input blocks (x0 … x9 below: the 128 image
  rows of (b, ti), the 8 label rows of (b, u), the mask row, the two halves of the first layer, its bias, the second
  layer, its bias, the convolution weights and their bias), a scratch of 128 × 1024 numbers it keeps between steps,
  and writes two output blocks.

  * At u = 0 it stores the image projection (payload 3 of the ten blocks) into the scratch and the masked
    convolution (payload 4) into the first output block, and then, as at every step, the normalised class scores
    (payload 1 over payloads 5 and 6) of the label rows against the scratch into the second output block.
  * At u ≠ 0 it stores nothing into the scratch or the first output block: both keep what they held, and the
    second output block is computed from the scratch as it was found.
-/

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The class scores a step stores, from its label-side blocks and the scratch contents `sc`. -/
abbrev scores (x1 : Vec F S1x8x512 .bf16) (x3 : Vec F S1024x512 .bf16) (sc : Vec F S128x1024 .f32) (x5 : Vec F S1024 .f32)
    (x6 : Vec F S128x1024 .bf16) (x7 : Vec F S128 .f32) : Vec F S1x8x128x128 .f32 :=
  k0_pay1 (k0_pay5 x1 x3 sc x5 x6 x7) (k0_pay6 x1 x3 sc x5 x6 x7)

set_option maxHeartbeats 1000000 in
/-- A step with u = 0: the scratch and both output blocks may hold anything; afterwards the scratch holds the image
    projection, the first output block the masked convolution, the second the class scores over that projection. -/
theorem runA (c : Dev nD) (i : grid0.Coords) (arg3 : Memref sig .tc .vmem S1x128x512 .bf16) (harg3 : arg3.IsWhole) (arg4 : Memref sig .tc .vmem S1x8x512 .bf16) (harg4 : arg4.IsWhole) (arg5 : Memref sig .tc .vmem S1x1x128 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024 .f32) (harg8 : arg8.IsWhole) (arg9 : Memref sig .tc .vmem S128x1024 .bf16) (harg9 : arg9.IsWhole) (arg10 : Memref sig .tc .vmem S128 .f32) (harg10 : arg10.IsWhole) (arg11 : Memref sig .tc .vmem S128x512 .bf16) (harg11 : arg11.IsWhole) (arg12 : Memref sig .tc .vmem S128 .f32) (harg12 : arg12.IsWhole) (arg13 : Memref sig .tc .vmem S1x128x128 .f32) (harg13 : arg13.IsWhole) (arg14 : Memref sig .tc .vmem S1x8x128x128 .f32) (harg14 : arg14.IsWhole) (arg15 : Memref sig .tc .vmem S128x1024 .f32) (harg15 : arg15.IsWhole) (hc0 : k0_cond1 i = 1#1)
    (x0 : Vec F S1x128x512 .bf16) (x1 : Vec F S1x8x512 .bf16) (x2 : Vec F S1x1x128 .f32) (x3 : Vec F S1024x512 .bf16) (x4 : Vec F S1024x512 .bf16) (x5 : Vec F S1024 .f32) (x6 : Vec F S128x1024 .bf16) (x7 : Vec F S128 .f32) (x8 : Vec F S128x512 .bf16) (x9 : Vec F S128 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare (k0_pay4 x0 x8 x9 x2) ∗ owns (c : Thread nD τ) arg14 fullShare (scores x1 x3 (k0_pay3 x0 x4) x5 x6 x7) ∗ owns (c : Thread nD τ) arg15 fullShare (k0_pay3 x0 x4)) -∗ K ⟨⟩))
          ⊢ wp frame (wpE (defs₀ (F := F)) Variants.none c none) E (cc0__joint_kernel i arg3 harg3 arg4 harg4 arg5 harg5 arg6 harg6 arg7 harg7 arg8 harg8 arg9 harg9 arg10 harg10 arg11 harg11 arg12 harg12 arg13 harg13 arg14 harg14 arg15 harg15) K := by
    intro E K
    simp only [cc0__joint_kernel_eq_skeleton]; unfold cc0__joint_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; swap; · iexact H10
      ipureintro
      sl_unfold_run_names
      rw [View.read_writes_eq_canon _ _ _ (fun y => ⟨_, List.mem_singleton_self _, View.mem_set_unit_zero hz3 inb_S1x128x128_S1x128x128_0_0_0 y⟩)]
      rw [View.canon_unit_zero hz3]
      simp only [View.readAt_eq_ld, harg3.read_unread, harg4.read_unread, harg5.read_unread, harg6.read_unread, harg7.read_unread, harg8.read_unread, harg9.read_unread, harg10.read_unread, harg11.read_unread, harg12.read_unread, View.ld_unit_zero (S := S1x128x512) hz3, View.ld_unit_zero (S := S1x8x512) hz3, View.ld_unit_zero (S := S1x1x128) hz3, View.ld_unit_zero (S := S1024x512) hz2, View.ld_unit_zero (S := S1024) hz1, View.ld_unit_zero (S := S128x1024) hz2, View.ld_unit_zero (S := S128) hz1, View.ld_unit_zero (S := S128x512) hz2]
    isplitl [H11]
    · iexists _; isplitr; swap; · iexact H11
      ipureintro
      sl_unfold_run_names
      rw [View.read_writes_eq_canon _ _ _ (fun y => ⟨_, List.mem_singleton_self _, View.mem_set_unit_zero hz4 inb_S1x8x128x128_S1x8x128x128_0_0_0_0 y⟩)]
      rw [View.canon_unit_zero hz4]
      simp only [View.readAt_eq_ld, View.readCov_unit_zero (S := S128x1024) _ hz2, harg3.read_unread, harg4.read_unread, harg5.read_unread, harg6.read_unread, harg7.read_unread, harg8.read_unread, harg9.read_unread, harg10.read_unread, harg11.read_unread, harg12.read_unread, View.ld_unit_zero (S := S1x128x512) hz3, View.ld_unit_zero (S := S1x8x512) hz3, View.ld_unit_zero (S := S1x1x128) hz3, View.ld_unit_zero (S := S1024x512) hz2, View.ld_unit_zero (S := S1024) hz1, View.ld_unit_zero (S := S128x1024) hz2, View.ld_unit_zero (S := S128) hz1, View.ld_unit_zero (S := S128x512) hz2]
    iexists _; isplitr; swap; · iexact HS0
    ipureintro
    sl_unfold_run_names
    rw [View.read_writes_eq_canon _ _ _ (fun y => ⟨_, List.mem_singleton_self _, View.mem_set_unit_zero hz2 inb_S128x1024_S128x1024_0_0 y⟩)]
    rw [View.canon_unit_zero hz2]
    simp only [View.readAt_eq_ld, harg3.read_unread, harg4.read_unread, harg5.read_unread, harg6.read_unread, harg7.read_unread, harg8.read_unread, harg9.read_unread, harg10.read_unread, harg11.read_unread, harg12.read_unread, View.ld_unit_zero (S := S1x128x512) hz3, View.ld_unit_zero (S := S1x8x512) hz3, View.ld_unit_zero (S := S1x1x128) hz3, View.ld_unit_zero (S := S1024x512) hz2, View.ld_unit_zero (S := S1024) hz1, View.ld_unit_zero (S := S128x1024) hz2, View.ld_unit_zero (S := S128) hz1, View.ld_unit_zero (S := S128x512) hz2]

set_option maxHeartbeats 1000000 in
/-- A step with u ≠ 0: the scratch holds `sc` and the first output block `d13`, both are handed back untouched, and
    the second output block ends at the class scores over `sc`. -/
theorem runB (c : Dev nD) (i : grid0.Coords) (arg3 : Memref sig .tc .vmem S1x128x512 .bf16) (harg3 : arg3.IsWhole) (arg4 : Memref sig .tc .vmem S1x8x512 .bf16) (harg4 : arg4.IsWhole) (arg5 : Memref sig .tc .vmem S1x1x128 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024 .f32) (harg8 : arg8.IsWhole) (arg9 : Memref sig .tc .vmem S128x1024 .bf16) (harg9 : arg9.IsWhole) (arg10 : Memref sig .tc .vmem S128 .f32) (harg10 : arg10.IsWhole) (arg11 : Memref sig .tc .vmem S128x512 .bf16) (harg11 : arg11.IsWhole) (arg12 : Memref sig .tc .vmem S128 .f32) (harg12 : arg12.IsWhole) (arg13 : Memref sig .tc .vmem S1x128x128 .f32) (harg13 : arg13.IsWhole) (arg14 : Memref sig .tc .vmem S1x8x128x128 .f32) (harg14 : arg14.IsWhole) (arg15 : Memref sig .tc .vmem S128x1024 .f32) (harg15 : arg15.IsWhole) (hc0 : ¬ k0_cond1 i = 1#1)
    (x0 : Vec F S1x128x512 .bf16) (x1 : Vec F S1x8x512 .bf16) (x2 : Vec F S1x1x128 .f32) (x3 : Vec F S1024x512 .bf16) (x4 : Vec F S1024x512 .bf16) (x5 : Vec F S1024 .f32) (x6 : Vec F S128x1024 .bf16) (x7 : Vec F S128 .f32) (x8 : Vec F S128x512 .bf16) (x9 : Vec F S128 .f32) (d13 : Vec F S1x128x128 .f32) (sc : Vec F S128x1024 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare d13 ∗ (∃ d, owns (c : Thread nD τ) arg14 fullShare d) ∗ owns (c : Thread nD τ) arg15 fullShare sc
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare d13 ∗ owns (c : Thread nD τ) arg14 fullShare (scores x1 x3 sc x5 x6 x7) ∗ owns (c : Thread nD τ) arg15 fullShare sc) -∗ K ⟨⟩))
          ⊢ wp frame (wpE (defs₀ (F := F)) Variants.none c none) E (cc0__joint_kernel i arg3 harg3 arg4 harg4 arg5 harg5 arg6 harg6 arg7 harg7 arg8 harg8 arg9 harg9 arg10 harg10 arg11 harg11 arg12 harg12 arg13 harg13 arg14 harg14 arg15 harg15) K := by
    intro E K
    simp only [cc0__joint_kernel_eq_skeleton]; unfold cc0__joint_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9
    obtain rfl := harg13.eq_unread hf10; obtain rfl := harg15.eq_unread hfs0
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; swap; · iexact H11
      ipureintro
      sl_unfold_run_names
      rw [View.read_writes_eq_canon _ _ _ (fun y => ⟨_, List.mem_singleton_self _, View.mem_set_unit_zero hz4 inb_S1x8x128x128_S1x8x128x128_0_0_0_0 y⟩)]
      rw [View.canon_unit_zero hz4]
      simp only [View.readAt_eq_ld, harg15.read_unread, harg3.read_unread, harg4.read_unread, harg5.read_unread, harg6.read_unread, harg7.read_unread, harg8.read_unread, harg9.read_unread, harg10.read_unread, harg11.read_unread, harg12.read_unread, View.ld_unit_zero (S := S1x128x512) hz3, View.ld_unit_zero (S := S1x8x512) hz3, View.ld_unit_zero (S := S1x1x128) hz3, View.ld_unit_zero (S := S1024x512) hz2, View.ld_unit_zero (S := S1024) hz1, View.ld_unit_zero (S := S128x1024) hz2, View.ld_unit_zero (S := S128) hz1, View.ld_unit_zero (S := S128x512) hz2]
    iexists _; isplitr; · ipureintro; exact harg15.read_unread _
    iexact HS0

end Cert.KernelIdeal.Body

end
-- ==== Proof.FrameKI.lean ====
import proofs.«164176_j85237920956984_1_alg».proof.Proof.BodyKI
import Idealize.ShloMosaic.Lib.Pipeline.Value

set_option maxRecDepth 16384

noncomputable section

/-!
  The pipeline's proof data and the frame run, for any float instance.

  The 48 grid steps fall into eight runs of six (u = 0 … 5) sharing one (b, ti). Within a run the image block, the
  mask row and the first output's block index do not move. At the run's first step the body fills the scratch with
  the image projection and the first output's staging buffer with the masked convolution; the five later steps
  leave both as they are, and the buffer is written back after the last one. So at EVERY step of a run the scratch
  and that buffer hold the payloads of the run's FIRST step (its "anchor"), and the second output's buffer holds the
  class scores of the step's own label rows over that scratch.
-/

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

/-- The branch is taken exactly at the first step of each run of six. -/
theorem hcond : ∀ t : Fin cfg0.N, k0_cond1 (grid0.coords t) = 1#1 ↔ t.val % 6 = 0 :=
  (by decide +kernel : ∀ t : Fin grid0.N, k0_cond1 (grid0.coords t) = 1#1 ↔ t.val % 6 = 0)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_11 : ∀ t : Fin cfg0.N, cfg0.idle 11 (grid0.coords t) = false := by decide +kernel
/-- The first output's window is idle at every step but a run's first. -/
theorem idle10 : ∀ t : Fin cfg0.N, cfg0.idle 10 (grid0.coords t) = true ↔ ¬ t.val % 6 = 0 :=
  (by decide +kernel : ∀ t : Fin grid0.N, cfg0.idle 10 (grid0.coords t) = true ↔ ¬ t.val % 6 = 0)

abbrev ms0_0 (t : Fin cfg0.N) : Memref sig .tc .vmem S1x128x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x8x128x128 .f32 := win0_11.stage (cfg0.slots t 11)
abbrev hs0_11 (t : Fin cfg0.N) : (ms0_11 t).IsWhole := hstage0_11 ((cfg0.slots t 11).cast nbuf0_11)
/-- The scratch: a whole buffer of the kernel's own. -/
abbrev scM0_0 : Memref sig .tc .vmem S128x1024 .f32 := Memref.whole cc0_scratch0

/-- Between steps the kernel's own state is its scratch, at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## Runs of six steps -/

/-- The first step of the run a step belongs to. -/
def anchor (t : Fin cfg0.N) : Fin cfg0.N := ⟨t.val - t.val % 6, lt_of_le_of_lt (Nat.sub_le _ _) t.isLt⟩

theorem anchor_first (t : Fin cfg0.N) (h : t.val % 6 = 0) : anchor t = t :=
  Fin.ext (by show t.val - t.val % 6 = t.val; omega)

/-- A step that is not a run's first has the anchor of the step before it. -/
theorem anchor_pred (t : Fin cfg0.N) (h : ¬ t.val % 6 = 0) :
    anchor ⟨t.val - 1, Nat.lt_of_le_of_lt (Nat.sub_le _ _) t.isLt⟩ = anchor t :=
  Fin.ext (by show t.val - 1 - (t.val - 1) % 6 = t.val - t.val % 6; omega)

/-! ## What the buffers hold -/

/-- The scratch during a run: the image projection of the run's image block. -/
def scrAt (c : Dev nD) (t : Fin cfg0.N) : Vec F S128x1024 .f32 :=
  k0_pay3 (iblk m c 0 (anchor t)) (iblk m c 4 (anchor t))

/-- The first output's staging buffer during a run: the masked convolution of the run's image block. -/
def segBlk (c : Dev nD) (t : Fin cfg0.N) : Vec F S1x128x128 .f32 :=
  k0_pay4 (iblk m c 0 (anchor t)) (iblk m c 8 (anchor t)) (iblk m c 9 (anchor t)) (iblk m c 2 (anchor t))

/-- The second output's staging buffer after a step: the class scores of the step's label rows over the scratch. -/
def jointBlk (c : Dev nD) (t : Fin cfg0.N) : Vec F S1x8x128x128 .f32 :=
  scores (iblk m c 1 t) (iblk m c 3 t) (scrAt m c t) (iblk m c 5 t) (iblk m c 6 t) (iblk m c 7 t)

theorem scrAt_first (c : Dev nD) (t : Fin cfg0.N) (h : t.val % 6 = 0) :
    scrAt m c t = k0_pay3 (iblk m c 0 t) (iblk m c 4 t) := by unfold scrAt; rw [anchor_first t h]
theorem segBlk_first (c : Dev nD) (t : Fin cfg0.N) (h : t.val % 6 = 0) :
    segBlk m c t = k0_pay4 (iblk m c 0 t) (iblk m c 8 t) (iblk m c 9 t) (iblk m c 2 t) := by unfold segBlk; rw [anchor_first t h]
theorem scrAt_pred (c : Dev nD) (t : Fin cfg0.N) (h : ¬ t.val % 6 = 0) :
    scrAt m c ⟨t.val - 1, Nat.lt_of_le_of_lt (Nat.sub_le _ _) t.isLt⟩ = scrAt m c t := by unfold scrAt; rw [anchor_pred t h]
theorem segBlk_pred (c : Dev nD) (t : Fin cfg0.N) (h : ¬ t.val % 6 = 0) :
    segBlk m c ⟨t.val - 1, Nat.lt_of_le_of_lt (Nat.sub_le _ _) t.isLt⟩ = segBlk m c t := by unfold segBlk; rw [anchor_pred t h]

/-- The invariant before step `n`: before the first step the scratch holds anything; afterwards the image
    projection of the run of step `n - 1`. -/
def PhiS (c : Dev nD) : (n : ℕ) → n ≤ cfg0.N → sProp 𝕄
  | 0, _ => Pipeline.ΦA spec0 c
  | n + 1, hn => iprop(iprop(owns (c : Thread nD τ) scM0_0 fullShare (scrAt m c ⟨n, hn⟩)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (scrAt m c ⟨n, hn⟩)) ∗ (∃ r, prngReg c r)) := rfl
theorem PhiS_pos (c : Dev nD) (n : ℕ) (h : n ≤ cfg0.N) (hz : n ≠ 0) :
    PhiS m c n h = iprop(iprop(owns (c : Thread nD τ) scM0_0 fullShare (scrAt m c ⟨n - 1, by omega⟩)) ∗ (∃ r, prngReg c r)) := by
  cases n with
  | zero => exact absurd rfl hz
  | succ n => rfl

/-! ## The proof data -/

/-- The arrays as the region finds them; after each step every input's buffer at its block, the first output's at the
    run's masked convolution, the second's at the step's class scores; the invariant tracking the scratch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => segBlk m c t
    | ⟨11, _⟩ => jointBlk m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = segBlk m c t := by dsimp only [dats]
theorem after0_11 (c : Dev nD) (t : Fin cfg0.N) : (dats m 0 c).after 11 t = jointBlk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- At a step that is not a run's first, the first output's staging buffer still holds the run's masked convolution:
    it was filled at the run's first step, no later step of the run stores into it, and it is not written back
    before the run's last step. By induction along the run. -/
theorem before0_10 (c : Dev nD) (d) : ∀ (n : ℕ) (t : Fin cfg0.N), t.val = n → ¬ t.val % 6 = 0 →
    (dats m 0 c).before 10 t d = segBlk m c t := by
  intro n
  induction n using Nat.strong_induction_on with
  | _ n ih =>
    intro t htn h0
    have hN : t.val < 48 := lt_of_lt_of_eq t.isLt (show cfg0.N = 48 from N_0)
    have ht : t.val ≠ 0 := fun h => h0 (by rw [h])
    have hfl : (cfg0.win 10).flush ⟨t.val - 1, Nat.lt_of_le_of_lt (Nat.sub_le _ _) t.isLt⟩ = false :=
      Bool.eq_false_iff.mpr fun h => by have := (flush0_10 _).mp h; dsimp only at this; omega
    rw [(dats m 0 c).before_of_pos 10 t ht ((cfg0.win 10).fetch_out rfl t), hfl, if_neg Bool.false_ne_true]
    unfold Dat.left
    have hcoords : ∀ b : Bool, cfg0.idle 10 (grid0.coords ⟨t.val - 1, Nat.lt_of_le_of_lt (Nat.sub_le _ _) t.isLt⟩) = b →
        (b = true ↔ ¬ (t.val - 1) % 6 = 0) := fun b hb => by rw [← hb]; exact idle10 _
    split
    · rename_i hq
      have hp : ¬ (t.val - 1) % 6 = 0 := (hcoords true hq).mp rfl
      rw [ih (t.val - 1) (by omega) ⟨t.val - 1, Nat.lt_of_le_of_lt (Nat.sub_le _ _) t.isLt⟩ rfl hp, segBlk_pred m c t h0]
    · rename_i hq
      show (dats m 0 c).after 10 ⟨t.val - 1, Nat.lt_of_le_of_lt (Nat.sub_le _ _) t.isLt⟩ = segBlk m c t
      rw [after0_10, segBlk_pred m c t h0]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 4800000 in
/-- The body at any step. At a run's first step the run with u = 0 applies, whatever the scratch and the output buffers
    held; at a later step the run with u ≠ 0 applies, the scratch found at the run's image projection (the invariant)
    and the first output's buffer at the run's masked convolution, which is what it must hold when the run's last
    step writes it back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ]
  have hN : t.val < 48 := lt_of_lt_of_eq t.isLt (show cfg0.N = 48 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 11 t = owns (c : Thread nD τ) (ms0_11 t) fullShare ((dats m 0 c).after 11 t) from by
    unfold Dat.leavesExact; rw [liveAt0_11 t], after0_11]
  by_cases h0 : t.val % 6 = 0
  · have hlive : cfg0.idle 10 (grid0.coords t) = false := by
      cases hh : cfg0.idle 10 (grid0.coords t) with
      | false => rfl
      | true => exact absurd h0 ((idle10 t).mp hh)
    rw [show (dats m 0 c).leavesExact 10 t = owns (c : Thread nD τ) (ms0_10 t) fullShare ((dats m 0 c).after 10 t) from by
      unfold Dat.leavesExact; rw [hlive], after0_10]
    rw [show scrAt m c ⟨t.val, t.isLt⟩ = k0_pay3 (iblk m c 0 t) (iblk m c 4 t) from scrAt_first m c t h0,
      segBlk_first m c t h0]
    unfold jointBlk
    rw [scrAt_first m c t h0]
    have hΦ : (dats m 0 c).Φ t.castSucc ⊢ (iprop(iprop((∃ d, owns (c : Thread nD τ) scM0_0 fullShare d)) ∗ (∃ r, prngReg c r)) : sProp 𝕄) := by
      rw [PhiS_castSucc m c t]
      by_cases hz : t.val = 0
      · rw [PhiS_zero m c _ _ hz, PhiA0_eq]
      · rw [PhiS_pos m c _ _ hz]
        iintro ⟨HS0, Hg⟩
        isplitl [HS0]
        · iexists _; iexact HS0
        iexact Hg
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    ihave HΦ' := hΦ $$ HΦ
    icases HΦ' with ⟨HS0, Hg⟩
    iapply ((runA c (grid0.coords t) _ _ _ _ _ _ _ _ _ _ _ _ _ _ _ _ _ _ _ _ _ _ _ _ _ _ ((hcond t).mpr h0) (iblk m c 0 t) (iblk m c 1 t) (iblk m c 2 t) (iblk m c 3 t) (iblk m c 4 t) (iblk m c 5 t) (iblk m c 6 t) (iblk m c 7 t) (iblk m c 8 t) (iblk m c 9 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HS0]; · iexact HS0
    iintro ⟨H0, H1, H2, H3, H4, H5, H6, H7, H8, H9, H10, H11, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · have hidle : cfg0.idle 10 (grid0.coords t) = true := (idle10 t).mpr h0
    have hz : t.val ≠ 0 := fun h => h0 (by rw [h])
    rw [PhiS_castSucc m c t, PhiS_pos m c _ _ hz, scrAt_pred m c t h0]
    rw [show scrAt m c ⟨t.val, t.isLt⟩ = scrAt m c t from rfl]
    simp only [before0_10 m c _ t.val t rfl h0]
    unfold jointBlk
    by_cases h5 : t.val % 6 = 5
    · have hfl : (cfg0.win 10).flush t = true := (flush0_10 t).mpr h5
      rw [show (dats m 0 c).leavesExact 10 t = owns (c : Thread nD τ) (ms0_10 t) fullShare ((dats m 0 c).after 10 t) from by
        unfold Dat.leavesExact; rw [hidle, hfl], after0_10]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runB c (grid0.coords t) _ _ _ _ _ _ _ _ _ _ _ _ _ _ _ _ _ _ _ _ _ _ _ _ _ _ (fun h => h0 ((hcond t).mp h)) (iblk m c 0 t) (iblk m c 1 t) (iblk m c 2 t) (iblk m c 3 t) (iblk m c 4 t) (iblk m c 5 t) (iblk m c 6 t) (iblk m c 7 t) (iblk m c 8 t) (iblk m c 9 t) (segBlk m c t) (scrAt m c t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      iintro ⟨H0, H1, H2, H3, H4, H5, H6, H7, H8, H9, H10, H11, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · have hfl : (cfg0.win 10).flush t = false :=
        Bool.eq_false_iff.mpr fun h => h5 ((flush0_10 t).mp h)
      rw [Dat.leavesExact_idle (dats m 0 c) 10 t hidle hfl]
      simp only [before0_10 m c _ t.val t rfl h0]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runB c (grid0.coords t) _ _ _ _ _ _ _ _ _ _ _ _ _ _ _ _ _ _ _ _ _ _ _ _ _ _ (fun h => h0 ((hcond t).mp h)) (iblk m c 0 t) (iblk m c 1 t) (iblk m c 2 t) (iblk m c 3 t) (iblk m c 4 t) (iblk m c 5 t) (iblk m c 6 t) (iblk m c 7 t) (iblk m c 8 t) (iblk m c 9 t) (segBlk m c t) (scrAt m c t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      iintro ⟨H0, H1, H2, H3, H4, H5, H6, H7, H8, H9, H10, H11, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists (segBlk m c t); iexact H10
      iexact H11

/-- The library's body obligation, at every step. -/
theorem body_obligation (c : Dev nD) : BodyObligation (dats (F := F) m 0 c) (defs₀ (F := F)) Variants.none () Set.univ := fun t => by
  rw [bigSep_W0, bigSep_W0]
  exact sound_body m c t

/-- Before the first step the scratch may hold anything. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last step the scratch's contents are forgotten. -/
theorem hout (c : Dev nD) : (dats m 0 c).Φ (Fin.last cfg0.N) ⊢ Pipeline.ΦA spec0 c := by
  have hne : (Fin.last cfg0.N).val ≠ 0 := by rw [Fin.val_last]; have : cfg0.N = 48 := N_0; omega
  rw [show (dats m 0 c).Φ (Fin.last cfg0.N) = PhiS m c (Fin.last cfg0.N).val (Nat.le_of_lt_succ (Fin.last cfg0.N).isLt) from rfl,
    PhiS_pos m c _ _ hne, PhiA0_eq]
  iintro ⟨HS0, Hg⟩
  isplitl [HS0]
  · iexists _; iexact HS0
  iexact Hg

/-! ## The run and the frame -/

set_option backward.isDefEq.respectTransparency.types false in
/-- Every weakly fair execution of @main terminates with every array of the pipeline at what the proof data says:
    the inputs unchanged, each output array the write-backs of its blocks. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Body

end
-- ==== Proof.GridCoords.lean ====
/-
  The grid of the kernel's one launch, in coordinates. The 48 steps are the points (b, ti, u) of a 2 × 4 × 6 box in
  row-major order: step t has b = t / 24, ti = (t / 6) mod 4, u = t mod 6. A step's image block is the 128 rows
  128·ti … 128·ti + 127 of image b, its label block the 8 rows 8·u … 8·u + 7 of label sequence b.
-/
import proofs.«164176_j85237920956984_1_alg».proof.Proof.Gen.KernelIdeal.Launch

namespace Cert.KernelIdeal.Grid

open Cert.KernelIdeal Cert.KernelIdeal.Gen

theorem N48 : cfg0.N = 48 := N_0

/-- The batch coordinate of a step. -/
def bOf (t : Fin cfg0.N) : Fin 2 := ⟨t.val / 24, by have := t.isLt; have h : cfg0.N = 48 := N_0; omega⟩
/-- The image-tile coordinate of a step. -/
def tiOf (t : Fin cfg0.N) : Fin 4 := ⟨t.val / 6 % 4, by omega⟩
/-- The label-tile coordinate of a step. -/
def uOf (t : Fin cfg0.N) : Fin 6 := ⟨t.val % 6, by omega⟩
/-- Row r of a step's image block is row 128·ti + r of the image. -/
def rowT (t : Fin cfg0.N) (r : Fin 128) : Fin 512 := ⟨128 * (tiOf t).val + r.val, by have := (tiOf t).isLt; omega⟩
/-- Row r of a step's label block is row 8·u + r of the label sequence. -/
def rowU (t : Fin cfg0.N) (r : Fin 8) : Fin 48 := ⟨8 * (uOf t).val + r.val, by have := (uOf t).isLt; omega⟩

/-- The first step of a step's run of six has the same batch and image tile, and label tile 0. -/
theorem bOf_anchor (t a : Fin cfg0.N) (h : a.val = t.val - t.val % 6) : bOf a = bOf t :=
  Fin.ext (by show a.val / 24 = t.val / 24; omega)
theorem tiOf_anchor (t a : Fin cfg0.N) (h : a.val = t.val - t.val % 6) : tiOf a = tiOf t :=
  Fin.ext (by show a.val / 6 % 4 = t.val / 6 % 4; omega)
theorem rowT_anchor (t a : Fin cfg0.N) (h : a.val = t.val - t.val % 6) (r : Fin 128) : rowT a r = rowT t r :=
  Fin.ext (by show 128 * (tiOf a).val + r.val = 128 * (tiOf t).val + r.val; rw [tiOf_anchor t a h])

end Cert.KernelIdeal.Grid
-- ==== Proof.OutBlocks.lean ====
import proofs.«164176_j85237920956984_1_alg».proof.Proof.Gen.KernelIdeal.Frame
import proofs.«164176_j85237920956984_1_alg».proof.Proof.GridCoords
import Idealize.ShloMosaic.Lib.Pipeline.Value
import Idealize.ShloMosaic.Lib.ValueIdx

set_option maxRecDepth 16384

noncomputable section

namespace Cert.KernelIdeal.OutBlocks

open Cert.KernelIdeal Cert.KernelIdeal.Gen Cert.KernelIdeal.Grid
open Idealize.ShloMosaic Idealize.ShloMosaic.TcCoe Idealize.SL.Sem Idealize.ShloMosaic.ValueIdx
open Idealize.ShloMosaic.Pipeline (Dat)

/-- The first output's block index at a step is (b, 0, ti); the second's (b, u, ti, 0). Decided over the grid. -/
theorem idx10 : ∀ t : Fin cfg0.N, win0_10.index t (0 : Fin 3) = t.val / 24 ∧ win0_10.index t (1 : Fin 3) = 0
    ∧ win0_10.index t (2 : Fin 3) = t.val / 6 % 4 :=
  (by decide +kernel : ∀ t : Fin grid0.N, _)
theorem idx11 : ∀ t : Fin cfg0.N, win0_11.index t (0 : Fin 4) = t.val / 24 ∧ win0_11.index t (1 : Fin 4) = t.val % 6
    ∧ win0_11.index t (2 : Fin 4) = t.val / 6 % 4 ∧ win0_11.index t (3 : Fin 4) = 0 :=
  (by decide +kernel : ∀ t : Fin grid0.N, _)

/-- Entry (0, k, r) of the first output's block at a step is entry (b, k, 128·ti + r) of the array. -/
theorem emb10 (t : Fin cfg0.N) (k r : Fin 128) :
    ((cfg0.win 10).blk t).view.emb (ix3 (0 : Fin 1) k r) = (ix3 (bOf t) k (rowT t r) : S2x128x512.Idx) := by
  obtain ⟨e0, e1, e2⟩ := idx10 t
  funext a; apply Fin.ext
  match a with
  | ⟨0, _⟩ => show win0_10.index t (0 : Fin 3) * 1 + 1 * 0 = t.val / 24; omega
  | ⟨1, _⟩ => show win0_10.index t (1 : Fin 3) * 128 + 1 * k.val = k.val; omega
  | ⟨2, _⟩ => show win0_10.index t (2 : Fin 3) * 128 + 1 * r.val = 128 * (t.val / 6 % 4) + r.val; omega

/-- Entry (0, u, r, k) of the second output's block at a step is entry (b, 8·u₀ + u, 128·ti + r, k) of the array. -/
theorem emb11 (t : Fin cfg0.N) (u : Fin 8) (r k : Fin 128) :
    ((cfg0.win 11).blk t).view.emb (ix4 (0 : Fin 1) u r k) = (ix4 (bOf t) (rowU t u) (rowT t r) k : S2x48x512x128.Idx) := by
  obtain ⟨e0, e1, e2, e3⟩ := idx11 t
  funext a; apply Fin.ext
  match a with
  | ⟨0, _⟩ => show win0_11.index t (0 : Fin 4) * 1 + 1 * 0 = t.val / 24; omega
  | ⟨1, _⟩ => show win0_11.index t (1 : Fin 4) * 8 + 1 * u.val = 8 * (t.val % 6) + u.val; omega
  | ⟨2, _⟩ => show win0_11.index t (2 : Fin 4) * 128 + 1 * r.val = 128 * (t.val / 6 % 4) + r.val; omega
  | ⟨3, _⟩ => show win0_11.index t (3 : Fin 4) * 128 + 1 * k.val = k.val; omega

theorem mem_blk10 (t : Fin cfg0.N) (i : S2x128x512.Idx) :
    i ∈ ((cfg0.win 10).blk t).view.set ↔ ∀ a : Fin 3, win0_10.index t a * S1x128x128.size a ≤ (i a).val ∧ (i a).val < win0_10.index t a * S1x128x128.size a + S1x128x128.size a := by
  show i ∈ ((View.whole main_v8_0).slice (win0_10.rect t)).set ↔ _
  rw [View.set_slice_whole, Rect.mem_set_unit]
  exact Iff.rfl

theorem mem_blk11 (t : Fin cfg0.N) (i : S2x48x512x128.Idx) :
    i ∈ ((cfg0.win 11).blk t).view.set ↔ ∀ a : Fin 4, win0_11.index t a * S1x8x128x128.size a ≤ (i a).val ∧ (i a).val < win0_11.index t a * S1x8x128x128.size a + S1x8x128x128.size a := by
  show i ∈ ((View.whole main_v8_1).slice (win0_11.rect t)).set ↔ _
  rw [View.set_slice_whole, Rect.mem_set_unit]
  exact Iff.rfl

/-- Every entry of the first output lies in the block written back at the LAST step of its run: the step
    24·b + 6·⌊t/128⌋ + 5. -/
theorem cover10 (i : S2x128x512.Idx) :
    ∃ t : Fin cfg0.N, (cfg0.win 10).flush t = true ∧ i ∈ ((cfg0.win 10).blk t).view.set := by
  have h0 : (i 0).val < 2 := (i 0).isLt
  have h1 : (i 1).val < 128 := (i 1).isLt
  have h2 : (i 2).val < 512 := (i 2).isLt
  have hN : cfg0.N = 48 := N_0
  refine ⟨⟨24 * (i 0).val + 6 * ((i 2).val / 128) + 5, by omega⟩, (flush0_10 _).mpr (by show (24 * (i 0).val + 6 * ((i 2).val / 128) + 5) % 6 = 5; omega), ?_⟩
  rw [mem_blk10]
  obtain ⟨e0, e1, e2⟩ := idx10 ⟨24 * (i 0).val + 6 * ((i 2).val / 128) + 5, by omega⟩
  intro a
  match a with
  | ⟨0, _⟩ => show win0_10.index _ (0 : Fin 3) * 1 ≤ (i 0).val ∧ (i 0).val < win0_10.index _ (0 : Fin 3) * 1 + 1; dsimp only at e0; omega
  | ⟨1, _⟩ => show win0_10.index _ (1 : Fin 3) * 128 ≤ (i 1).val ∧ (i 1).val < win0_10.index _ (1 : Fin 3) * 128 + 128; omega
  | ⟨2, _⟩ => show win0_10.index _ (2 : Fin 3) * 128 ≤ (i 2).val ∧ (i 2).val < win0_10.index _ (2 : Fin 3) * 128 + 128; dsimp only at e2; omega

/-- Every entry of the second output lies in the block of the step 24·b + 6·⌊t/128⌋ + ⌊u/8⌋. -/
theorem cover11 (i : S2x48x512x128.Idx) :
    ∃ t : Fin cfg0.N, (cfg0.win 11).flush t = true ∧ i ∈ ((cfg0.win 11).blk t).view.set := by
  have h0 : (i 0).val < 2 := (i 0).isLt
  have h1 : (i 1).val < 48 := (i 1).isLt
  have h2 : (i 2).val < 512 := (i 2).isLt
  have h3 : (i 3).val < 128 := (i 3).isLt
  have hN : cfg0.N = 48 := N_0
  refine ⟨⟨24 * (i 0).val + 6 * ((i 2).val / 128) + (i 1).val / 8, by omega⟩, flush0_11 _, ?_⟩
  rw [mem_blk11]
  obtain ⟨e0, e1, e2, e3⟩ := idx11 ⟨24 * (i 0).val + 6 * ((i 2).val / 128) + (i 1).val / 8, by omega⟩
  intro a
  match a with
  | ⟨0, _⟩ => show win0_11.index _ (0 : Fin 4) * 1 ≤ (i 0).val ∧ (i 0).val < win0_11.index _ (0 : Fin 4) * 1 + 1; dsimp only at e0; omega
  | ⟨1, _⟩ => show win0_11.index _ (1 : Fin 4) * 8 ≤ (i 1).val ∧ (i 1).val < win0_11.index _ (1 : Fin 4) * 8 + 8; dsimp only at e1; omega
  | ⟨2, _⟩ => show win0_11.index _ (2 : Fin 4) * 128 ≤ (i 2).val ∧ (i 2).val < win0_11.index _ (2 : Fin 4) * 128 + 128; dsimp only at e2; omega
  | ⟨3, _⟩ => show win0_11.index _ (3 : Fin 4) * 128 ≤ (i 3).val ∧ (i 3).val < win0_11.index _ (3 : Fin 4) * 128 + 128; omega

end Cert.KernelIdeal.OutBlocks

end
-- ==== Proof.Spec.lean ====
/-
  The mathematics both programs compute, stated once on the extended reals and over literal coordinates.

  Inputs: image features img[b,t,d] (2×512×512), label features lab[b,u,d] (2×48×512), a mask msk[b,t] (2×512),
  a first layer W1[h,e] (1024×1024) with bias b1[h], a second layer W2[k,h] (128×1024) with bias b2[k], and a
  pointwise convolution cw[k,d] (128×512) with bias cb[k].

  * The segmentation score: seg[b,k,t] = (Σ_d cw[k,d]·img[b,t,d] + cb[k]) · msk[b,t].
  * The joint score. The first layer acts on the concatenation (label, image), so its matrix splits into the
    columns e < 512 (applied to the label) and the columns e ≥ 512 (applied to the image):
      labProj[b,u,h] = Σ_d lab[b,u,d]·W1[h,d],   imgProj[b,t,h] = Σ_d img[b,t,d]·W1[h,512+d],
      hidden[b,u,t,h] = tanh((labProj[b,u,h] + imgProj[b,t,h]) + b1[h]),
      joint[b,u,t,k]  = Σ_h hidden[b,u,t,h]·W2[k,h] + b2[k],
    and the result is the log-softmax of each row k ↦ joint[b,u,t,k]: with M the row's maximum,
      out[k] = (joint[k] − M) − log Σ_k' exp(joint[k'] − M).
  The maximum is the fold of `max` from the float word of −∞, the spelling both programs' reductions read as.
-/
import Idealize.ShloMosaic.PureOps.Ideal
import Idealize.ShloMosaic.Lib.ValueIdx

noncomputable section

namespace Cert.JointNet

open Idealize.ShloMosaic

/-- The f32 word of −∞: the initial value of a row maximum. -/
abbrev negInf : EReal := Ideal.ofBits .f32 0xFF800000#32

/-- A row's maximum: the fold of `max` over the 128 classes, from −∞. -/
def rowMax (r : Fin 128 → EReal) : EReal := (Finset.univ : Finset (Fin 128)).fold max negInf r

/-- The log-softmax of a row of 128 scores, shifted by the row's maximum. -/
def logSoftmaxRow (r : Fin 128 → EReal) (k : Fin 128) : EReal :=
  (r k - rowMax r) - Ideal.log (∑ k' : Fin 128, Ideal.exp (r k' - rowMax r))

/-- Folding `max` from a value never goes below that value, so taking the maximum with it again changes nothing. -/
theorem max_rowMax (r : Fin 128 → EReal) : max negInf (rowMax r) = rowMax r :=
  max_eq_right (Finset.le_fold_max (c := negInf) |>.mpr (Or.inl le_rfl))

/-- Column e = d of the first layer: the half applied to the label features. -/
def lo (d : Fin 512) : Fin 1024 := ⟨d.val, by omega⟩
/-- Column e = 512 + d of the first layer: the half applied to the image features. -/
def hi (d : Fin 512) : Fin 1024 := ⟨512 + d.val, by omega⟩

variable (img : Fin 2 → Fin 512 → Fin 512 → EReal) (lab : Fin 2 → Fin 48 → Fin 512 → EReal) (msk : Fin 2 → Fin 512 → EReal)
  (W1 : Fin 1024 → Fin 1024 → EReal) (b1 : Fin 1024 → EReal) (W2 : Fin 128 → Fin 1024 → EReal) (b2 : Fin 128 → EReal)
  (cw : Fin 128 → Fin 512 → EReal) (cb : Fin 128 → EReal)

/-- The masked pointwise convolution of the image features. -/
def segAt (b : Fin 2) (k : Fin 128) (t : Fin 512) : EReal :=
  ((∑ d : Fin 512, cw k d * img b t d) + cb k) * msk b t

/-- The image half of the first layer. -/
def imgProj (b : Fin 2) (t : Fin 512) (h : Fin 1024) : EReal := ∑ d : Fin 512, img b t d * W1 h (hi d)

/-- The label half of the first layer. -/
def labProj (b : Fin 2) (u : Fin 48) (h : Fin 1024) : EReal := ∑ d : Fin 512, lab b u d * W1 h (lo d)

/-- The hidden activation of the pair (label position u, image position t). -/
def hidden (b : Fin 2) (u : Fin 48) (t : Fin 512) (h : Fin 1024) : EReal :=
  Ideal.tanh ((labProj lab W1 b u h + imgProj img W1 b t h) + b1 h)

/-- The class scores before normalisation. -/
def jointAt (b : Fin 2) (u : Fin 48) (t : Fin 512) (k : Fin 128) : EReal :=
  (∑ h : Fin 1024, hidden img lab W1 b1 b u t h * W2 k h) + b2 k

/-- The joint score: each row of class scores normalised by log-softmax. -/
def outAt (b : Fin 2) (u : Fin 48) (t : Fin 512) (k : Fin 128) : EReal :=
  logSoftmaxRow (fun k' => jointAt img lab W1 b1 W2 b2 b u t k') k

/-! ## The two results as whole arrays, and one block's class scores -/

section Arrays
open Idealize.ShloMosaic.ValueIdx

/-- The segmentation score as an array over (b, k, t), from the argument arrays. -/
def segArr (a0 : (⟨3, ![2, 512, 512]⟩ : Shape).Idx → EReal) (a2 : (⟨3, ![2, 1, 512]⟩ : Shape).Idx → EReal)
    (a7 : (⟨2, ![128, 512]⟩ : Shape).Idx → EReal) (a8 : (⟨1, ![128]⟩ : Shape).Idx → EReal) :
    (⟨3, ![2, 128, 512]⟩ : Shape).Idx → EReal :=
  fun j => segAt (fun b t d => a0 (ix3 b t d)) (fun b t => a2 (ix3 b 0 t)) (fun k d => a7 (ix2 k d)) (fun k => a8 (ix1 k))
    (j 0) (j 1) (j 2)

/-- The joint score as an array over (b, u, t, k), from the argument arrays. -/
def outArr (a0 : (⟨3, ![2, 512, 512]⟩ : Shape).Idx → EReal) (a1 : (⟨3, ![2, 48, 512]⟩ : Shape).Idx → EReal)
    (a3 : (⟨2, ![1024, 1024]⟩ : Shape).Idx → EReal) (a4 : (⟨1, ![1024]⟩ : Shape).Idx → EReal)
    (a5 : (⟨2, ![128, 1024]⟩ : Shape).Idx → EReal) (a6 : (⟨1, ![128]⟩ : Shape).Idx → EReal) :
    (⟨4, ![2, 48, 512, 128]⟩ : Shape).Idx → EReal :=
  fun j => outAt (fun b t d => a0 (ix3 b t d)) (fun b u d => a1 (ix3 b u d)) (fun h e => a3 (ix2 h e)) (fun h => a4 (ix1 h))
    (fun k h => a5 (ix2 k h)) (fun k => a6 (ix1 k)) (j 0) (j 1) (j 2) (j 3)

/-- One grid step's class scores, from the blocks it reads: eight label rows x1[0,u,d], the label half of the first
    layer x3[h,d], the image projection of the step's 128 image rows s[t,h], the biases x5[h], x7[k] and the second
    layer x6[k,h]:  Σ_h tanh((Σ_d x1[0,u,d]·x3[h,d] + s[t,h]) + x5[h]) · x6[k,h] + x7[k]. -/
def blockJoint (x1 : (⟨3, ![1, 8, 512]⟩ : Shape).Idx → EReal) (x3 : (⟨2, ![1024, 512]⟩ : Shape).Idx → EReal)
    (s : (⟨2, ![128, 1024]⟩ : Shape).Idx → EReal) (x5 : (⟨1, ![1024]⟩ : Shape).Idx → EReal)
    (x6 : (⟨2, ![128, 1024]⟩ : Shape).Idx → EReal) (x7 : (⟨1, ![128]⟩ : Shape).Idx → EReal)
    (u : Fin 8) (t : Fin 128) (k : Fin 128) : EReal :=
  (∑ h : Fin 1024, Ideal.tanh (((∑ d : Fin 512, x1 (ix3 0 u d) * x3 (ix2 h d)) + s (ix2 t h)) + x5 (ix1 h)) * x6 (ix2 k h))
    + x7 (ix1 k)

end Arrays

end Cert.JointNet

end
-- ==== Proof.BlockReads.lean ====
/-
  What the kernel's steps read, traced back to the argument arrays, on the extended reals. First the arrays the call
  finds: the host's conversions are the identity here, and its two cuts of the first layer's matrix are the two halves
  of that matrix's columns. Then each input block at a grid step, as a box of its array: the grid is 2 × 4 × 6 in
  row-major order, so step `t` has batch `t / 24`, image tile `t / 6 % 4` and label tile `t % 6`; a block's entry sits in the
  array at block index × block size + the entry's coordinate inside the block, on every axis.
-/
import proofs.«164176_j85237920956984_1_alg».proof.Proof.Gen.KernelIdeal.Frame
import proofs.«164176_j85237920956984_1_alg».proof.Proof.Spec
import proofs.«164176_j85237920956984_1_alg».proof.Proof.GridCoords
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.BlockReads

open Cert.KernelIdeal Cert.KernelIdeal.Gen Cert.KernelIdeal.Grid Cert.JointNet Idealize.ShloMosaic Idealize.ShloMosaic.ValueIdx
open Idealize.SL.Sem

variable (m : (ℓ : Loc nD τ sig) → Buf (Elt Ideal) ℓ) (c : Dev nD)

/-! ## The arrays the region finds

Before the call the host cuts the first layer's matrix into its two column halves and converts six arrays to a
sixteen-bit format. On the extended reals a format change is the identity, so each converted array is the argument
it was converted from, and each half of the first layer is that half of the argument's columns. -/

/-- The image features as the region finds them are the argument's. -/
theorem V_v6 : (V m c main_v6 : S2x512x512.Idx → EReal) = (m ((c.tc : Thread nD τ).loc main_arg0) : S2x512x512.Idx → EReal) := by
  dsimp only [Gen.V, Gen.hostOps0]
  after_results
  rfl

/-- The label features as the region finds them are the argument's. -/
theorem V_v7 : (V m c main_v7 : S2x48x512.Idx → EReal) = (m ((c.tc : Thread nD τ).loc main_arg1) : S2x48x512.Idx → EReal) := by
  dsimp only [Gen.V, Gen.hostOps0]
  after_results
  rfl

/-- The second layer's matrix as the region finds it is the argument's. -/
theorem V_v4 : (V m c main_v4 : S128x1024.Idx → EReal) = (m ((c.tc : Thread nD τ).loc main_arg5) : S128x1024.Idx → EReal) := by
  dsimp only [Gen.V, Gen.hostOps0]
  after_results
  rfl

/-- The convolution's weights as the region finds them are the argument's. -/
theorem V_v5 : (V m c main_v5 : S128x512.Idx → EReal) = (m ((c.tc : Thread nD τ).loc main_arg7) : S128x512.Idx → EReal) := by
  dsimp only [Gen.V, Gen.hostOps0]
  after_results
  rfl

/-- The first layer's left half: entry `(h, d)` is the argument's entry `(h, d)`. -/
theorem V_v1_apply (h : Fin 1024) (d : Fin 512) :
    (V m c main_v1 : S1024x512.Idx → EReal) (ix2 h d)
      = (m ((c.tc : Thread nD τ).loc main_arg3) : S1024x1024.Idx → EReal) (ix2 h (lo d)) := by
  have e : (V m c main_v1 : S1024x512.Idx → EReal)
      = extractStridedSlice S1024x512 ![0, 0] (m ((c.tc : Thread nD τ).loc main_arg3) : S1024x1024.Idx → EReal)
          slices_S1024x1024_S1024x512_0_0 := by
    dsimp only [Gen.V, Gen.hostOps0]
    after_results
    rfl
  rw [e]
  exact slice2_axis1_apply 0 _ _ h d (lo d) (by show d.val = 0 + d.val; omega)

/-- The first layer's right half: entry `(h, d)` is the argument's entry `(h, 512 + d)`. -/
theorem V_v3_apply (h : Fin 1024) (d : Fin 512) :
    (V m c main_v3 : S1024x512.Idx → EReal) (ix2 h d)
      = (m ((c.tc : Thread nD τ).loc main_arg3) : S1024x1024.Idx → EReal) (ix2 h (hi d)) := by
  have e : (V m c main_v3 : S1024x512.Idx → EReal)
      = extractStridedSlice S1024x512 ![0, 512] (m ((c.tc : Thread nD τ).loc main_arg3) : S1024x1024.Idx → EReal)
          slices_S1024x1024_S1024x512_0_512 := by
    dsimp only [Gen.V, Gen.hostOps0]
    after_results
    rfl
  rw [e]
  exact slice2_axis1_apply 512 _ _ h d (hi d) (by show 512 + d.val = 512 + d.val; rfl)

/-! ## The blocks that move with the grid -/

/-- The image window's block index at step `t` is (batch, image tile, 0). -/
theorem idx0 : ∀ t : Fin cfg0.N, win0_0.index t (0 : Fin 3) = t.val / 24 ∧ win0_0.index t (1 : Fin 3) = t.val / 6 % 4
    ∧ win0_0.index t (2 : Fin 3) = 0 :=
  (by decide +kernel : ∀ t : Fin grid0.N, _)

/-- The label window's block index at step `t` is (batch, label tile, 0). -/
theorem idx1 : ∀ t : Fin cfg0.N, win0_1.index t (0 : Fin 3) = t.val / 24 ∧ win0_1.index t (1 : Fin 3) = t.val % 6
    ∧ win0_1.index t (2 : Fin 3) = 0 :=
  (by decide +kernel : ∀ t : Fin grid0.N, _)

/-- The mask window's block index at step `t` is (batch, 0, image tile). -/
theorem idx2 : ∀ t : Fin cfg0.N, win0_2.index t (0 : Fin 3) = t.val / 24 ∧ win0_2.index t (1 : Fin 3) = 0
    ∧ win0_2.index t (2 : Fin 3) = t.val / 6 % 4 :=
  (by decide +kernel : ∀ t : Fin grid0.N, _)

/-- Entry `(0, r, d)` of the step's image block is the image's entry `(b, 128·ti + r, d)`. -/
theorem iblk0_apply (t : Fin cfg0.N) (r : Fin 128) (d : Fin 512) :
    iblk m c 0 t (ix3 0 r d) = V m c main_v6 (ix3 (bOf t) (rowT t r) d) := by
  unfold iblk
  show V m c main_v6 (((cfg0.win 0).blk t).view.emb (ix3 0 r d)) = V m c main_v6 _
  refine congrArg _ (funext fun a => Fin.ext ?_)
  obtain ⟨e0, e1, e2⟩ := idx0 t
  match a with
  | ⟨0, _⟩ => show win0_0.index t (0 : Fin 3) * 1 + 1 * 0 = t.val / 24; omega
  | ⟨1, _⟩ => show win0_0.index t (1 : Fin 3) * 128 + 1 * r.val = 128 * (t.val / 6 % 4) + r.val; omega
  | ⟨2, _⟩ => show win0_0.index t (2 : Fin 3) * 512 + 1 * d.val = d.val; omega

/-- Entry `(0, r, d)` of the step's label block is the label sequence's entry `(b, 8·u + r, d)`. -/
theorem iblk1_apply (t : Fin cfg0.N) (r : Fin 8) (d : Fin 512) :
    iblk m c 1 t (ix3 0 r d) = V m c main_v7 (ix3 (bOf t) (rowU t r) d) := by
  unfold iblk
  show V m c main_v7 (((cfg0.win 1).blk t).view.emb (ix3 0 r d)) = V m c main_v7 _
  refine congrArg _ (funext fun a => Fin.ext ?_)
  obtain ⟨e0, e1, e2⟩ := idx1 t
  match a with
  | ⟨0, _⟩ => show win0_1.index t (0 : Fin 3) * 1 + 1 * 0 = t.val / 24; omega
  | ⟨1, _⟩ => show win0_1.index t (1 : Fin 3) * 8 + 1 * r.val = 8 * (t.val % 6) + r.val; omega
  | ⟨2, _⟩ => show win0_1.index t (2 : Fin 3) * 512 + 1 * d.val = d.val; omega

/-- Entry `(0, 0, r)` of the step's mask block is the mask's entry `(b, 0, 128·ti + r)`. -/
theorem iblk2_apply (t : Fin cfg0.N) (r : Fin 128) :
    iblk m c 2 t (ix3 0 0 r) = V m c main_arg2 (ix3 (bOf t) 0 (rowT t r)) := by
  unfold iblk
  show V m c main_arg2 (((cfg0.win 2).blk t).view.emb (ix3 0 0 r)) = V m c main_arg2 _
  refine congrArg _ (funext fun a => Fin.ext ?_)
  obtain ⟨e0, e1, e2⟩ := idx2 t
  match a with
  | ⟨0, _⟩ => show win0_2.index t (0 : Fin 3) * 1 + 1 * 0 = t.val / 24; omega
  | ⟨1, _⟩ => show win0_2.index t (1 : Fin 3) * 1 + 1 * 0 = 0; omega
  | ⟨2, _⟩ => show win0_2.index t (2 : Fin 3) * 128 + 1 * r.val = 128 * (t.val / 6 % 4) + r.val; omega

/-! ## The blocks that are whole arrays -/

/-- The first layer's left half's window never moves: its block index is (0, 0) at every step. -/
theorem idx3 : ∀ t : Fin cfg0.N, win0_3.index t (0 : Fin 2) = 0 ∧ win0_3.index t (1 : Fin 2) = 0 :=
  (by decide +kernel : ∀ t : Fin grid0.N, _)

/-- At every step the block of the first layer's left half is the whole array. -/
theorem iblk3_eq (t : Fin cfg0.N) : (iblk m c 3 t : S1024x512.Idx → EReal) = (V m c main_v1 : S1024x512.Idx → EReal) := by
  funext j
  unfold iblk
  show V m c main_v1 (((cfg0.win 3).blk t).view.emb j) = V m c main_v1 j
  refine congrArg _ (funext fun a => Fin.ext ?_)
  obtain ⟨e0, e1⟩ := idx3 t
  match a with
  | ⟨0, _⟩ => show win0_3.index t (0 : Fin 2) * 1024 + 1 * (j 0).val = (j 0).val; omega
  | ⟨1, _⟩ => show win0_3.index t (1 : Fin 2) * 512 + 1 * (j 1).val = (j 1).val; omega

/-- The first layer's right half's window never moves: its block index is (0, 0) at every step. -/
theorem idx4 : ∀ t : Fin cfg0.N, win0_4.index t (0 : Fin 2) = 0 ∧ win0_4.index t (1 : Fin 2) = 0 :=
  (by decide +kernel : ∀ t : Fin grid0.N, _)

/-- At every step the block of the first layer's right half is the whole array. -/
theorem iblk4_eq (t : Fin cfg0.N) : (iblk m c 4 t : S1024x512.Idx → EReal) = (V m c main_v3 : S1024x512.Idx → EReal) := by
  funext j
  unfold iblk
  show V m c main_v3 (((cfg0.win 4).blk t).view.emb j) = V m c main_v3 j
  refine congrArg _ (funext fun a => Fin.ext ?_)
  obtain ⟨e0, e1⟩ := idx4 t
  match a with
  | ⟨0, _⟩ => show win0_4.index t (0 : Fin 2) * 1024 + 1 * (j 0).val = (j 0).val; omega
  | ⟨1, _⟩ => show win0_4.index t (1 : Fin 2) * 512 + 1 * (j 1).val = (j 1).val; omega

/-- The first layer's bias's window never moves: its block index is 0 at every step. -/
theorem idx5 : ∀ t : Fin cfg0.N, win0_5.index t (0 : Fin 1) = 0 :=
  (by decide +kernel : ∀ t : Fin grid0.N, _)

/-- At every step the block of the first layer's bias is the whole array. -/
theorem iblk5_eq (t : Fin cfg0.N) : (iblk m c 5 t : S1024.Idx → EReal) = (V m c main_arg4 : S1024.Idx → EReal) := by
  funext j
  unfold iblk
  show V m c main_arg4 (((cfg0.win 5).blk t).view.emb j) = V m c main_arg4 j
  refine congrArg _ (funext fun a => Fin.ext ?_)
  have e0 := idx5 t
  match a with
  | ⟨0, _⟩ => show win0_5.index t (0 : Fin 1) * 1024 + 1 * (j 0).val = (j 0).val; omega

/-- The second layer's matrix's window never moves: its block index is (0, 0) at every step. -/
theorem idx6 : ∀ t : Fin cfg0.N, win0_6.index t (0 : Fin 2) = 0 ∧ win0_6.index t (1 : Fin 2) = 0 :=
  (by decide +kernel : ∀ t : Fin grid0.N, _)

/-- At every step the block of the second layer's matrix is the whole array. -/
theorem iblk6_eq (t : Fin cfg0.N) : (iblk m c 6 t : S128x1024.Idx → EReal) = (V m c main_v4 : S128x1024.Idx → EReal) := by
  funext j
  unfold iblk
  show V m c main_v4 (((cfg0.win 6).blk t).view.emb j) = V m c main_v4 j
  refine congrArg _ (funext fun a => Fin.ext ?_)
  obtain ⟨e0, e1⟩ := idx6 t
  match a with
  | ⟨0, _⟩ => show win0_6.index t (0 : Fin 2) * 128 + 1 * (j 0).val = (j 0).val; omega
  | ⟨1, _⟩ => show win0_6.index t (1 : Fin 2) * 1024 + 1 * (j 1).val = (j 1).val; omega

/-- The second layer's bias's window never moves: its block index is 0 at every step. -/
theorem idx7 : ∀ t : Fin cfg0.N, win0_7.index t (0 : Fin 1) = 0 :=
  (by decide +kernel : ∀ t : Fin grid0.N, _)

/-- At every step the block of the second layer's bias is the whole array. -/
theorem iblk7_eq (t : Fin cfg0.N) : (iblk m c 7 t : S128.Idx → EReal) = (V m c main_arg6 : S128.Idx → EReal) := by
  funext j
  unfold iblk
  show V m c main_arg6 (((cfg0.win 7).blk t).view.emb j) = V m c main_arg6 j
  refine congrArg _ (funext fun a => Fin.ext ?_)
  have e0 := idx7 t
  match a with
  | ⟨0, _⟩ => show win0_7.index t (0 : Fin 1) * 128 + 1 * (j 0).val = (j 0).val; omega

/-- The convolution's weights's window never moves: its block index is (0, 0) at every step. -/
theorem idx8 : ∀ t : Fin cfg0.N, win0_8.index t (0 : Fin 2) = 0 ∧ win0_8.index t (1 : Fin 2) = 0 :=
  (by decide +kernel : ∀ t : Fin grid0.N, _)

/-- At every step the block of the convolution's weights is the whole array. -/
theorem iblk8_eq (t : Fin cfg0.N) : (iblk m c 8 t : S128x512.Idx → EReal) = (V m c main_v5 : S128x512.Idx → EReal) := by
  funext j
  unfold iblk
  show V m c main_v5 (((cfg0.win 8).blk t).view.emb j) = V m c main_v5 j
  refine congrArg _ (funext fun a => Fin.ext ?_)
  obtain ⟨e0, e1⟩ := idx8 t
  match a with
  | ⟨0, _⟩ => show win0_8.index t (0 : Fin 2) * 128 + 1 * (j 0).val = (j 0).val; omega
  | ⟨1, _⟩ => show win0_8.index t (1 : Fin 2) * 512 + 1 * (j 1).val = (j 1).val; omega

/-- The convolution's bias's window never moves: its block index is 0 at every step. -/
theorem idx9 : ∀ t : Fin cfg0.N, win0_9.index t (0 : Fin 1) = 0 :=
  (by decide +kernel : ∀ t : Fin grid0.N, _)

/-- At every step the block of the convolution's bias is the whole array. -/
theorem iblk9_eq (t : Fin cfg0.N) : (iblk m c 9 t : S128.Idx → EReal) = (V m c main_arg8 : S128.Idx → EReal) := by
  funext j
  unfold iblk
  show V m c main_arg8 (((cfg0.win 9).blk t).view.emb j) = V m c main_arg8 j
  refine congrArg _ (funext fun a => Fin.ext ?_)
  have e0 := idx9 t
  match a with
  | ⟨0, _⟩ => show win0_9.index t (0 : Fin 1) * 128 + 1 * (j 0).val = (j 0).val; omega

end Cert.KernelIdeal.BlockReads

end
-- ==== Proof.PaySeg.lean ====
/-
  Three of the kernel's stored values read at one entry, on the extended reals: the image projection (the block's rows
  times the transposed weight block), the masked pointwise convolution (weights times the transposed image block, plus
  a bias column, times a mask row) and the normalised class scores (the shifted scores minus the logarithm of the sum of
  their exponentials along the class axis). Each is reduced to its operands at literal coordinates: a layout operation
  reads one entry of its operand, a contraction is a sum over its one contracted coordinate, a lane reduction a sum over
  the reduced coordinate.
-/
import proofs.«164176_j85237920956984_1_alg».proof.Proof.Gen.KernelIdeal.Skeleton
import proofs.«164176_j85237920956984_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PaySeg

open Cert.KernelIdeal Cert.KernelIdeal.Gen Idealize.ShloMosaic Idealize.ShloMosaic.ValueIdx

/-! ### The contraction of a `[128, 512]` matrix with a `[512, 1024]` matrix, read at an entry -/

/-- The left operand's row is the entry's row. -/
theorem lhsA_0 (i : S128x1024.Idx) (q : dot_S128x512_S512x1024_S128x1024_1_0_0_1_n_n.contr.Idx) :
    (dot_S128x512_S512x1024_S128x1024_1_0_0_1_n_n.lhsIdx i q 0).val = (i 0).val := by
  unfold DotDims.lhsIdx
  rw [dif_neg (show ¬(0 : Fin S128x512.rank) ∈ dot_S128x512_S512x1024_S128x1024_1_0_0_1_n_n.lhsBatch by decide), dif_pos (show (0 : Fin S128x512.rank) ∈ dot_S128x512_S512x1024_S128x1024_1_0_0_1_n_n.lhsNonContracting by decide)]
  rfl
/-- The left operand's column is the contracted coordinate. -/
theorem lhsA_1 (i : S128x1024.Idx) (q : dot_S128x512_S512x1024_S128x1024_1_0_0_1_n_n.contr.Idx) :
    (dot_S128x512_S512x1024_S128x1024_1_0_0_1_n_n.lhsIdx i q 1).val = (q ⟨0, by decide⟩).val :=
  dot_S128x512_S512x1024_S128x1024_1_0_0_1_n_n.lhsIdx_val_of_single rfl i q
/-- The right operand's row is the contracted coordinate. -/
theorem rhsA_0 (i : S128x1024.Idx) (q : dot_S128x512_S512x1024_S128x1024_1_0_0_1_n_n.contr.Idx) :
    (dot_S128x512_S512x1024_S128x1024_1_0_0_1_n_n.rhsIdx i q 0).val = (q ⟨0, by decide⟩).val :=
  dot_S128x512_S512x1024_S128x1024_1_0_0_1_n_n.rhsIdx_val_of_single rfl i q
/-- The right operand's column is the entry's column. -/
theorem rhsA_1 (i : S128x1024.Idx) (q : dot_S128x512_S512x1024_S128x1024_1_0_0_1_n_n.contr.Idx) :
    (dot_S128x512_S512x1024_S128x1024_1_0_0_1_n_n.rhsIdx i q 1).val = (i 1).val := by
  unfold DotDims.rhsIdx
  rw [dif_neg (show ¬(1 : Fin S512x1024.rank) ∈ dot_S128x512_S512x1024_S128x1024_1_0_0_1_n_n.rhsBatch by decide), dif_pos (show (1 : Fin S512x1024.rank) ∈ dot_S128x512_S512x1024_S128x1024_1_0_0_1_n_n.rhsNonContracting by decide)]
  rfl

/-- Accumulated into the zero splat, the product's entry `(p, c)` is `Σ_k lhs[p, k] · rhs[k, c]`. -/
theorem matmulA_apply {φ₁ φ₂ : FTy} (lhs : FVec Ideal S128x512 φ₁) (rhs : FVec Ideal S512x1024 φ₂) (p : Fin 128) (c : Fin 1024) :
    matmul dot_S128x512_S512x1024_S128x1024_1_0_0_1_n_n none lhs rhs (constant (F := Ideal) S128x1024 .f32 0x00000000#32) (ix2 p c)
      = ∑ k : Fin 512, lhs (ix2 p k) * rhs (ix2 k c) := by
  refine (Ideal.matmul_constant_zero_apply dot_S128x512_S512x1024_S128x1024_1_0_0_1_n_n none lhs rhs (ix2 p c)).trans ?_
  rw [← Equiv.sum_comp (contrEquiv1 dot_S128x512_S512x1024_S128x1024_1_0_0_1_n_n 512 rfl rfl).symm]
  refine Finset.sum_congr rfl fun k _ => ?_
  have hk := contrEquiv1_symm_val dot_S128x512_S512x1024_S128x1024_1_0_0_1_n_n 512 rfl rfl k
  have el : dot_S128x512_S512x1024_S128x1024_1_0_0_1_n_n.lhsIdx (ix2 p c) ((contrEquiv1 dot_S128x512_S512x1024_S128x1024_1_0_0_1_n_n 512 rfl rfl).symm k) = ix2 p k := funext fun a => Fin.ext (by
    match a with
    | ⟨0, _⟩ => exact lhsA_0 _ _
    | ⟨1, _⟩ => exact (lhsA_1 _ _).trans hk)
  have er : dot_S128x512_S512x1024_S128x1024_1_0_0_1_n_n.rhsIdx (ix2 p c) ((contrEquiv1 dot_S128x512_S512x1024_S128x1024_1_0_0_1_n_n 512 rfl rfl).symm k) = ix2 k c := funext fun a => Fin.ext (by
    match a with
    | ⟨0, _⟩ => exact (rhsA_0 _ _).trans hk
    | ⟨1, _⟩ => exact rhsA_1 _ _)
  rw [el, er]

/-! ### The contraction of a `[128, 512]` matrix with a `[512, 128]` matrix, read at an entry -/

/-- The left operand's row is the entry's row. -/
theorem lhsB_0 (i : S128x128.Idx) (q : dot_S128x512_S512x128_S128x128_1_0_0_1_n_n.contr.Idx) :
    (dot_S128x512_S512x128_S128x128_1_0_0_1_n_n.lhsIdx i q 0).val = (i 0).val := by
  unfold DotDims.lhsIdx
  rw [dif_neg (show ¬(0 : Fin S128x512.rank) ∈ dot_S128x512_S512x128_S128x128_1_0_0_1_n_n.lhsBatch by decide), dif_pos (show (0 : Fin S128x512.rank) ∈ dot_S128x512_S512x128_S128x128_1_0_0_1_n_n.lhsNonContracting by decide)]
  rfl
/-- The left operand's column is the contracted coordinate. -/
theorem lhsB_1 (i : S128x128.Idx) (q : dot_S128x512_S512x128_S128x128_1_0_0_1_n_n.contr.Idx) :
    (dot_S128x512_S512x128_S128x128_1_0_0_1_n_n.lhsIdx i q 1).val = (q ⟨0, by decide⟩).val :=
  dot_S128x512_S512x128_S128x128_1_0_0_1_n_n.lhsIdx_val_of_single rfl i q
/-- The right operand's row is the contracted coordinate. -/
theorem rhsB_0 (i : S128x128.Idx) (q : dot_S128x512_S512x128_S128x128_1_0_0_1_n_n.contr.Idx) :
    (dot_S128x512_S512x128_S128x128_1_0_0_1_n_n.rhsIdx i q 0).val = (q ⟨0, by decide⟩).val :=
  dot_S128x512_S512x128_S128x128_1_0_0_1_n_n.rhsIdx_val_of_single rfl i q
/-- The right operand's column is the entry's column. -/
theorem rhsB_1 (i : S128x128.Idx) (q : dot_S128x512_S512x128_S128x128_1_0_0_1_n_n.contr.Idx) :
    (dot_S128x512_S512x128_S128x128_1_0_0_1_n_n.rhsIdx i q 1).val = (i 1).val := by
  unfold DotDims.rhsIdx
  rw [dif_neg (show ¬(1 : Fin S512x128.rank) ∈ dot_S128x512_S512x128_S128x128_1_0_0_1_n_n.rhsBatch by decide), dif_pos (show (1 : Fin S512x128.rank) ∈ dot_S128x512_S512x128_S128x128_1_0_0_1_n_n.rhsNonContracting by decide)]
  rfl

/-- Accumulated into the zero splat, the product's entry `(p, c)` is `Σ_k lhs[p, k] · rhs[k, c]`. -/
theorem matmulB_apply {φ₁ φ₂ : FTy} (lhs : FVec Ideal S128x512 φ₁) (rhs : FVec Ideal S512x128 φ₂) (p : Fin 128) (c : Fin 128) :
    matmul dot_S128x512_S512x128_S128x128_1_0_0_1_n_n none lhs rhs (constant (F := Ideal) S128x128 .f32 0x00000000#32) (ix2 p c)
      = ∑ k : Fin 512, lhs (ix2 p k) * rhs (ix2 k c) := by
  refine (Ideal.matmul_constant_zero_apply dot_S128x512_S512x128_S128x128_1_0_0_1_n_n none lhs rhs (ix2 p c)).trans ?_
  rw [← Equiv.sum_comp (contrEquiv1 dot_S128x512_S512x128_S128x128_1_0_0_1_n_n 512 rfl rfl).symm]
  refine Finset.sum_congr rfl fun k _ => ?_
  have hk := contrEquiv1_symm_val dot_S128x512_S512x128_S128x128_1_0_0_1_n_n 512 rfl rfl k
  have el : dot_S128x512_S512x128_S128x128_1_0_0_1_n_n.lhsIdx (ix2 p c) ((contrEquiv1 dot_S128x512_S512x128_S128x128_1_0_0_1_n_n 512 rfl rfl).symm k) = ix2 p k := funext fun a => Fin.ext (by
    match a with
    | ⟨0, _⟩ => exact lhsB_0 _ _
    | ⟨1, _⟩ => exact (lhsB_1 _ _).trans hk)
  have er : dot_S128x512_S512x128_S128x128_1_0_0_1_n_n.rhsIdx (ix2 p c) ((contrEquiv1 dot_S128x512_S512x128_S128x128_1_0_0_1_n_n 512 rfl rfl).symm k) = ix2 k c := funext fun a => Fin.ext (by
    match a with
    | ⟨0, _⟩ => exact (rhsB_0 _ _).trans hk
    | ⟨1, _⟩ => exact rhsB_1 _ _)
  rw [el, er]

/-! ## Keepdims layout forms read at an entry -/

section Keepdims
variable {α : Type}

/-- An `[a, b]` array cast to `[a, b, 1]` reads, at `(i, j, u)`, the operand at `(i, j)`, whatever the unit coordinate `u`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand's one entry `(i, j, 0)` of that row. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A `[1, 1, a]` array cast to `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

end Keepdims

/-! ## The image projection: the block's rows times the transposed weight block -/

/-- Entry `(t, h)` of the image projection is `Σ_d x0[0, t, d] · x4[h, d]`: the leading unit axis of the image block is
    dropped, the weight block is read transposed, and the product accumulates into zero. -/
theorem pay3_apply (x0 : Vec Ideal S1x128x512 .bf16) (x4 : Vec Ideal S1024x512 .bf16) (t : Fin 128) (h : Fin 1024) :
    k0_pay3 (F := Ideal) x0 x4 (ix2 t h) = ∑ d : Fin 512, x0 (ix3 0 t d) * x4 (ix2 h d) := by
  unfold k0_pay3 k0_pay2
  rw [shapeCast_self, shapeCast_self]
  refine (matmulA_apply _ _ t h).trans ?_
  refine Finset.sum_congr rfl fun d _ => ?_
  rw [shapeCast_1ab_ab_apply, transpose_ix2_apply]

/-! ## The normalised class scores -/

/-- The sum along the class axis of an `[8, 128, 128]` array, at `(u, t)`, is `Σ_k src[u, t, k]`. -/
theorem sumLanes_apply (src : FVec Ideal S8x128x128 .f32) (hr : S8x128x128.Reduces [2] S8x128) (hφ : FKind.Formats .f32)
    (hacc : (0x00000000#32 : BitVec 32) = 0x00000000#32) (u : Fin 8) (t : Fin 128) :
    multiReduction .add [2] S8x128 src 0x00000000#32 hr hφ hacc (ix2 u t) = ∑ k : Fin 128, src (ix3 u t k) := by
  refine (Ideal.multiReduction_add_single src 0x00000000#32 hr hφ hacc (ix2 u t)).trans ?_
  refine Finset.sum_congr rfl fun k _ => congrArg src (funext fun a => Fin.ext ?_)
  match a with
  | ⟨0, _⟩ => rfl
  | ⟨1, _⟩ => rfl
  | ⟨2, _⟩ => rfl

/-- Over any shifted scores `z`: the stored value at `(0, u, t, k)` is `z[u, t, k]` minus the logarithm of the sum over the
    class axis of the exponentials of row `(u, t)`. The logarithm is taken on the keepdims column `[8, 128, 1]`, which is
    then broadcast back along the class axis. -/
theorem pay1_of_scores (z : FVec Ideal S8x128x128 .f32) (u : Fin 8) (t k : Fin 128) :
    k0_pay1 (F := Ideal) z
        (log (shapeCast S8x128x1 (multiReduction .add [2] S8x128 (exp z) 0x00000000#32 reduces_S8x128x128_S8x128 (.inl rfl) rfl)
          shapeCasts_S8x128_S8x128x1)) (ix4 0 u t k)
      = z (ix3 u t k) - Ideal.log (∑ k' : Fin 128, Ideal.exp (z (ix3 u t k'))) := by
  unfold k0_pay1
  refine (shapeCast_abc_1abc_apply _ _ 0 u t k).trans ?_
  refine (subf_apply _ _ _).trans ?_
  refine congrArg (z (ix3 u t k) - ·) ?_
  refine (broadcastTo_ab1_abc_apply _ _ u t k).trans ?_
  refine congrArg Ideal.log ?_
  refine (shapeCast_ab_ab1_apply _ _ u t 0).trans ?_
  exact sumLanes_apply (exp z) _ _ _ u t

/-- The stored class scores at `(0, u, t, k)`: the shifted score minus the logarithm of the row's sum of exponentials. The
    shifted scores enter only as an array; nothing of how they are computed is used. -/
theorem pay1_apply (x1 : Vec Ideal S1x8x512 .bf16) (x3 : Vec Ideal S1024x512 .bf16) (s : Vec Ideal S128x1024 .f32)
    (x5 : Vec Ideal S1024 .f32) (x6 : Vec Ideal S128x1024 .bf16) (x7 : Vec Ideal S128 .f32) (u : Fin 8) (t k : Fin 128) :
    k0_pay1 (F := Ideal) (k0_pay5 x1 x3 s x5 x6 x7) (k0_pay6 x1 x3 s x5 x6 x7) (ix4 0 u t k)
      = k0_pay5 (F := Ideal) x1 x3 s x5 x6 x7 (ix3 u t k)
        - Ideal.log (∑ k' : Fin 128, Ideal.exp (k0_pay5 (F := Ideal) x1 x3 s x5 x6 x7 (ix3 u t k'))) := by
  unfold k0_pay6
  generalize k0_pay5 (F := Ideal) x1 x3 s x5 x6 x7 = z
  exact pay1_of_scores z u t k

/-! ## The masked pointwise convolution -/

/-- Entry `(0, k, t)` of the segmentation block: `(Σ_d x8[k, d] · x0[0, t, d] + x9[k]) · x2[0, 0, t]`. The image block is
    read transposed, the bias is a column broadcast along the rows' entries, the mask a row broadcast over the rows. -/
theorem pay4_apply (x0 : Vec Ideal S1x128x512 .bf16) (x8 : Vec Ideal S128x512 .bf16) (x9 : Vec Ideal S128 .f32)
    (x2 : Vec Ideal S1x1x128 .f32) (k t : Fin 128) :
    k0_pay4 (F := Ideal) x0 x8 x9 x2 (ix3 0 k t)
      = ((∑ d : Fin 512, x8 (ix2 k d) * x0 (ix3 0 t d)) + x9 (ix1 k)) * x2 (ix3 0 0 t) := by
  unfold k0_pay4 k0_pay2
  rw [shapeCast_self]
  refine (shapeCast_ab_1ab_apply _ _ 0 k t).trans ?_
  refine (mulf_apply _ _ _).trans ?_
  refine congrArg₂ (· * ·) ?_ ?_
  · refine (addf_apply _ _ _).trans ?_
    refine congrArg₂ (· + ·) ?_ ?_
    · refine (matmulB_apply _ _ k t).trans ?_
      refine Finset.sum_congr rfl fun d _ => ?_
      rw [transpose_ix2_apply, shapeCast_1ab_ab_apply]
    · refine (broadcastTo_a1_ab_apply _ _ k t).trans ?_
      exact shapeCast_a_a1_apply _ _ k 0
  · refine (broadcastTo_1b_ab_apply _ _ k t).trans ?_
    refine (shapeCast_a_1a_apply _ _ 0 t).trans ?_
    exact shapeCast_11a_a_apply _ _ t

end Cert.KernelIdeal.PaySeg

end
-- ==== Proof.PayJoint.lean ====
/-
  The kernel's largest payload read at an index.

  One grid step holds eight label rows x1[0,u,d], the label half of the first layer x3[h,d], the image projection of
  its 128 image rows s[t,h], the biases x5[h], x7[k] and the second layer x6[k,h]. The payload computes, for every pair
  (u, t) and class k,
      joint[u,t,k] = Σ_h tanh((Σ_d x1[0,u,d]·x3[h,d] + s[t,h]) + x5[h]) · x6[k,h] + x7[k]
  and subtracts from it the maximum of its row k' ↦ joint[u,t,k'], the fold of `max` from the word of −∞.

  The file reads the payload at (u, t, k) in that form. First the layout operations it meets (casts that insert or drop
  unit axes or merge and split the leading axes, broadcasts along unit axes), the two matrix products and the row
  maximum, each read at an index written by coordinates; then the payload itself, cut into named stages.
-/
import proofs.«164176_j85237920956984_1_alg».proof.Proof.Gen.KernelIdeal.Skeleton
import proofs.«164176_j85237920956984_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayJoint

open Cert.KernelIdeal Cert.KernelIdeal.Gen Idealize.ShloMosaic Idealize.ShloMosaic.ValueIdx

/-! ## Layout operations read at coordinates

Each lemma reads one cast or broadcast at an index written by its coordinates: the operand's index with the same
row-major position (a cast), or with 0 on the operand's unit axes (a broadcast). -/

section Layout
variable {α : Type}

/-- An `[a, b]` array cast to `[a, 1, b]` reads, at `(i, z, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (z : Fin 1) (j : Fin b) :
    shapeCast ⟨3, ![a, 1, b]⟩ x h (ix3 i z j) = x (ix2 i j) :=
  shapeCast_apply x h _ _ (by
    have hz : z.val = 0 := by omega
    rw [Shape.rowMajor_val_three, Shape.rowMajor_val_two]
    show i.val * b + j.val = (i.val * 1 + z.val) * b + j.val
    rw [hz, Nat.mul_one, Nat.add_zero])

/-- An `[a]` array cast to `[1, 1, a]` reads, at `(y, z, i)`, the operand at `i`. -/
theorem shapeCast_a_11a_apply {a : ℕ} (x : (⟨1, ![a]⟩ : Shape).Idx → α)
    (h : (⟨1, ![a]⟩ : Shape).ShapeCasts ⟨3, ![1, 1, a]⟩) (y z : Fin 1) (i : Fin a) :
    shapeCast ⟨3, ![1, 1, a]⟩ x h (ix3 y z i) = x (ix1 i) :=
  shapeCast_apply x h _ _ (by
    have hy : y.val = 0 := by omega
    have hz : z.val = 0 := by omega
    rw [Shape.rowMajor_val_three, Shape.rowMajor_val_one]
    show i.val = (y.val * 1 + z.val) * a + i.val
    rw [hy, hz]
    simp only [Nat.zero_mul, Nat.zero_add, Nat.mul_one, Nat.add_zero])

/-- An `[a, b]` array cast to `[a, b, 1]` reads, at `(i, j, z)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (z : Fin 1) :
    shapeCast ⟨3, ![a, b, 1]⟩ x h (ix3 i j z) = x (ix2 i j) :=
  shapeCast_apply x h _ _ (by
    have hz : z.val = 0 := by omega
    rw [Shape.rowMajor_val_three, Shape.rowMajor_val_two]
    show i.val * b + j.val = (i.val * b + j.val) * 1 + z.val
    rw [hz, Nat.mul_one, Nat.add_zero])

/-- An `[a, b, c]` array cast to `[a * b, c]`, the first two axes merged, reads, at `(r, k)` with `r = b·i + j`,
    the operand at `(i, j, k)`. -/
theorem shapeCast_abc_mc_apply {a b c m : ℕ} (x : (⟨3, ![a, b, c]⟩ : Shape).Idx → α)
    (h : (⟨3, ![a, b, c]⟩ : Shape).ShapeCasts ⟨2, ![m, c]⟩) (i : Fin a) (j : Fin b) (k : Fin c) (r : Fin m)
    (hr : r.val = i.val * b + j.val) :
    shapeCast ⟨2, ![m, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[m, c]` array cast to `[a, b, c]`, the first axis split, reads, at `(i, j, k)`, the operand at `(r, k)` with
    `r = b·i + j`. -/
theorem shapeCast_mc_abc_apply {a b c m : ℕ} (x : (⟨2, ![m, c]⟩ : Shape).Idx → α)
    (h : (⟨2, ![m, c]⟩ : Shape).ShapeCasts ⟨3, ![a, b, c]⟩) (i : Fin a) (j : Fin b) (k : Fin c) (r : Fin m)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

/-- An `[a, 1, c]` array broadcast to `[a, b, c]` reads, at `(i, j, k)`, the operand at `(i, 0, k)`. -/
theorem broadcastTo_a1c_abc_apply {a b c : ℕ} (hc : c ≠ 1) (ha : a ≠ 1) (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ => show i.val = if a = 1 then 0 else i.val; rw [if_neg ha]
  | ⟨1, _⟩ => rfl
  | ⟨2, _⟩ => show k.val = if c = 1 then 0 else k.val; rw [if_neg hc]

/-- A `[1, b, c]` array broadcast to `[a, b, c]` reads, at `(i, j, k)`, the operand at `(0, j, k)`. -/
theorem broadcastTo_1bc_abc_apply {a b c : ℕ} (hb : b ≠ 1) (hc : c ≠ 1) (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ => show j.val = if b = 1 then 0 else j.val; rw [if_neg hb]
  | ⟨2, _⟩ => show k.val = if c = 1 then 0 else k.val; rw [if_neg hc]

/-- A `[1, 1, c]` array broadcast to `[a, b, c]` reads, at `(i, j, k)`, the operand at `(0, 0, k)`. -/
theorem broadcastTo_11c_abc_apply {a b c : ℕ} (hc : c ≠ 1) (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ => show k.val = if c = 1 then 0 else k.val; rw [if_neg hc]

/-- An `[a, b, 1]` array broadcast to `[a, b, c]` reads, at `(i, j, k)`, the operand at `(i, j, 0)`. -/
theorem broadcastTo_ab1_abc_apply {a b c : ℕ} (ha : a ≠ 1) (hb : b ≠ 1) (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ => show i.val = if a = 1 then 0 else i.val; rw [if_neg ha]
  | ⟨1, _⟩ => show j.val = if b = 1 then 0 else j.val; rw [if_neg hb]
  | ⟨2, _⟩ => rfl

end Layout

/-! ## The two matrix products read at coordinates

A product with one contracted axis, accumulated into the zero splat, is at `(r, c)` the sum over the contracted
coordinate `d` of the left operand at `(r, d)` times the right operand at `(d, c)`. For each of the two products: where
the dimension numbers send an output index and a contraction index on each operand axis, then the sum re-indexed
through the contraction shape's one coordinate. -/

section Products

theorem mmA_lhs0 (i : S8x1024.Idx) (q : dot_S8x512_S512x1024_S8x1024_1_0_0_1_n_n.contr.Idx) : (dot_S8x512_S512x1024_S8x1024_1_0_0_1_n_n.lhsIdx i q 0).val = (i 0).val := by
  unfold DotDims.lhsIdx
  rw [dif_neg (show ¬(0 : Fin S8x512.rank) ∈ dot_S8x512_S512x1024_S8x1024_1_0_0_1_n_n.lhsBatch by decide), dif_pos (show (0 : Fin S8x512.rank) ∈ dot_S8x512_S512x1024_S8x1024_1_0_0_1_n_n.lhsNonContracting by decide)]
  rfl
theorem mmA_lhs1 (i : S8x1024.Idx) (q : dot_S8x512_S512x1024_S8x1024_1_0_0_1_n_n.contr.Idx) : (dot_S8x512_S512x1024_S8x1024_1_0_0_1_n_n.lhsIdx i q 1).val = (q ⟨0, by decide⟩).val :=
  dot_S8x512_S512x1024_S8x1024_1_0_0_1_n_n.lhsIdx_val_of_single rfl i q
theorem mmA_rhs0 (i : S8x1024.Idx) (q : dot_S8x512_S512x1024_S8x1024_1_0_0_1_n_n.contr.Idx) : (dot_S8x512_S512x1024_S8x1024_1_0_0_1_n_n.rhsIdx i q 0).val = (q ⟨0, by decide⟩).val :=
  dot_S8x512_S512x1024_S8x1024_1_0_0_1_n_n.rhsIdx_val_of_single rfl i q
theorem mmA_rhs1 (i : S8x1024.Idx) (q : dot_S8x512_S512x1024_S8x1024_1_0_0_1_n_n.contr.Idx) : (dot_S8x512_S512x1024_S8x1024_1_0_0_1_n_n.rhsIdx i q 1).val = (i 1).val := by
  unfold DotDims.rhsIdx
  rw [dif_neg (show ¬(1 : Fin S512x1024.rank) ∈ dot_S8x512_S512x1024_S8x1024_1_0_0_1_n_n.rhsBatch by decide), dif_pos (show (1 : Fin S512x1024.rank) ∈ dot_S8x512_S512x1024_S8x1024_1_0_0_1_n_n.rhsNonContracting by decide)]
  rfl

/-- The product `[8, 512] × [512, 1024]` at `(r, c)`. -/
theorem mmA_apply (A : FVec Ideal S8x512 .bf16) (B : FVec Ideal S512x1024 .bf16) (r : Fin 8) (c : Fin 1024) :
    matmul dot_S8x512_S512x1024_S8x1024_1_0_0_1_n_n none A B (constant (F := Ideal) S8x1024 .f32 0x00000000#32) (ix2 r c)
      = ∑ d : Fin 512, A (ix2 r d) * B (ix2 d c) := by
  show FloatOps.matmul dot_S8x512_S512x1024_S8x1024_1_0_0_1_n_n none A B (constant (F := Ideal) S8x1024 .f32 0x00000000#32) (ix2 r c) = _
  rw [Ideal.matmul_constant_zero_apply, ← Equiv.sum_comp (contrEquiv1 dot_S8x512_S512x1024_S8x1024_1_0_0_1_n_n 512 rfl rfl).symm]
  refine Finset.sum_congr rfl fun d _ => ?_
  have hd := contrEquiv1_symm_val dot_S8x512_S512x1024_S8x1024_1_0_0_1_n_n 512 rfl rfl d
  have el : dot_S8x512_S512x1024_S8x1024_1_0_0_1_n_n.lhsIdx (ix2 r c) ((contrEquiv1 dot_S8x512_S512x1024_S8x1024_1_0_0_1_n_n 512 rfl rfl).symm d) = ix2 r d :=
    funext fun a => Fin.ext (by
      match a with
      | ⟨0, _⟩ => exact mmA_lhs0 _ _
      | ⟨1, _⟩ => exact (mmA_lhs1 _ _).trans hd)
  have er : dot_S8x512_S512x1024_S8x1024_1_0_0_1_n_n.rhsIdx (ix2 r c) ((contrEquiv1 dot_S8x512_S512x1024_S8x1024_1_0_0_1_n_n 512 rfl rfl).symm d) = ix2 d c :=
    funext fun a => Fin.ext (by
      match a with
      | ⟨0, _⟩ => exact (mmA_rhs0 _ _).trans hd
      | ⟨1, _⟩ => exact mmA_rhs1 _ _)
  rw [el, er]

theorem mmB_lhs0 (i : S1024x128.Idx) (q : dot_S1024x1024_S1024x128_S1024x128_1_0_0_1_n_n.contr.Idx) : (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem mmB_lhs1 (i : S1024x128.Idx) (q : dot_S1024x1024_S1024x128_S1024x128_1_0_0_1_n_n.contr.Idx) : (dot_S1024x1024_S1024x128_S1024x128_1_0_0_1_n_n.lhsIdx i q 1).val = (q ⟨0, by decide⟩).val :=
  dot_S1024x1024_S1024x128_S1024x128_1_0_0_1_n_n.lhsIdx_val_of_single rfl i q
theorem mmB_rhs0 (i : S1024x128.Idx) (q : dot_S1024x1024_S1024x128_S1024x128_1_0_0_1_n_n.contr.Idx) : (dot_S1024x1024_S1024x128_S1024x128_1_0_0_1_n_n.rhsIdx i q 0).val = (q ⟨0, by decide⟩).val :=
  dot_S1024x1024_S1024x128_S1024x128_1_0_0_1_n_n.rhsIdx_val_of_single rfl i q
theorem mmB_rhs1 (i : S1024x128.Idx) (q : dot_S1024x1024_S1024x128_S1024x128_1_0_0_1_n_n.contr.Idx) : (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- The product `[1024, 1024] × [1024, 128]` at `(r, c)`. -/
theorem mmB_apply (A : FVec Ideal S1024x1024 .bf16) (B : FVec Ideal S1024x128 .bf16) (r : Fin 1024) (c : Fin 128) :
    matmul dot_S1024x1024_S1024x128_S1024x128_1_0_0_1_n_n none A B (constant (F := Ideal) S1024x128 .f32 0x00000000#32) (ix2 r c)
      = ∑ d : Fin 1024, A (ix2 r d) * B (ix2 d c) := by
  show FloatOps.matmul dot_S1024x1024_S1024x128_S1024x128_1_0_0_1_n_n none A B (constant (F := Ideal) S1024x128 .f32 0x00000000#32) (ix2 r c) = _
  rw [Ideal.matmul_constant_zero_apply, ← Equiv.sum_comp (contrEquiv1 dot_S1024x1024_S1024x128_S1024x128_1_0_0_1_n_n 1024 rfl rfl).symm]
  refine Finset.sum_congr rfl fun d _ => ?_
  have hd := contrEquiv1_symm_val dot_S1024x1024_S1024x128_S1024x128_1_0_0_1_n_n 1024 rfl rfl d
  have el : dot_S1024x1024_S1024x128_S1024x128_1_0_0_1_n_n.lhsIdx (ix2 r c) ((contrEquiv1 dot_S1024x1024_S1024x128_S1024x128_1_0_0_1_n_n 1024 rfl rfl).symm d) = ix2 r d :=
    funext fun a => Fin.ext (by
      match a with
      | ⟨0, _⟩ => exact mmB_lhs0 _ _
      | ⟨1, _⟩ => exact (mmB_lhs1 _ _).trans hd)
  have er : dot_S1024x1024_S1024x128_S1024x128_1_0_0_1_n_n.rhsIdx (ix2 r c) ((contrEquiv1 dot_S1024x1024_S1024x128_S1024x128_1_0_0_1_n_n 1024 rfl rfl).symm d) = ix2 d c :=
    funext fun a => Fin.ext (by
      match a with
      | ⟨0, _⟩ => exact (mmB_rhs0 _ _).trans hd
      | ⟨1, _⟩ => exact mmB_rhs1 _ _)
  rw [el, er]

end Products

/-! ## The row maximum read at coordinates -/

section RowMax

/-- The maximum over the last axis of an `[8, 128, 128]` array, folded from the word of −∞, is at `(u, t)` the fold of
    `max` over the row `k ↦ src (u, t, k)`: the source index over `(u, t)` with coordinate `k` inserted on the reduced axis
    is `(u, t, k)`. -/
theorem rowMax_read (src : FVec Ideal S8x128x128 .f32) (h : S8x128x128.Reduces [2] S8x128) (hφ : FKind.Formats .f32)
    (hacc : (0xFF800000#32 : BitVec 32) = FKind.maximumf.neutral .f32 hφ) (u : Fin 8) (t : Fin 128) :
    multiReduction (F := Ideal) .maximumf [2] S8x128 src 0xFF800000#32 h hφ hacc (ix2 u t)
      = Cert.JointNet.rowMax (fun k => src (ix3 u t k)) := by
  refine (Ideal.multiReduction_maximumf_single src 0xFF800000#32 h hφ hacc (ix2 u t)).trans ?_
  have hl : ∀ k : Fin 128, h.lift (ix2 u t) k = ix3 u t k := fun k => funext fun c => Fin.ext (by
    match c with
    | ⟨0, _⟩ => rfl
    | ⟨1, _⟩ => rfl
    | ⟨2, _⟩ => rfl)
  show (Finset.univ : Finset (Fin 128)).fold max Cert.JointNet.negInf (fun k => src (h.lift (ix2 u t) k)) = _
  exact congrArg (fun f => (Finset.univ : Finset (Fin 128)).fold max Cert.JointNet.negInf f) (funext fun k => congrArg src (hl k))

end RowMax

/-! ## The payload, one stage at a time

Each stage below is the payload's own operations up to a named value, so that the payload is, by unfolding, the last
stage. Every stage is read at an index written by coordinates. -/

section Stages

variable (x1 : FVec Ideal S1x8x512 .bf16) (x3 : FVec Ideal S1024x512 .bf16) (s : FVec Ideal S128x1024 .f32)
  (x5 : FVec Ideal S1024 .f32) (x6 : FVec Ideal S128x1024 .bf16) (x7 : FVec Ideal S128 .f32)

/-- The label rows times the label half of the first layer: `[8, 512] × [512, 1024]`. -/
def labPart : FVec Ideal S8x1024 .f32 :=
  matmul dot_S8x512_S512x1024_S8x1024_1_0_0_1_n_n none
    (shapeCast S8x512 x1 shapeCasts_S1x8x512_S8x512)
    (transpose S512x1024 [1, 0] (shapeCast S1024x512 x3 shapeCasts_S1024x512_S1024x512) transposes_S1024x512_p1_0_S512x1024)
    (constant S8x1024 .f32 0x00000000#32)

/-- At `(u, h)`: Σ_d x1[0,u,d] · x3[h,d]. -/
theorem labPart_apply (u : Fin 8) (h : Fin 1024) :
    labPart x1 x3 (ix2 u h) = ∑ d : Fin 512, x1 (ix3 0 u d) * x3 (ix2 h d) := by
  unfold labPart
  refine (mmA_apply _ _ u h).trans (Finset.sum_congr rfl fun d _ => ?_)
  refine congr (congrArg _ (shapeCast_1ab_ab_apply x1 _ u d)) ?_
  refine (transpose_ix2_apply _ _ d h).trans ?_
  exact congrFun (shapeCast_self x3 _) _

/-- The hidden activation: both projections broadcast over the `8 × 128` pairs, the bias added, then tanh. -/
def hiddenAct : FVec Ideal S8x128x1024 .f32 :=
  tanh (addf (addf
    (broadcastTo S8x128x1024 (shapeCast S8x1x1024 (labPart x1 x3) shapeCasts_S8x1024_S8x1x1024) broadcasts_S8x1x1024_S8x128x1024)
    (broadcastTo S8x128x1024 (shapeCast S1x128x1024 s shapeCasts_S128x1024_S1x128x1024) broadcasts_S1x128x1024_S8x128x1024))
    (broadcastTo S8x128x1024 (shapeCast S1x1x1024 x5 shapeCasts_S1024_S1x1x1024) broadcasts_S1x1x1024_S8x128x1024))

/-- (i) At `(u, t, h)`: tanh((Σ_d x1[0,u,d] · x3[h,d] + s[t,h]) + x5[h]). -/
theorem hidden_apply (u : Fin 8) (t : Fin 128) (h : Fin 1024) :
    hiddenAct x1 x3 s x5 (ix3 u t h)
      = Ideal.tanh (((∑ d : Fin 512, x1 (ix3 0 u d) * x3 (ix2 h d)) + s (ix2 t h)) + x5 (ix1 h)) := by
  unfold hiddenAct
  show Ideal.tanh ((broadcastTo S8x128x1024 (shapeCast S8x1x1024 (labPart x1 x3) shapeCasts_S8x1024_S8x1x1024) broadcasts_S8x1x1024_S8x128x1024 (ix3 u t h)
      + broadcastTo S8x128x1024 (shapeCast S1x128x1024 s shapeCasts_S128x1024_S1x128x1024) broadcasts_S1x128x1024_S8x128x1024 (ix3 u t h))
      + broadcastTo S8x128x1024 (shapeCast S1x1x1024 x5 shapeCasts_S1024_S1x1x1024) broadcasts_S1x1x1024_S8x128x1024 (ix3 u t h)) = _
  have e1 : broadcastTo S8x128x1024 (shapeCast S8x1x1024 (labPart x1 x3) shapeCasts_S8x1024_S8x1x1024) broadcasts_S8x1x1024_S8x128x1024 (ix3 u t h)
      = ∑ d : Fin 512, x1 (ix3 0 u d) * x3 (ix2 h d) :=
    (broadcastTo_a1c_abc_apply (by decide) (by decide) _ _ u t h).trans
      ((shapeCast_ab_a1b_apply (labPart x1 x3) _ u 0 h).trans (labPart_apply x1 x3 u h))
  have e2 : broadcastTo S8x128x1024 (shapeCast S1x128x1024 s shapeCasts_S128x1024_S1x128x1024) broadcasts_S1x128x1024_S8x128x1024 (ix3 u t h)
      = s (ix2 t h) :=
    (broadcastTo_1bc_abc_apply (by decide) (by decide) _ _ u t h).trans (shapeCast_ab_1ab_apply s _ 0 t h)
  have e3 : broadcastTo S8x128x1024 (shapeCast S1x1x1024 x5 shapeCasts_S1024_S1x1x1024) broadcasts_S1x1x1024_S8x128x1024 (ix3 u t h)
      = x5 (ix1 h) :=
    (broadcastTo_11c_abc_apply (by decide) _ _ u t h).trans (shapeCast_a_11a_apply x5 _ 0 0 h)
  rw [e1, e2, e3]

/-- The hidden activation as a `[1024, 1024]` matrix, row `128·u + t`, in the product's operand format. -/
def hiddenMat : FVec Ideal S1024x1024 .bf16 :=
  truncf .bf16 (shapeCast S1024x1024 (hiddenAct x1 x3 s x5) shapeCasts_S8x128x1024_S1024x1024) bitsLt_bf16_f32

/-- Row `r = 128·u + t` of the matrix is the pair `(u, t)`. -/
theorem hiddenMat_apply (u : Fin 8) (t : Fin 128) (r : Fin 1024) (hr : r.val = u.val * 128 + t.val) (h : Fin 1024) :
    hiddenMat x1 x3 s x5 (ix2 r h) = hiddenAct x1 x3 s x5 (ix3 u t h) := by
  unfold hiddenMat
  exact shapeCast_abc_mc_apply (hiddenAct x1 x3 s x5) _ u t h r hr

/-- The second layer's product: `[1024, 1024] × [1024, 128]`. -/
def scoreMat : FVec Ideal S1024x128 .f32 :=
  matmul dot_S1024x1024_S1024x128_S1024x128_1_0_0_1_n_n none
    (hiddenMat x1 x3 s x5)
    (transpose S1024x128 [1, 0] (shapeCast S128x1024 x6 shapeCasts_S128x1024_S128x1024) transposes_S128x1024_p1_0_S1024x128)
    (constant S1024x128 .f32 0x00000000#32)

/-- At `(r, k)`: Σ_h hidden[r,h] · x6[k,h]. -/
theorem scoreMat_apply (r : Fin 1024) (k : Fin 128) :
    scoreMat x1 x3 s x5 x6 (ix2 r k) = ∑ h : Fin 1024, hiddenMat x1 x3 s x5 (ix2 r h) * x6 (ix2 k h) := by
  unfold scoreMat
  refine (mmB_apply _ _ r k).trans (Finset.sum_congr rfl fun h _ => ?_)
  refine congrArg _ ?_
  refine (transpose_ix2_apply _ _ h k).trans ?_
  exact congrFun (shapeCast_self x6 _) _

/-- The class scores: the product viewed `[8, 128, 128]`, plus the bias. -/
def scores : FVec Ideal S8x128x128 .f32 :=
  addf (shapeCast S8x128x128 (scoreMat x1 x3 s x5 x6) shapeCasts_S1024x128_S8x128x128)
    (broadcastTo S8x128x128 (shapeCast S1x1x128 x7 shapeCasts_S128_S1x1x128) broadcasts_S1x1x128_S8x128x128)

/-- (ii) At `(u, t, k)` the class scores are the block's joint score. -/
theorem scores_apply (u : Fin 8) (t : Fin 128) (k : Fin 128) :
    scores x1 x3 s x5 x6 x7 (ix3 u t k) = Cert.JointNet.blockJoint x1 x3 s x5 x6 x7 u t k := by
  unfold scores Cert.JointNet.blockJoint
  show shapeCast S8x128x128 (scoreMat x1 x3 s x5 x6) shapeCasts_S1024x128_S8x128x128 (ix3 u t k)
      + broadcastTo S8x128x128 (shapeCast S1x1x128 x7 shapeCasts_S128_S1x1x128) broadcasts_S1x1x128_S8x128x128 (ix3 u t k) = _
  have hr : (⟨u.val * 128 + t.val, by omega⟩ : Fin 1024).val = u.val * 128 + t.val := rfl
  have e1 : shapeCast S8x128x128 (scoreMat x1 x3 s x5 x6) shapeCasts_S1024x128_S8x128x128 (ix3 u t k)
      = ∑ h : Fin 1024, Ideal.tanh (((∑ d : Fin 512, x1 (ix3 0 u d) * x3 (ix2 h d)) + s (ix2 t h)) + x5 (ix1 h)) * x6 (ix2 k h) :=
    (shapeCast_mc_abc_apply (scoreMat x1 x3 s x5 x6) _ u t k ⟨u.val * 128 + t.val, by omega⟩ hr).trans
      ((scoreMat_apply x1 x3 s x5 x6 _ k).trans (Finset.sum_congr rfl fun h _ =>
        congrArg (· * x6 (ix2 k h)) ((hiddenMat_apply x1 x3 s x5 u t _ hr h).trans (hidden_apply x1 x3 s x5 u t h))))
  have e2 : broadcastTo S8x128x128 (shapeCast S1x1x128 x7 shapeCasts_S128_S1x1x128) broadcasts_S1x1x128_S8x128x128 (ix3 u t k)
      = x7 (ix1 k) :=
    (broadcastTo_11c_abc_apply (by decide) _ _ u t k).trans (shapeCast_a_11a_apply x7 _ 0 0 k)
  rw [e1, e2]

/-- The row maxima of the class scores. -/
def rowMaxima : FVec Ideal S8x128 .f32 :=
  multiReduction .maximumf [2] S8x128 (scores x1 x3 s x5 x6 x7) 0xFF800000#32 reduces_S8x128x128_S8x128 (.inl rfl) rfl

/-- At `(u, t)`: the maximum of the row of joint scores. -/
theorem rowMaxima_apply (u : Fin 8) (t : Fin 128) :
    rowMaxima x1 x3 s x5 x6 x7 (ix2 u t)
      = Cert.JointNet.rowMax (fun k' => Cert.JointNet.blockJoint x1 x3 s x5 x6 x7 u t k') := by
  unfold rowMaxima
  refine (rowMax_read (scores x1 x3 s x5 x6 x7) _ _ _ u t).trans ?_
  exact congrArg Cert.JointNet.rowMax (funext fun k' => scores_apply x1 x3 s x5 x6 x7 u t k')

/-- The payload is the class scores minus their row maxima, broadcast back along the class axis. -/
theorem pay5_eq_stages :
    k0_pay5 (F := Ideal) x1 x3 s x5 x6 x7
      = subf (scores x1 x3 s x5 x6 x7)
          (broadcastTo S8x128x128 (shapeCast S8x128x1 (rowMaxima x1 x3 s x5 x6 x7) shapeCasts_S8x128_S8x128x1)
            broadcasts_S8x128x1_S8x128x128) := rfl

end Stages

/-- (iii) The payload at `(u, t, k)`: the joint score minus its row's maximum. -/
theorem pay5_apply (x1 : Vec Ideal S1x8x512 .bf16) (x3 : Vec Ideal S1024x512 .bf16) (s : Vec Ideal S128x1024 .f32)
    (x5 : Vec Ideal S1024 .f32) (x6 : Vec Ideal S128x1024 .bf16) (x7 : Vec Ideal S128 .f32) (u : Fin 8) (t k : Fin 128) :
    k0_pay5 (F := Ideal) x1 x3 s x5 x6 x7 (ix3 u t k)
      = Cert.JointNet.blockJoint x1 x3 s x5 x6 x7 u t k
        - Cert.JointNet.rowMax (fun k' => Cert.JointNet.blockJoint x1 x3 s x5 x6 x7 u t k') := by
  rw [pay5_eq_stages]
  show scores x1 x3 s x5 x6 x7 (ix3 u t k)
      - broadcastTo S8x128x128 (shapeCast S8x128x1 (rowMaxima x1 x3 s x5 x6 x7) shapeCasts_S8x128_S8x128x1)
          broadcasts_S8x128x1_S8x128x128 (ix3 u t k) = _
  have e : broadcastTo S8x128x128 (shapeCast S8x128x1 (rowMaxima x1 x3 s x5 x6 x7) shapeCasts_S8x128_S8x128x1)
      broadcasts_S8x128x1_S8x128x128 (ix3 u t k)
      = Cert.JointNet.rowMax (fun k' => Cert.JointNet.blockJoint x1 x3 s x5 x6 x7 u t k') :=
    (broadcastTo_ab1_abc_apply (by decide) (by decide) _ _ u t k).trans
      ((shapeCast_ab_ab1_apply (rowMaxima x1 x3 s x5 x6 x7) _ u t 0).trans (rowMaxima_apply x1 x3 s x5 x6 x7 u t))
  rw [scores_apply, e]

end Cert.KernelIdeal.PayJoint

end
-- ==== Proof.BlockValues.lean ====
/-
  The two values the kernel stores at a grid step, entry by entry, as entries of the two results the network defines,
  on the extended reals. The segmentation block stored at the first step of a run of six steps is the masked pointwise
  convolution of that run's image tile; the joint block stored at every step is the log-softmax over the classes of
  the class scores of the step's label rows against the run's image rows, where the image half of the first layer was
  left in a scratch array by the run's first step. Each block's entries are first traced to the argument arrays; the
  stored values then unfold to the network's formulas at the step's batch, label position and image position.
-/
import proofs.«164176_j85237920956984_1_alg».proof.Proof.BlockReads
import proofs.«164176_j85237920956984_1_alg».proof.Proof.PaySeg
import proofs.«164176_j85237920956984_1_alg».proof.Proof.PayJoint
import proofs.«164176_j85237920956984_1_alg».proof.Proof.GridCoords
import proofs.«164176_j85237920956984_1_alg».proof.Proof.Spec

noncomputable section

namespace Cert.KernelIdeal.BlockValues

open Cert.KernelIdeal Cert.KernelIdeal.Gen Cert.KernelIdeal.Grid Cert.KernelIdeal.BlockReads Cert.JointNet
open Idealize.ShloMosaic Idealize.ShloMosaic.ValueIdx
open Idealize.SL.Sem

variable (m : (ℓ : Loc nD τ sig) → Buf (Elt Ideal) ℓ) (c : Dev nD)

set_option quotPrecheck false

local notation "arg0" => (m ((c.tc : Thread nD τ).loc main_arg0) : S2x512x512.Idx → EReal)
local notation "arg1" => (m ((c.tc : Thread nD τ).loc main_arg1) : S2x48x512.Idx → EReal)
local notation "arg2" => (m ((c.tc : Thread nD τ).loc main_arg2) : S2x1x512.Idx → EReal)
local notation "arg3" => (m ((c.tc : Thread nD τ).loc main_arg3) : S1024x1024.Idx → EReal)
local notation "arg4" => (m ((c.tc : Thread nD τ).loc main_arg4) : S1024.Idx → EReal)
local notation "arg5" => (m ((c.tc : Thread nD τ).loc main_arg5) : S128x1024.Idx → EReal)
local notation "arg6" => (m ((c.tc : Thread nD τ).loc main_arg6) : S128.Idx → EReal)
local notation "arg7" => (m ((c.tc : Thread nD τ).loc main_arg7) : S128x512.Idx → EReal)
local notation "arg8" => (m ((c.tc : Thread nD τ).loc main_arg8) : S128.Idx → EReal)

/-! ## Each block's entries as entries of the argument arrays

Below `a` is the first step of `t`'s run of six: it has `t`'s batch and image tile. -/

/-- The image block fetched at the run's first step: entry `(0, r, d)` is the image's `(b, 128·ti + r, d)`. -/
theorem img_entry (a t : Fin cfg0.N) (ha : a.val = t.val - t.val % 6) (r : Fin 128) (d : Fin 512) :
    iblk m c 0 a (ix3 0 r d) = arg0 (ix3 (bOf t) (rowT t r) d) := by
  refine (iblk0_apply m c a r d).trans ?_
  rw [bOf_anchor t a ha, rowT_anchor t a ha]
  exact congrFun (V_v6 m c) _

/-- The mask block fetched at the run's first step: entry `(0, 0, r)` is the mask's `(b, 0, 128·ti + r)`. -/
theorem msk_entry (a t : Fin cfg0.N) (ha : a.val = t.val - t.val % 6) (r : Fin 128) :
    iblk m c 2 a (ix3 0 0 r) = arg2 (ix3 (bOf t) 0 (rowT t r)) := by
  refine (iblk2_apply m c a r).trans ?_
  rw [bOf_anchor t a ha, rowT_anchor t a ha]
  exact congrFun (V_main_arg2 m c) _

/-- The label block of step `t`: entry `(0, u, d)` is the label sequence's `(b, 8·u₀ + u, d)`. -/
theorem lab_entry (t : Fin cfg0.N) (u : Fin 8) (d : Fin 512) :
    iblk m c 1 t (ix3 0 u d) = arg1 (ix3 (bOf t) (rowU t u) d) :=
  (iblk1_apply m c t u d).trans (congrFun (V_v7 m c) _)

/-- The first layer's left half at any step: entry `(h, d)` is the matrix's `(h, d)`. -/
theorem w1lo_entry (s : Fin cfg0.N) (h : Fin 1024) (d : Fin 512) :
    iblk m c 3 s (ix2 h d) = arg3 (ix2 h (lo d)) :=
  (congrFun (iblk3_eq m c s) _).trans (V_v1_apply m c h d)

/-- The first layer's right half at any step: entry `(h, d)` is the matrix's `(h, 512 + d)`. -/
theorem w1hi_entry (s : Fin cfg0.N) (h : Fin 1024) (d : Fin 512) :
    iblk m c 4 s (ix2 h d) = arg3 (ix2 h (hi d)) :=
  (congrFun (iblk4_eq m c s) _).trans (V_v3_apply m c h d)

/-- The first layer's bias at any step. -/
theorem b1_entry (s : Fin cfg0.N) (h : Fin 1024) : iblk m c 5 s (ix1 h) = arg4 (ix1 h) :=
  (congrFun (iblk5_eq m c s) _).trans (congrFun (V_main_arg4 m c) _)

/-- The second layer's matrix at any step. -/
theorem w2_entry (s : Fin cfg0.N) (k : Fin 128) (h : Fin 1024) : iblk m c 6 s (ix2 k h) = arg5 (ix2 k h) :=
  (congrFun (iblk6_eq m c s) _).trans (congrFun (V_v4 m c) _)

/-- The second layer's bias at any step. -/
theorem b2_entry (s : Fin cfg0.N) (k : Fin 128) : iblk m c 7 s (ix1 k) = arg6 (ix1 k) :=
  (congrFun (iblk7_eq m c s) _).trans (congrFun (V_main_arg6 m c) _)

/-- The convolution's weights at any step. -/
theorem cw_entry (s : Fin cfg0.N) (k : Fin 128) (d : Fin 512) : iblk m c 8 s (ix2 k d) = arg7 (ix2 k d) :=
  (congrFun (iblk8_eq m c s) _).trans (congrFun (V_v5 m c) _)

/-- The convolution's bias at any step. -/
theorem cb_entry (s : Fin cfg0.N) (k : Fin 128) : iblk m c 9 s (ix1 k) = arg8 (ix1 k) :=
  (congrFun (iblk9_eq m c s) _).trans (congrFun (V_main_arg8 m c) _)

/-! ## The segmentation block -/

/-- Entry `(0, k, r)` of what the run's first step stores for the segmentation score is the score's entry
    `(b, k, 128·ti + r)`: the masked convolution of the image row, from the argument arrays. -/
theorem segBlock_apply (a t : Fin cfg0.N) (ha : a.val = t.val - t.val % 6) (k r : Fin 128) :
    k0_pay4 (F := Ideal) (iblk m c 0 a) (iblk m c 8 a) (iblk m c 9 a) (iblk m c 2 a) (ix3 0 k r)
      = Cert.JointNet.segArr arg0 arg2 arg7 arg8 (ix3 (bOf t) k (rowT t r)) := by
  refine (PaySeg.pay4_apply _ _ _ _ k r).trans ?_
  rw [Finset.sum_congr rfl (fun d _ => by rw [cw_entry m c a k d, img_entry m c a t ha r d]),
    cb_entry m c a k, msk_entry m c a t ha r]
  rfl

/-! ## The joint block -/

/-- The image projection the run's first step leaves in the scratch: entry `(r, h)` is
    `Σ_d img[b, 128·ti + r, d] · W1[h, 512 + d]`. -/
theorem proj_entry (a t : Fin cfg0.N) (ha : a.val = t.val - t.val % 6) (r : Fin 128) (h : Fin 1024) :
    k0_pay3 (F := Ideal) (iblk m c 0 a) (iblk m c 4 a) (ix2 r h)
      = Cert.JointNet.imgProj (fun b t d => arg0 (ix3 b t d)) (fun h e => arg3 (ix2 h e)) (bOf t) (rowT t r) h := by
  refine (PaySeg.pay3_apply _ _ r h).trans ?_
  unfold Cert.JointNet.imgProj
  exact Finset.sum_congr rfl fun d _ => congrArg₂ (· * ·) (img_entry m c a t ha r d) (w1hi_entry m c a h d)

/-- The class scores of step `t`'s blocks, with the scratch as the run's first step left it, are the network's class
    scores at batch `b`, label position `8·u₀ + u` and image position `128·ti + r`. -/
theorem blockJoint_eq (a t : Fin cfg0.N) (ha : a.val = t.val - t.val % 6) (u : Fin 8) (r k : Fin 128) :
    Cert.JointNet.blockJoint (iblk m c 1 t) (iblk m c 3 t) (k0_pay3 (F := Ideal) (iblk m c 0 a) (iblk m c 4 a)) (iblk m c 5 t) (iblk m c 6 t) (iblk m c 7 t) u r k
      = Cert.JointNet.jointAt (fun b t d => arg0 (ix3 b t d)) (fun b u d => arg1 (ix3 b u d)) (fun h e => arg3 (ix2 h e))
        (fun h => arg4 (ix1 h)) (fun k h => arg5 (ix2 k h)) (fun k => arg6 (ix1 k)) (bOf t) (rowU t u) (rowT t r) k := by
  unfold Cert.JointNet.blockJoint Cert.JointNet.jointAt
  refine congrArg₂ (· + ·) (Finset.sum_congr rfl fun h _ => ?_) (b2_entry m c t k)
  refine congrArg₂ (· * ·) ?_ (w2_entry m c t k h)
  unfold Cert.JointNet.hidden
  refine congrArg Ideal.tanh ?_
  refine congrArg₂ (· + ·) (congrArg₂ (· + ·) ?_ (proj_entry m c a t ha r h)) (b1_entry m c t h)
  unfold Cert.JointNet.labProj
  exact Finset.sum_congr rfl fun d _ => congrArg₂ (· * ·) (lab_entry m c t u d) (w1lo_entry m c t h d)

/-- Entry `(0, u, r, k)` of what step `t` stores for the joint score is the score's entry
    `(b, 8·u₀ + u, 128·ti + r, k)`: the log-softmax over the classes of the network's class scores. -/
theorem jointBlock_apply (a t : Fin cfg0.N) (ha : a.val = t.val - t.val % 6) (u : Fin 8) (r k : Fin 128) :
    k0_pay1 (F := Ideal) (k0_pay5 (iblk m c 1 t) (iblk m c 3 t) (k0_pay3 (F := Ideal) (iblk m c 0 a) (iblk m c 4 a)) (iblk m c 5 t) (iblk m c 6 t) (iblk m c 7 t))
        (k0_pay6 (iblk m c 1 t) (iblk m c 3 t) (k0_pay3 (F := Ideal) (iblk m c 0 a) (iblk m c 4 a)) (iblk m c 5 t) (iblk m c 6 t) (iblk m c 7 t)) (ix4 0 u r k)
      = Cert.JointNet.outArr arg0 arg1 arg3 arg4 arg5 arg6 (ix4 (bOf t) (rowU t u) (rowT t r) k) := by
  refine (PaySeg.pay1_apply _ _ _ _ _ _ u r k).trans ?_
  have eJ : (fun k' : Fin 128 => Cert.JointNet.blockJoint (iblk m c 1 t) (iblk m c 3 t) (k0_pay3 (F := Ideal) (iblk m c 0 a) (iblk m c 4 a)) (iblk m c 5 t) (iblk m c 6 t) (iblk m c 7 t) u r k')
      = fun k' : Fin 128 => Cert.JointNet.jointAt (fun b t d => arg0 (ix3 b t d)) (fun b u d => arg1 (ix3 b u d)) (fun h e => arg3 (ix2 h e))
        (fun h => arg4 (ix1 h)) (fun k h => arg5 (ix2 k h)) (fun k => arg6 (ix1 k)) (bOf t) (rowU t u) (rowT t r) k' :=
    funext (blockJoint_eq m c a t ha u r)
  have e5 : ∀ k' : Fin 128, k0_pay5 (F := Ideal) (iblk m c 1 t) (iblk m c 3 t) (k0_pay3 (F := Ideal) (iblk m c 0 a) (iblk m c 4 a)) (iblk m c 5 t) (iblk m c 6 t) (iblk m c 7 t) (ix3 u r k')
      = Cert.JointNet.jointAt (fun b t d => arg0 (ix3 b t d)) (fun b u d => arg1 (ix3 b u d)) (fun h e => arg3 (ix2 h e))
        (fun h => arg4 (ix1 h)) (fun k h => arg5 (ix2 k h)) (fun k => arg6 (ix1 k)) (bOf t) (rowU t u) (rowT t r) k'
        - Cert.JointNet.rowMax (fun k'' : Fin 128 => Cert.JointNet.jointAt (fun b t d => arg0 (ix3 b t d)) (fun b u d => arg1 (ix3 b u d)) (fun h e => arg3 (ix2 h e))
        (fun h => arg4 (ix1 h)) (fun k h => arg5 (ix2 k h)) (fun k => arg6 (ix1 k)) (bOf t) (rowU t u) (rowT t r) k'') := fun k' => by
    rw [PayJoint.pay5_apply, eJ, blockJoint_eq m c a t ha u r k']
  have eS : (∑ k' : Fin 128, Ideal.exp (k0_pay5 (F := Ideal) (iblk m c 1 t) (iblk m c 3 t) (k0_pay3 (F := Ideal) (iblk m c 0 a) (iblk m c 4 a)) (iblk m c 5 t) (iblk m c 6 t) (iblk m c 7 t) (ix3 u r k')))
      = ∑ k' : Fin 128, Ideal.exp (Cert.JointNet.jointAt (fun b t d => arg0 (ix3 b t d)) (fun b u d => arg1 (ix3 b u d)) (fun h e => arg3 (ix2 h e))
        (fun h => arg4 (ix1 h)) (fun k h => arg5 (ix2 k h)) (fun k => arg6 (ix1 k)) (bOf t) (rowU t u) (rowT t r) k'
        - Cert.JointNet.rowMax (fun k'' : Fin 128 => Cert.JointNet.jointAt (fun b t d => arg0 (ix3 b t d)) (fun b u d => arg1 (ix3 b u d)) (fun h e => arg3 (ix2 h e))
        (fun h => arg4 (ix1 h)) (fun k h => arg5 (ix2 k h)) (fun k => arg6 (ix1 k)) (bOf t) (rowU t u) (rowT t r) k'')) :=
    Finset.sum_congr rfl fun k' _ => by rw [e5 k']
  rw [eS, e5 k]
  rfl

end Cert.KernelIdeal.BlockValues

end
-- ==== Proof.KernelValue.lean ====
/-
  What the idealized kernel's two output arrays hold after the run, as functions of the arguments.

  The first output's staging buffer is written back once per run of six steps, after the run's last step, and holds the
  masked convolution of the run's image block: entry (0, k, r) of that block is the segmentation score at
  (b, k, 128·ti + r). The second output's buffer is written back after every step and holds the step's class scores:
  entry (0, u, r, k) is the joint score at (b, 8·u₀ + u, 128·ti + r, k). The written-back blocks tile both arrays, so
  each array ends as its whole-array function of the arguments.
-/
import proofs.«164176_j85237920956984_1_alg».proof.Proof.FrameKI
import proofs.«164176_j85237920956984_1_alg».proof.Proof.OutBlocks
import proofs.«164176_j85237920956984_1_alg».proof.Proof.BlockValues

set_option maxRecDepth 16384

noncomputable section

namespace Cert.KernelIdeal.KValue

open Cert.KernelIdeal Cert.KernelIdeal.Gen Cert.KernelIdeal.Body Cert.KernelIdeal.Grid Cert.KernelIdeal.OutBlocks
open Cert.KernelIdeal.BlockValues Cert.JointNet
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The segmentation score of the launch contents. -/
abbrev segG (c : Dev nD) : S2x128x512.Idx → EReal :=
  segArr (m ((c.tc : Thread nD τ).loc main_arg0)) (m ((c.tc : Thread nD τ).loc main_arg2)) (m ((c.tc : Thread nD τ).loc main_arg7)) (m ((c.tc : Thread nD τ).loc main_arg8))
/-- The joint score of the launch contents. -/
abbrev outG (c : Dev nD) : S2x48x512x128.Idx → EReal :=
  outArr (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))

/-- What a run's last step writes back to the first output is the block of the segmentation score. -/
theorem flushed10_eq (c : Dev nD) (t : Fin cfg0.N) :
    (dats m 0 c).flushed 10 t = ((cfg0.win 10).blk t).view.read (Elt Ideal) (segG m c) := by
  show (cfg0.win 10).cut (grid0.coords t) ((dats m 0 c).after 10 t) = _
  rw [after0_10]
  funext y
  obtain ⟨z, k, r, rfl⟩ : ∃ (z : Fin 1) (k r : Fin 128), y = ix3 z k r := ⟨y 0, y 1, y 2, eq_ix3 y⟩
  obtain rfl : z = 0 := Subsingleton.elim _ _
  show segBlk m c t (ix3 0 k r) = segG m c (((cfg0.win 10).blk t).view.emb (ix3 0 k r))
  rw [emb10]
  unfold segBlk
  exact segBlock_apply m c (anchor t) t rfl k r

/-- What every step writes back to the second output is the block of the joint score. -/
theorem flushed11_eq (c : Dev nD) (t : Fin cfg0.N) :
    (dats m 0 c).flushed 11 t = ((cfg0.win 11).blk t).view.read (Elt Ideal) (outG m c) := by
  show (cfg0.win 11).cut (grid0.coords t) ((dats m 0 c).after 11 t) = _
  rw [after0_11]
  funext y
  obtain ⟨z, u, r, k, rfl⟩ : ∃ (z : Fin 1) (u : Fin 8) (r k : Fin 128), y = ix4 z u r k := ⟨y 0, y 1, y 2, y 3, eq_ix4 y⟩
  obtain rfl : z = 0 := Subsingleton.elim _ _
  show jointBlk m c t (ix4 0 u r k) = outG m c (((cfg0.win 11).blk t).view.emb (ix4 0 u r k))
  rw [emb11]
  unfold jointBlk scrAt
  exact jointBlock_apply m c (anchor t) t rfl u r k

/-- The first output array after the run. -/
theorem final10 (c : Dev nD) : (dats m 0 c).arrAt 10 cfg0.N = segG m c :=
  (dats m 0 c).arrAt_eq_of_cover 10 (segG m c) (fun t _ => flushed10_eq m c t) cover10

/-- The second output array after the run. -/
theorem final11 (c : Dev nD) : (dats m 0 c).arrAt 11 cfg0.N = outG m c :=
  (dats m 0 c).arrAt_eq_of_cover 11 (outG m c) (fun t _ => flushed11_eq m c t) cover11

/-- The kernel's run with both results named: the segmentation and joint scores of the launch contents, the
    arguments unchanged. -/
theorem run_spec : θ_run defs (onTc (τ := τ) (main (F := Ideal))) ⟨m, fun _ => 0, ρ⟩ fun r => ∀ c : Dev nD,
      r.2.mem ((c.tc : Thread nD τ).loc main_v8_0) = segG m c
      ∧ r.2.mem ((c.tc : Thread nD τ).loc main_v8_1) = outG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨((h c).1 10).trans (final10 m c), ((h c).1 11).trans (final11 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 5).trans (((dats m 0 c).arrAt_in 5 rfl _).trans ((A_eq m c 5).trans (V_main_arg4 m c))),
      ((h c).2 main_arg5 (Pipeline.mem_restRefs_of main_arg5 (by decide) (by decide))).trans (V_main_arg5 m c),
      ((h c).1 7).trans (((dats m 0 c).arrAt_in 7 rfl _).trans ((A_eq m c 7).trans (V_main_arg6 m c))),
      ((h c).2 main_arg7 (Pipeline.mem_restRefs_of main_arg7 (by decide) (by decide))).trans (V_main_arg7 m c),
      ((h c).1 9).trans (((dats m 0 c).arrAt_in 9 rfl _).trans ((A_eq m c 9).trans (V_main_arg8 m c)))⟩)
    (run_main m ρ)

end Cert.KernelIdeal.KValue

end
-- ==== Proof.RefSeg.lean ====
/-
  The reference program's first result as a function of its arguments.

  The reference computes the segmentation score in four steps: the product of the pointwise convolution's matrix
  w[k,d] with the image features x[b,t,d] over the feature axis d, laid out [128, 2, 512]; the swap of its first two
  axes; the bias c[k] added along the class axis; and the mask m[b,0,t] multiplied in along the position axis. Read at
  (b, k, t) that is (Σ_d w[k,d]·x[b,t,d] + c[k]) · m[b,0,t], the specification's masked convolution.
-/
import proofs.«164176_j85237920956984_1_alg».proof.ReferenceIdeal
import proofs.«164176_j85237920956984_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefSeg

open Cert.ReferenceIdeal Cert.JointNet Idealize.ShloMosaic Idealize.ShloMosaic.ValueIdx
open Cert.ReferenceIdeal.Facts₀

variable [Facts₀]

/-! ## The pointwise convolution's product read at coordinates -/

theorem convDot_lhs0 (i : S128x2x512.Idx) (q : dot_S128x512_S2x512x512_S128x2x512_1_2_0_01_n_n.contr.Idx) :
    (dot_S128x512_S2x512x512_S128x2x512_1_2_0_01_n_n.lhsIdx i q 0).val = (i 0).val := by
  unfold DotDims.lhsIdx
  rw [dif_neg (show ¬(0 : Fin S128x512.rank) ∈ dot_S128x512_S2x512x512_S128x2x512_1_2_0_01_n_n.lhsBatch from List.not_mem_nil), dif_pos (show (0 : Fin S128x512.rank) ∈ dot_S128x512_S2x512x512_S128x2x512_1_2_0_01_n_n.lhsNonContracting by show (0 : Fin 2) ∈ [0]; decide)]
  rfl
theorem convDot_lhs1 (i : S128x2x512.Idx) (q : dot_S128x512_S2x512x512_S128x2x512_1_2_0_01_n_n.contr.Idx) :
    (dot_S128x512_S2x512x512_S128x2x512_1_2_0_01_n_n.lhsIdx i q 1).val = (q ⟨0, by show (0 : ℕ) < 1; exact Nat.one_pos⟩).val :=
  dot_S128x512_S2x512x512_S128x2x512_1_2_0_01_n_n.lhsIdx_val_of_single rfl i q
theorem convDot_rhs0 (i : S128x2x512.Idx) (q : dot_S128x512_S2x512x512_S128x2x512_1_2_0_01_n_n.contr.Idx) :
    (dot_S128x512_S2x512x512_S128x2x512_1_2_0_01_n_n.rhsIdx i q 0).val = (i 1).val := by
  unfold DotDims.rhsIdx
  rw [dif_neg (show ¬(0 : Fin S2x512x512.rank) ∈ dot_S128x512_S2x512x512_S128x2x512_1_2_0_01_n_n.rhsBatch from List.not_mem_nil), dif_pos (show (0 : Fin S2x512x512.rank) ∈ dot_S128x512_S2x512x512_S128x2x512_1_2_0_01_n_n.rhsNonContracting by show (0 : Fin 3) ∈ [0, 1]; decide)]
  rfl
theorem convDot_rhs1 (i : S128x2x512.Idx) (q : dot_S128x512_S2x512x512_S128x2x512_1_2_0_01_n_n.contr.Idx) :
    (dot_S128x512_S2x512x512_S128x2x512_1_2_0_01_n_n.rhsIdx i q 1).val = (i 2).val := by
  unfold DotDims.rhsIdx
  rw [dif_neg (show ¬(1 : Fin S2x512x512.rank) ∈ dot_S128x512_S2x512x512_S128x2x512_1_2_0_01_n_n.rhsBatch from List.not_mem_nil), dif_pos (show (1 : Fin S2x512x512.rank) ∈ dot_S128x512_S2x512x512_S128x2x512_1_2_0_01_n_n.rhsNonContracting by show (1 : Fin 3) ∈ [0, 1]; decide)]
  rfl
theorem convDot_rhs2 (i : S128x2x512.Idx) (q : dot_S128x512_S2x512x512_S128x2x512_1_2_0_01_n_n.contr.Idx) :
    (dot_S128x512_S2x512x512_S128x2x512_1_2_0_01_n_n.rhsIdx i q 2).val = (q ⟨0, by show (0 : ℕ) < 1; exact Nat.one_pos⟩).val :=
  dot_S128x512_S2x512x512_S128x2x512_1_2_0_01_n_n.rhsIdx_val_of_single rfl i q

/-- The product of the convolution's matrix with the image features, contracted over the feature axis, is at
    `(k, b, t)` the sum Σ_d w[k,d] · x[b,t,d]. -/
theorem convDot_apply (w : FVec Ideal S128x512 .f32) (x : FVec Ideal S2x512x512 .f32) (k : Fin 128) (b : Fin 2) (t : Fin 512) :
    Host.dotGeneral (F := Ideal) dot_S128x512_S2x512x512_S128x2x512_1_2_0_01_n_n none w x (ix3 k b t)
      = ∑ d : Fin 512, w (ix2 k d) * x (ix3 b t d) := by
  simp only [Host.dotGeneral]
  rw [Ideal.dotGeneral_apply, ← Equiv.sum_comp (contrEquiv1 dot_S128x512_S2x512x512_S128x2x512_1_2_0_01_n_n 512 rfl rfl).symm]
  refine Finset.sum_congr rfl fun d _ => ?_
  have hd := contrEquiv1_symm_val dot_S128x512_S2x512x512_S128x2x512_1_2_0_01_n_n 512 rfl rfl d
  have el : dot_S128x512_S2x512x512_S128x2x512_1_2_0_01_n_n.lhsIdx (ix3 k b t) ((contrEquiv1 dot_S128x512_S2x512x512_S128x2x512_1_2_0_01_n_n 512 rfl rfl).symm d) = ix2 k d :=
    funext fun a => Fin.ext (by
      match a with
      | ⟨0, _⟩ => exact convDot_lhs0 _ _
      | ⟨1, _⟩ => exact (convDot_lhs1 _ _).trans hd)
  have er : dot_S128x512_S2x512x512_S128x2x512_1_2_0_01_n_n.rhsIdx (ix3 k b t) ((contrEquiv1 dot_S128x512_S2x512x512_S128x2x512_1_2_0_01_n_n 512 rfl rfl).symm d) = ix3 b t d :=
    funext fun a => Fin.ext (by
      match a with
      | ⟨0, _⟩ => exact convDot_rhs0 _ _
      | ⟨1, _⟩ => exact convDot_rhs1 _ _
      | ⟨2, _⟩ => exact (convDot_rhs2 _ _).trans hd)
  rw [el, er]

/-! ## The first result -/

/-- The reference's first result is the masked pointwise convolution: at `(b, k, t)`,
    (Σ_d w[k,d] · x[b,t,d] + c[k]) · m[b,0,t]. The product is computed as `[128, 2, 512]` and its first two axes swapped;
    the bias is placed on the class axis of a `[1, 128, 1]` array and the mask's unit axis is the class axis, both
    broadcast over `[2, 128, 512]`. -/
theorem seg_eq (a0 : FVec Ideal S2x512x512 .f32) (a2 : FVec Ideal S2x1x512 .f32) (a7 : FVec Ideal S128x512 .f32) (a8 : FVec Ideal S128 .f32) :
    mulf (addf (transpose S2x128x512 [1, 0, 2] (Host.dotGeneral dot_S128x512_S2x512x512_S128x2x512_1_2_0_01_n_n none a7 a0) transposes_S128x2x512_S2x128x512_1_0_2) (broadcastInDim S2x128x512 ![0, 1, 2] bcast_S1x128x1_S2x128x512_0_1_2 (broadcastInDim S1x128x1 ![1] bcast_S128_S1x128x1_1 a8))) (broadcastInDim S2x128x512 ![0, 1, 2] bcast_S2x1x512_S2x128x512_0_1_2 a2)
      = Cert.JointNet.segArr a0 a2 a7 a8 := by
  funext j
  obtain ⟨b, k, t, rfl⟩ : ∃ (b : Fin 2) (k : Fin 128) (t : Fin 512), j = ix3 b k t := ⟨j 0, j 1, j 2, eq_ix3 j⟩
  have e1 : transpose S2x128x512 [1, 0, 2] (Host.dotGeneral dot_S128x512_S2x512x512_S128x2x512_1_2_0_01_n_n none a7 a0) transposes_S128x2x512_S2x128x512_1_0_2 (ix3 b k t)
      = ∑ d : Fin 512, a7 (ix2 k d) * a0 (ix3 b t d) :=
    (transpose_apply [1, 0, 2] _ transposes_S128x2x512_S2x128x512_1_0_2 (ix3 b k t) (ix3 k b t) (fun c => match c with
      | ⟨0, _⟩ => rfl
      | ⟨1, _⟩ => rfl
      | ⟨2, _⟩ => rfl)).trans (convDot_apply a7 a0 k b t)
  have e2 : broadcastInDim S2x128x512 ![0, 1, 2] bcast_S1x128x1_S2x128x512_0_1_2 (broadcastInDim S1x128x1 ![1] bcast_S128_S1x128x1_1 a8) (ix3 b k t)
      = a8 (ix1 k) :=
    (broadcastInDim_apply _ bcast_S1x128x1_S2x128x512_0_1_2 _ (ix3 b k t) (ix3 (0 : Fin 1) k (0 : Fin 1)) (fun a => match a with
      | ⟨0, _⟩ => by show 0 = if (1 : Nat) = 1 then 0 else b.val; rw [if_pos rfl]
      | ⟨1, _⟩ => by show k.val = if (128 : Nat) = 1 then 0 else k.val; rw [if_neg (by decide)]
      | ⟨2, _⟩ => by show 0 = if (1 : Nat) = 1 then 0 else t.val; rw [if_pos rfl])).trans
    (broadcastInDim_apply _ bcast_S128_S1x128x1_1 a8 (ix3 (0 : Fin 1) k (0 : Fin 1)) (ix1 k) (fun a => match a with
      | ⟨0, _⟩ => by show k.val = if (128 : Nat) = 1 then 0 else k.val; rw [if_neg (by decide)]))
  have e3 : broadcastInDim S2x128x512 ![0, 1, 2] bcast_S2x1x512_S2x128x512_0_1_2 a2 (ix3 b k t) = a2 (ix3 b (0 : Fin 1) t) :=
    broadcastInDim_apply _ bcast_S2x1x512_S2x128x512_0_1_2 a2 (ix3 b k t) (ix3 b (0 : Fin 1) t) (fun a => match a with
      | ⟨0, _⟩ => by show b.val = if (2 : Nat) = 1 then 0 else b.val; rw [if_neg (by decide)]
      | ⟨1, _⟩ => by show 0 = if (1 : Nat) = 1 then 0 else k.val; rw [if_pos rfl]
      | ⟨2, _⟩ => by show t.val = if (512 : Nat) = 1 then 0 else t.val; rw [if_neg (by decide)])
  show (transpose S2x128x512 [1, 0, 2] (Host.dotGeneral dot_S128x512_S2x512x512_S128x2x512_1_2_0_01_n_n none a7 a0) transposes_S128x2x512_S2x128x512_1_0_2 (ix3 b k t)
      + broadcastInDim S2x128x512 ![0, 1, 2] bcast_S1x128x1_S2x128x512_0_1_2 (broadcastInDim S1x128x1 ![1] bcast_S128_S1x128x1_1 a8) (ix3 b k t))
      * broadcastInDim S2x128x512 ![0, 1, 2] bcast_S2x1x512_S2x128x512_0_1_2 a2 (ix3 b k t)
      = ((∑ d : Fin 512, a7 (ix2 k d) * a0 (ix3 b t d)) + a8 (ix1 k)) * a2 (ix3 b 0 t)
  rw [e1, e2, e3]

end Cert.ReferenceIdeal.RefSeg

end
-- ==== Proof.RefJoint.lean ====
/-
  The reference program's second result as a function of its arguments.

  The reference computes the joint score in two stages. First the class scores z[b,u,t,k]: the label features times the
  first 512 columns of the first layer's matrix and the image features times its last 512 columns, both contracted
  over the feature axis; the two projections broadcast to the pair grid (b, u, t, h) and added, the first bias added
  along h, the hyperbolic tangent; the product with the second layer's matrix contracted over h, and the second bias
  added along the class axis k:
      z[b,u,t,k] = Σ_h tanh((Σ_d lab[b,u,d]·W1[h,d] + Σ_d img[b,t,d]·W1[h,512+d]) + b1[h])·W2[k,h] + b2[k].
  Then the log-softmax of each row k ↦ z[b,u,t,k]: the row's maximum M by a reduction that folds `max` from the float
  word of −∞ (and the maximum of that with −∞ once more, which changes nothing), the subtraction of M, the
  exponential, the row's sum by a reduction from zero, its logarithm, and the subtraction of that:
      (z[k] − M) − log Σ_k' exp(z[k'] − M).
  Read at (b, u, t, k) these are the specification's `jointAt` and `logSoftmaxRow`, so the result is `outArr`.
-/
import proofs.«164176_j85237920956984_1_alg».proof.ReferenceIdeal
import proofs.«164176_j85237920956984_1_alg».proof.Proof.Spec
import Idealize.ShloMosaic.Lib.ValueIdx
import Idealize.ShloMosaic.Lib.IdealHost
import Idealize.ShloMosaic.Lib.Pipeline.Value
import Idealize.ShloMosaic.PureOps.Reduce
import Idealize.ShloMosaic.Lib.ValueLayout
import Idealize.ShloMosaic.PureOps.Ideal.Laws

noncomputable section

namespace Cert.ReferenceIdeal.RefJoint

open Cert.ReferenceIdeal Cert.JointNet Idealize.ShloMosaic Idealize.ShloMosaic.ValueIdx
open Cert.ReferenceIdeal.Facts₀

variable [Facts₀]

/-! ## The index a reduction over the class axis reads -/

/-- The row (b, u, t) with the class coordinate k put back is the index (b, u, t, k). -/
theorem lift_ix3 (h : S2x48x512x128.Reduces [3] S2x48x512) (b : Fin 2) (u : Fin 48) (t : Fin 512)
    (k : Fin (S2x48x512x128.size 3)) : h.lift (ix3 b u t) k = ix4 b u t (⟨k.val, k.isLt⟩ : Fin 128) := by
  funext c; apply Fin.ext
  fin_cases c <;> rfl

/-! ## The two broadcasts back along the class axis -/

/-- A row value broadcast to a unit class axis reads the row value. -/
theorem bcast3_apply (y : FVec Ideal S2x48x512 .f32) (b : Fin 2) (u : Fin 48) (t : Fin 512) :
    (broadcastInDim S2x48x512x1 ![0, 1, 2] bcast_S2x48x512_S2x48x512x1_0_1_2 y) (ix4 b u t (0 : Fin 1)) = y (ix3 b u t) :=
  broadcastInDim_apply ![0, 1, 2] bcast_S2x48x512_S2x48x512x1_0_1_2 y (ix4 b u t (0 : Fin 1)) (ix3 b u t) (fun a => match a with
    | ⟨0, _⟩ => by show b.val = if (2 : Nat) = 1 then 0 else b.val; rw [if_neg (by decide)]
    | ⟨1, _⟩ => by show u.val = if (48 : Nat) = 1 then 0 else u.val; rw [if_neg (by decide)]
    | ⟨2, _⟩ => by show t.val = if (512 : Nat) = 1 then 0 else t.val; rw [if_neg (by decide)])

/-- An array with a unit class axis broadcast to the 128 classes reads its one class everywhere. -/
theorem bcast4_apply (y : FVec Ideal S2x48x512x1 .f32) (b : Fin 2) (u : Fin 48) (t : Fin 512) (k : Fin 128) :
    (broadcastInDim S2x48x512x128 ![0, 1, 2, 3] bcast_S2x48x512x1_S2x48x512x128_0_1_2_3 y) (ix4 b u t k) = y (ix4 b u t (0 : Fin 1)) :=
  broadcastInDim_apply ![0, 1, 2, 3] bcast_S2x48x512x1_S2x48x512x128_0_1_2_3 y (ix4 b u t k) (ix4 b u t (0 : Fin 1)) (fun a => match a with
    | ⟨0, _⟩ => by show b.val = if (2 : Nat) = 1 then 0 else b.val; rw [if_neg (by decide)]
    | ⟨1, _⟩ => by show u.val = if (48 : Nat) = 1 then 0 else u.val; rw [if_neg (by decide)]
    | ⟨2, _⟩ => by show t.val = if (512 : Nat) = 1 then 0 else t.val; rw [if_neg (by decide)]
    | ⟨3, _⟩ => by show (0 : Nat) = if (1 : Nat) = 1 then 0 else k.val; rw [if_pos rfl])

/-! ## The row maximum -/

/-- The reduction with a maximum body over the class axis, from −∞, is at row (b, u, t) the fold of `max` over the
    row from −∞: the specification's row maximum. -/
theorem maxReduce_apply (z : FVec Ideal S2x48x512x128 .f32) (b : Fin 2) (u : Fin 48) (t : Fin 512) :
    (Host.reduce FloatOps.maximumf z (constant S_ .f32 0xFF800000#32) reducesTo_S2x48x512x128_S2x48x512_d3 h_S_) (ix3 b u t) = rowMax (fun k' => z (ix4 b u t k')) := by
  have h : S2x48x512x128.Reduces [3] S2x48x512 := by decide
  rw [Host.reduce_eq_fold_single FloatOps.maximumf z _ reducesTo_S2x48x512x128_S2x48x512_d3 h h_S_]
  have hf : (z ∘ h.lift (ix3 b u t)) = fun k' : Fin 128 => z (ix4 b u t k') :=
    funext fun k => congrArg z (lift_ix3 h b u t k)
  unfold rowMax
  exact congrArg (fun f => Finset.fold max (Ideal.ofBits .f32 0xFF800000#32) f (Finset.univ : Finset (Fin 128))) hf

/-- Taking the maximum with −∞ once more changes nothing: the reference's row maximum at (b, u, t). -/
theorem rowMaxArr_apply (z : FVec Ideal S2x48x512x128 .f32) (b : Fin 2) (u : Fin 48) (t : Fin 512) :
    (maximumf (broadcastInDim S2x48x512 ![] bcast_S_S2x48x512 (constant S_ .f32 0xFF800000#32)) (Host.reduce FloatOps.maximumf z (constant S_ .f32 0xFF800000#32) reducesTo_S2x48x512x128_S2x48x512_d3 h_S_)) (ix3 b u t) = rowMax (fun k' => z (ix4 b u t k')) := by
  rw [maximumf_apply, maxReduce_apply, broadcastInDim_scalar_apply]
  exact max_rowMax _

/-! ## The shifted scores, their exponentials' sum, and the result -/

/-- The scores minus their row's maximum. -/
theorem shifted_apply (z : FVec Ideal S2x48x512x128 .f32) (b : Fin 2) (u : Fin 48) (t : Fin 512) (k : Fin 128) :
    (subf z (broadcastInDim S2x48x512x128 ![0, 1, 2, 3] bcast_S2x48x512x1_S2x48x512x128_0_1_2_3 (broadcastInDim S2x48x512x1 ![0, 1, 2] bcast_S2x48x512_S2x48x512x1_0_1_2 (maximumf (broadcastInDim S2x48x512 ![] bcast_S_S2x48x512 (constant S_ .f32 0xFF800000#32)) (Host.reduce FloatOps.maximumf z (constant S_ .f32 0xFF800000#32) reducesTo_S2x48x512x128_S2x48x512_d3 h_S_))))) (ix4 b u t k) = z (ix4 b u t k) - rowMax (fun k' => z (ix4 b u t k')) := by
  rw [subf_apply, bcast4_apply, bcast3_apply, rowMaxArr_apply]

/-- The reduction with an add body over the class axis, from zero, is at row (b, u, t) the sum over the row. -/
theorem sumReduce_apply (e : FVec Ideal S2x48x512x128 .f32) (b : Fin 2) (u : Fin 48) (t : Fin 512) :
    Host.reduceAdd e (constant S_ .f32 0x00000000#32) reducesTo_S2x48x512x128_S2x48x512_d3 h_S_ (ix3 b u t)
      = ∑ k' : Fin 128, e (ix4 b u t k') := by
  have h : S2x48x512x128.Reduces [3] S2x48x512 := by decide
  rw [hostReduceAdd_apply, Ideal.hostReduceAdd_single reducesTo_S2x48x512x128_S2x48x512_d3 h, constant_apply,
    Ideal.ofBits_zero_f32, zero_add]
  exact Finset.sum_congr rfl fun k _ => congrArg e (lift_ix3 h b u t k)

/-- The reference's log-softmax of the array z, read at (b, u, t, k), is the specification's log-softmax of the row
    k' ↦ z[b,u,t,k'] at k. -/
theorem tail_apply (z : FVec Ideal S2x48x512x128 .f32) (b : Fin 2) (u : Fin 48) (t : Fin 512) (k : Fin 128) :
    (subf (subf z (broadcastInDim S2x48x512x128 ![0, 1, 2, 3] bcast_S2x48x512x1_S2x48x512x128_0_1_2_3 (broadcastInDim S2x48x512x1 ![0, 1, 2] bcast_S2x48x512_S2x48x512x1_0_1_2 (maximumf (broadcastInDim S2x48x512 ![] bcast_S_S2x48x512 (constant S_ .f32 0xFF800000#32)) (Host.reduce FloatOps.maximumf z (constant S_ .f32 0xFF800000#32) reducesTo_S2x48x512x128_S2x48x512_d3 h_S_))))) (broadcastInDim S2x48x512x128 ![0, 1, 2, 3] bcast_S2x48x512x1_S2x48x512x128_0_1_2_3 (Host.log (broadcastInDim S2x48x512x1 ![0, 1, 2] bcast_S2x48x512_S2x48x512x1_0_1_2 (Host.reduceAdd (Host.exp (subf z (broadcastInDim S2x48x512x128 ![0, 1, 2, 3] bcast_S2x48x512x1_S2x48x512x128_0_1_2_3 (broadcastInDim S2x48x512x1 ![0, 1, 2] bcast_S2x48x512_S2x48x512x1_0_1_2 (maximumf (broadcastInDim S2x48x512 ![] bcast_S_S2x48x512 (constant S_ .f32 0xFF800000#32)) (Host.reduce FloatOps.maximumf z (constant S_ .f32 0xFF800000#32) reducesTo_S2x48x512x128_S2x48x512_d3 h_S_)))))) (constant S_ .f32 0x00000000#32) reducesTo_S2x48x512x128_S2x48x512_d3 h_S_))))) (ix4 b u t k)
      = logSoftmaxRow (fun k' => z (ix4 b u t k')) k := by
  rw [subf_apply, shifted_apply, bcast4_apply]
  show _ - Ideal.log ((broadcastInDim S2x48x512x1 ![0, 1, 2] bcast_S2x48x512_S2x48x512x1_0_1_2 (Host.reduceAdd (Host.exp (subf z (broadcastInDim S2x48x512x128 ![0, 1, 2, 3] bcast_S2x48x512x1_S2x48x512x128_0_1_2_3 (broadcastInDim S2x48x512x1 ![0, 1, 2] bcast_S2x48x512_S2x48x512x1_0_1_2 (maximumf (broadcastInDim S2x48x512 ![] bcast_S_S2x48x512 (constant S_ .f32 0xFF800000#32)) (Host.reduce FloatOps.maximumf z (constant S_ .f32 0xFF800000#32) reducesTo_S2x48x512x128_S2x48x512_d3 h_S_)))))) (constant S_ .f32 0x00000000#32) reducesTo_S2x48x512x128_S2x48x512_d3 h_S_)) (ix4 b u t (0 : Fin 1))) = _
  rw [bcast3_apply, sumReduce_apply]
  unfold logSoftmaxRow
  refine congrArg (fun s => _ - Ideal.log s) (Finset.sum_congr rfl fun k' _ => ?_)
  show Ideal.exp ((subf z (broadcastInDim S2x48x512x128 ![0, 1, 2, 3] bcast_S2x48x512x1_S2x48x512x128_0_1_2_3 (broadcastInDim S2x48x512x1 ![0, 1, 2] bcast_S2x48x512_S2x48x512x1_0_1_2 (maximumf (broadcastInDim S2x48x512 ![] bcast_S_S2x48x512 (constant S_ .f32 0xFF800000#32)) (Host.reduce FloatOps.maximumf z (constant S_ .f32 0xFF800000#32) reducesTo_S2x48x512x128_S2x48x512_d3 h_S_))))) (ix4 b u t k')) = _
  rw [shifted_apply]

/-! ## The three products read at coordinates -/

theorem labDot_lhs0 (i : S2x48x1024.Idx) (q : dot_S2x48x512_S1024x512_S2x48x1024_2_1_01_0_n_n.contr.Idx) :
    (dot_S2x48x512_S1024x512_S2x48x1024_2_1_01_0_n_n.lhsIdx i q 0).val = (i 0).val := by
  unfold DotDims.lhsIdx
  rw [dif_neg (show ¬(0 : Fin S2x48x512.rank) ∈ dot_S2x48x512_S1024x512_S2x48x1024_2_1_01_0_n_n.lhsBatch from List.not_mem_nil), dif_pos (show (0 : Fin S2x48x512.rank) ∈ dot_S2x48x512_S1024x512_S2x48x1024_2_1_01_0_n_n.lhsNonContracting by show (0 : Fin 3) ∈ [0, 1]; decide)]
  rfl
theorem labDot_lhs1 (i : S2x48x1024.Idx) (q : dot_S2x48x512_S1024x512_S2x48x1024_2_1_01_0_n_n.contr.Idx) :
    (dot_S2x48x512_S1024x512_S2x48x1024_2_1_01_0_n_n.lhsIdx i q 1).val = (i 1).val := by
  unfold DotDims.lhsIdx
  rw [dif_neg (show ¬(1 : Fin S2x48x512.rank) ∈ dot_S2x48x512_S1024x512_S2x48x1024_2_1_01_0_n_n.lhsBatch from List.not_mem_nil), dif_pos (show (1 : Fin S2x48x512.rank) ∈ dot_S2x48x512_S1024x512_S2x48x1024_2_1_01_0_n_n.lhsNonContracting by show (1 : Fin 3) ∈ [0, 1]; decide)]
  rfl
theorem labDot_lhs2 (i : S2x48x1024.Idx) (q : dot_S2x48x512_S1024x512_S2x48x1024_2_1_01_0_n_n.contr.Idx) :
    (dot_S2x48x512_S1024x512_S2x48x1024_2_1_01_0_n_n.lhsIdx i q 2).val = (q ⟨0, by show (0 : ℕ) < 1; exact Nat.one_pos⟩).val :=
  dot_S2x48x512_S1024x512_S2x48x1024_2_1_01_0_n_n.lhsIdx_val_of_single rfl i q
theorem labDot_rhs0 (i : S2x48x1024.Idx) (q : dot_S2x48x512_S1024x512_S2x48x1024_2_1_01_0_n_n.contr.Idx) :
    (dot_S2x48x512_S1024x512_S2x48x1024_2_1_01_0_n_n.rhsIdx i q 0).val = (i 2).val := by
  unfold DotDims.rhsIdx
  rw [dif_neg (show ¬(0 : Fin S1024x512.rank) ∈ dot_S2x48x512_S1024x512_S2x48x1024_2_1_01_0_n_n.rhsBatch from List.not_mem_nil), dif_pos (show (0 : Fin S1024x512.rank) ∈ dot_S2x48x512_S1024x512_S2x48x1024_2_1_01_0_n_n.rhsNonContracting by show (0 : Fin 2) ∈ [0]; decide)]
  rfl
theorem labDot_rhs1 (i : S2x48x1024.Idx) (q : dot_S2x48x512_S1024x512_S2x48x1024_2_1_01_0_n_n.contr.Idx) :
    (dot_S2x48x512_S1024x512_S2x48x1024_2_1_01_0_n_n.rhsIdx i q 1).val = (q ⟨0, by show (0 : ℕ) < 1; exact Nat.one_pos⟩).val :=
  dot_S2x48x512_S1024x512_S2x48x1024_2_1_01_0_n_n.rhsIdx_val_of_single rfl i q

/-- The label features times a half of the first layer, contracted over the feature axis, is at `(b, u, h)` the sum
    Σ_d x[b,u,d] · w[h,d]. -/
theorem labDot_apply (x : FVec Ideal S2x48x512 .f32) (w : FVec Ideal S1024x512 .f32) (b : Fin 2) (u : Fin 48) (h : Fin 1024) :
    Host.dotGeneral (F := Ideal) dot_S2x48x512_S1024x512_S2x48x1024_2_1_01_0_n_n none x w (ix3 b u h)
      = ∑ d : Fin 512, x (ix3 b u d) * w (ix2 h d) := by
  simp only [Host.dotGeneral]
  rw [Ideal.dotGeneral_apply, ← Equiv.sum_comp (contrEquiv1 dot_S2x48x512_S1024x512_S2x48x1024_2_1_01_0_n_n 512 rfl rfl).symm]
  refine Finset.sum_congr rfl fun d _ => ?_
  have hd := contrEquiv1_symm_val dot_S2x48x512_S1024x512_S2x48x1024_2_1_01_0_n_n 512 rfl rfl d
  have el : dot_S2x48x512_S1024x512_S2x48x1024_2_1_01_0_n_n.lhsIdx (ix3 b u h) ((contrEquiv1 dot_S2x48x512_S1024x512_S2x48x1024_2_1_01_0_n_n 512 rfl rfl).symm d) = ix3 b u d :=
    funext fun a => Fin.ext (by
      match a with
      | ⟨0, _⟩ => exact labDot_lhs0 _ _
      | ⟨1, _⟩ => exact labDot_lhs1 _ _
      | ⟨2, _⟩ => exact (labDot_lhs2 _ _).trans hd)
  have er : dot_S2x48x512_S1024x512_S2x48x1024_2_1_01_0_n_n.rhsIdx (ix3 b u h) ((contrEquiv1 dot_S2x48x512_S1024x512_S2x48x1024_2_1_01_0_n_n 512 rfl rfl).symm d) = ix2 h d :=
    funext fun a => Fin.ext (by
      match a with
      | ⟨0, _⟩ => exact labDot_rhs0 _ _
      | ⟨1, _⟩ => exact (labDot_rhs1 _ _).trans hd)
  rw [el, er]

theorem imgDot_lhs0 (i : S2x512x1024.Idx) (q : dot_S2x512x512_S1024x512_S2x512x1024_2_1_01_0_n_n.contr.Idx) :
    (dot_S2x512x512_S1024x512_S2x512x1024_2_1_01_0_n_n.lhsIdx i q 0).val = (i 0).val := by
  unfold DotDims.lhsIdx
  rw [dif_neg (show ¬(0 : Fin S2x512x512.rank) ∈ dot_S2x512x512_S1024x512_S2x512x1024_2_1_01_0_n_n.lhsBatch from List.not_mem_nil), dif_pos (show (0 : Fin S2x512x512.rank) ∈ dot_S2x512x512_S1024x512_S2x512x1024_2_1_01_0_n_n.lhsNonContracting by show (0 : Fin 3) ∈ [0, 1]; decide)]
  rfl
theorem imgDot_lhs1 (i : S2x512x1024.Idx) (q : dot_S2x512x512_S1024x512_S2x512x1024_2_1_01_0_n_n.contr.Idx) :
    (dot_S2x512x512_S1024x512_S2x512x1024_2_1_01_0_n_n.lhsIdx i q 1).val = (i 1).val := by
  unfold DotDims.lhsIdx
  rw [dif_neg (show ¬(1 : Fin S2x512x512.rank) ∈ dot_S2x512x512_S1024x512_S2x512x1024_2_1_01_0_n_n.lhsBatch from List.not_mem_nil), dif_pos (show (1 : Fin S2x512x512.rank) ∈ dot_S2x512x512_S1024x512_S2x512x1024_2_1_01_0_n_n.lhsNonContracting by show (1 : Fin 3) ∈ [0, 1]; decide)]
  rfl
theorem imgDot_lhs2 (i : S2x512x1024.Idx) (q : dot_S2x512x512_S1024x512_S2x512x1024_2_1_01_0_n_n.contr.Idx) :
    (dot_S2x512x512_S1024x512_S2x512x1024_2_1_01_0_n_n.lhsIdx i q 2).val = (q ⟨0, by show (0 : ℕ) < 1; exact Nat.one_pos⟩).val :=
  dot_S2x512x512_S1024x512_S2x512x1024_2_1_01_0_n_n.lhsIdx_val_of_single rfl i q
theorem imgDot_rhs0 (i : S2x512x1024.Idx) (q : dot_S2x512x512_S1024x512_S2x512x1024_2_1_01_0_n_n.contr.Idx) :
    (dot_S2x512x512_S1024x512_S2x512x1024_2_1_01_0_n_n.rhsIdx i q 0).val = (i 2).val := by
  unfold DotDims.rhsIdx
  rw [dif_neg (show ¬(0 : Fin S1024x512.rank) ∈ dot_S2x512x512_S1024x512_S2x512x1024_2_1_01_0_n_n.rhsBatch from List.not_mem_nil), dif_pos (show (0 : Fin S1024x512.rank) ∈ dot_S2x512x512_S1024x512_S2x512x1024_2_1_01_0_n_n.rhsNonContracting by show (0 : Fin 2) ∈ [0]; decide)]
  rfl
theorem imgDot_rhs1 (i : S2x512x1024.Idx) (q : dot_S2x512x512_S1024x512_S2x512x1024_2_1_01_0_n_n.contr.Idx) :
    (dot_S2x512x512_S1024x512_S2x512x1024_2_1_01_0_n_n.rhsIdx i q 1).val = (q ⟨0, by show (0 : ℕ) < 1; exact Nat.one_pos⟩).val :=
  dot_S2x512x512_S1024x512_S2x512x1024_2_1_01_0_n_n.rhsIdx_val_of_single rfl i q

/-- The image features times a half of the first layer, contracted over the feature axis, is at `(b, t, h)` the sum
    Σ_d x[b,t,d] · w[h,d]. -/
theorem imgDot_apply (x : FVec Ideal S2x512x512 .f32) (w : FVec Ideal S1024x512 .f32) (b : Fin 2) (t : Fin 512) (h : Fin 1024) :
    Host.dotGeneral (F := Ideal) dot_S2x512x512_S1024x512_S2x512x1024_2_1_01_0_n_n none x w (ix3 b t h)
      = ∑ d : Fin 512, x (ix3 b t d) * w (ix2 h d) := by
  simp only [Host.dotGeneral]
  rw [Ideal.dotGeneral_apply, ← Equiv.sum_comp (contrEquiv1 dot_S2x512x512_S1024x512_S2x512x1024_2_1_01_0_n_n 512 rfl rfl).symm]
  refine Finset.sum_congr rfl fun d _ => ?_
  have hd := contrEquiv1_symm_val dot_S2x512x512_S1024x512_S2x512x1024_2_1_01_0_n_n 512 rfl rfl d
  have el : dot_S2x512x512_S1024x512_S2x512x1024_2_1_01_0_n_n.lhsIdx (ix3 b t h) ((contrEquiv1 dot_S2x512x512_S1024x512_S2x512x1024_2_1_01_0_n_n 512 rfl rfl).symm d) = ix3 b t d :=
    funext fun a => Fin.ext (by
      match a with
      | ⟨0, _⟩ => exact imgDot_lhs0 _ _
      | ⟨1, _⟩ => exact imgDot_lhs1 _ _
      | ⟨2, _⟩ => exact (imgDot_lhs2 _ _).trans hd)
  have er : dot_S2x512x512_S1024x512_S2x512x1024_2_1_01_0_n_n.rhsIdx (ix3 b t h) ((contrEquiv1 dot_S2x512x512_S1024x512_S2x512x1024_2_1_01_0_n_n 512 rfl rfl).symm d) = ix2 h d :=
    funext fun a => Fin.ext (by
      match a with
      | ⟨0, _⟩ => exact imgDot_rhs0 _ _
      | ⟨1, _⟩ => exact (imgDot_rhs1 _ _).trans hd)
  rw [el, er]

theorem outDot_lhs0 (i : S2x48x512x128.Idx) (q : dot_S2x48x512x1024_S128x1024_S2x48x512x128_3_1_012_0_n_n.contr.Idx) :
    (dot_S2x48x512x1024_S128x1024_S2x48x512x128_3_1_012_0_n_n.lhsIdx i q 0).val = (i 0).val := by
  unfold DotDims.lhsIdx
  rw [dif_neg (show ¬(0 : Fin S2x48x512x1024.rank) ∈ dot_S2x48x512x1024_S128x1024_S2x48x512x128_3_1_012_0_n_n.lhsBatch from List.not_mem_nil), dif_pos (show (0 : Fin S2x48x512x1024.rank) ∈ dot_S2x48x512x1024_S128x1024_S2x48x512x128_3_1_012_0_n_n.lhsNonContracting by show (0 : Fin 4) ∈ [0, 1, 2]; decide)]
  rfl
theorem outDot_lhs1 (i : S2x48x512x128.Idx) (q : dot_S2x48x512x1024_S128x1024_S2x48x512x128_3_1_012_0_n_n.contr.Idx) :
    (dot_S2x48x512x1024_S128x1024_S2x48x512x128_3_1_012_0_n_n.lhsIdx i q 1).val = (i 1).val := by
  unfold DotDims.lhsIdx
  rw [dif_neg (show ¬(1 : Fin S2x48x512x1024.rank) ∈ dot_S2x48x512x1024_S128x1024_S2x48x512x128_3_1_012_0_n_n.lhsBatch from List.not_mem_nil), dif_pos (show (1 : Fin S2x48x512x1024.rank) ∈ dot_S2x48x512x1024_S128x1024_S2x48x512x128_3_1_012_0_n_n.lhsNonContracting by show (1 : Fin 4) ∈ [0, 1, 2]; decide)]
  rfl
theorem outDot_lhs2 (i : S2x48x512x128.Idx) (q : dot_S2x48x512x1024_S128x1024_S2x48x512x128_3_1_012_0_n_n.contr.Idx) :
    (dot_S2x48x512x1024_S128x1024_S2x48x512x128_3_1_012_0_n_n.lhsIdx i q 2).val = (i 2).val := by
  unfold DotDims.lhsIdx
  rw [dif_neg (show ¬(2 : Fin S2x48x512x1024.rank) ∈ dot_S2x48x512x1024_S128x1024_S2x48x512x128_3_1_012_0_n_n.lhsBatch from List.not_mem_nil), dif_pos (show (2 : Fin S2x48x512x1024.rank) ∈ dot_S2x48x512x1024_S128x1024_S2x48x512x128_3_1_012_0_n_n.lhsNonContracting by show (2 : Fin 4) ∈ [0, 1, 2]; decide)]
  rfl
theorem outDot_lhs3 (i : S2x48x512x128.Idx) (q : dot_S2x48x512x1024_S128x1024_S2x48x512x128_3_1_012_0_n_n.contr.Idx) :
    (dot_S2x48x512x1024_S128x1024_S2x48x512x128_3_1_012_0_n_n.lhsIdx i q 3).val = (q ⟨0, by show (0 : ℕ) < 1; exact Nat.one_pos⟩).val :=
  dot_S2x48x512x1024_S128x1024_S2x48x512x128_3_1_012_0_n_n.lhsIdx_val_of_single rfl i q
theorem outDot_rhs0 (i : S2x48x512x128.Idx) (q : dot_S2x48x512x1024_S128x1024_S2x48x512x128_3_1_012_0_n_n.contr.Idx) :
    (dot_S2x48x512x1024_S128x1024_S2x48x512x128_3_1_012_0_n_n.rhsIdx i q 0).val = (i 3).val := by
  unfold DotDims.rhsIdx
  rw [dif_neg (show ¬(0 : Fin S128x1024.rank) ∈ dot_S2x48x512x1024_S128x1024_S2x48x512x128_3_1_012_0_n_n.rhsBatch from List.not_mem_nil), dif_pos (show (0 : Fin S128x1024.rank) ∈ dot_S2x48x512x1024_S128x1024_S2x48x512x128_3_1_012_0_n_n.rhsNonContracting by show (0 : Fin 2) ∈ [0]; decide)]
  rfl
theorem outDot_rhs1 (i : S2x48x512x128.Idx) (q : dot_S2x48x512x1024_S128x1024_S2x48x512x128_3_1_012_0_n_n.contr.Idx) :
    (dot_S2x48x512x1024_S128x1024_S2x48x512x128_3_1_012_0_n_n.rhsIdx i q 1).val = (q ⟨0, by show (0 : ℕ) < 1; exact Nat.one_pos⟩).val :=
  dot_S2x48x512x1024_S128x1024_S2x48x512x128_3_1_012_0_n_n.rhsIdx_val_of_single rfl i q

/-- The hidden activations times the second layer, contracted over the hidden axis, is at `(b, u, t, k)` the sum
    Σ_h y[b,u,t,h] · w[k,h]. -/
theorem outDot_apply (y : FVec Ideal S2x48x512x1024 .f32) (w : FVec Ideal S128x1024 .f32) (b : Fin 2) (u : Fin 48) (t : Fin 512) (k : Fin 128) :
    Host.dotGeneral (F := Ideal) dot_S2x48x512x1024_S128x1024_S2x48x512x128_3_1_012_0_n_n none y w (ix4 b u t k)
      = ∑ d : Fin 1024, y (ix4 b u t d) * w (ix2 k d) := by
  simp only [Host.dotGeneral]
  rw [Ideal.dotGeneral_apply, ← Equiv.sum_comp (contrEquiv1 dot_S2x48x512x1024_S128x1024_S2x48x512x128_3_1_012_0_n_n 1024 rfl rfl).symm]
  refine Finset.sum_congr rfl fun d _ => ?_
  have hd := contrEquiv1_symm_val dot_S2x48x512x1024_S128x1024_S2x48x512x128_3_1_012_0_n_n 1024 rfl rfl d
  have el : dot_S2x48x512x1024_S128x1024_S2x48x512x128_3_1_012_0_n_n.lhsIdx (ix4 b u t k) ((contrEquiv1 dot_S2x48x512x1024_S128x1024_S2x48x512x128_3_1_012_0_n_n 1024 rfl rfl).symm d) = ix4 b u t d :=
    funext fun a => Fin.ext (by
      match a with
      | ⟨0, _⟩ => exact outDot_lhs0 _ _
      | ⟨1, _⟩ => exact outDot_lhs1 _ _
      | ⟨2, _⟩ => exact outDot_lhs2 _ _
      | ⟨3, _⟩ => exact (outDot_lhs3 _ _).trans hd)
  have er : dot_S2x48x512x1024_S128x1024_S2x48x512x128_3_1_012_0_n_n.rhsIdx (ix4 b u t k) ((contrEquiv1 dot_S2x48x512x1024_S128x1024_S2x48x512x128_3_1_012_0_n_n 1024 rfl rfl).symm d) = ix2 k d :=
    funext fun a => Fin.ext (by
      match a with
      | ⟨0, _⟩ => exact outDot_rhs0 _ _
      | ⟨1, _⟩ => exact (outDot_rhs1 _ _).trans hd)
  rw [el, er]

/-! ## The two halves of the first layer -/

/-- The first 512 columns of the first layer's matrix. -/
theorem sliceLo_apply (a3 : FVec Ideal S1024x1024 .f32) (h : Fin 1024) (d : Fin 512) :
    (extractStridedSlice S1024x512 ![0, 0] a3 slices_S1024x1024_S1024x512_0_0) (ix2 h d) = a3 (ix2 h (lo d)) :=
  extractStridedSlice_apply ![0, 0] a3 slices_S1024x1024_S1024x512_0_0 (ix2 h d) (ix2 h (lo d)) (fun a => match a with
    | ⟨0, _⟩ => by show h.val = 0 + h.val; omega
    | ⟨1, _⟩ => by show d.val = 0 + d.val; omega)

/-- The last 512 columns of the first layer's matrix. -/
theorem sliceHi_apply (a3 : FVec Ideal S1024x1024 .f32) (h : Fin 1024) (d : Fin 512) :
    (extractStridedSlice S1024x512 ![0, 512] a3 slices_S1024x1024_S1024x512_0_512) (ix2 h d) = a3 (ix2 h (hi d)) :=
  extractStridedSlice_apply ![0, 512] a3 slices_S1024x1024_S1024x512_0_512 (ix2 h d) (ix2 h (hi d)) (fun a => match a with
    | ⟨0, _⟩ => by show h.val = 0 + h.val; omega
    | ⟨1, _⟩ => by show 512 + d.val = 512 + d.val; rfl)

/-! ## The broadcasts to the pair grid (b, u, t, ·) -/

/-- The label projection, constant along the image position t. -/
theorem bcastLab_apply (y : FVec Ideal S2x48x1024 .f32) (b : Fin 2) (u : Fin 48) (t : Fin 512) (h : Fin 1024) :
    (broadcastInDim S2x48x512x1024 ![0, 1, 2, 3] bcast_S2x48x1x1024_S2x48x512x1024_0_1_2_3 (broadcastInDim S2x48x1x1024 ![0, 1, 3] bcast_S2x48x1024_S2x48x1x1024_0_1_3 y)) (ix4 b u t h) = y (ix3 b u h) :=
  (broadcastInDim_apply ![0, 1, 2, 3] bcast_S2x48x1x1024_S2x48x512x1024_0_1_2_3 (broadcastInDim S2x48x1x1024 ![0, 1, 3] bcast_S2x48x1024_S2x48x1x1024_0_1_3 y) (ix4 b u t h) (ix4 b u (0 : Fin 1) h) (fun a => match a with
    | ⟨0, _⟩ => by show b.val = if (2 : Nat) = 1 then 0 else b.val; rw [if_neg (by decide)]
    | ⟨1, _⟩ => by show u.val = if (48 : Nat) = 1 then 0 else u.val; rw [if_neg (by decide)]
    | ⟨2, _⟩ => by show (0 : Nat) = if (1 : Nat) = 1 then 0 else t.val; rw [if_pos rfl]
    | ⟨3, _⟩ => by show h.val = if (1024 : Nat) = 1 then 0 else h.val; rw [if_neg (by decide)])).trans
  (broadcastInDim_apply ![0, 1, 3] bcast_S2x48x1024_S2x48x1x1024_0_1_3 y (ix4 b u (0 : Fin 1) h) (ix3 b u h) (fun a => match a with
    | ⟨0, _⟩ => by show b.val = if (2 : Nat) = 1 then 0 else b.val; rw [if_neg (by decide)]
    | ⟨1, _⟩ => by show u.val = if (48 : Nat) = 1 then 0 else u.val; rw [if_neg (by decide)]
    | ⟨2, _⟩ => by show h.val = if (1024 : Nat) = 1 then 0 else h.val; rw [if_neg (by decide)]))

/-- The image projection, constant along the label position u. -/
theorem bcastImg_apply (y : FVec Ideal S2x512x1024 .f32) (b : Fin 2) (u : Fin 48) (t : Fin 512) (h : Fin 1024) :
    (broadcastInDim S2x48x512x1024 ![0, 1, 2, 3] bcast_S2x1x512x1024_S2x48x512x1024_0_1_2_3 (broadcastInDim S2x1x512x1024 ![0, 2, 3] bcast_S2x512x1024_S2x1x512x1024_0_2_3 y)) (ix4 b u t h) = y (ix3 b t h) :=
  (broadcastInDim_apply ![0, 1, 2, 3] bcast_S2x1x512x1024_S2x48x512x1024_0_1_2_3 (broadcastInDim S2x1x512x1024 ![0, 2, 3] bcast_S2x512x1024_S2x1x512x1024_0_2_3 y) (ix4 b u t h) (ix4 b (0 : Fin 1) t h) (fun a => match a with
    | ⟨0, _⟩ => by show b.val = if (2 : Nat) = 1 then 0 else b.val; rw [if_neg (by decide)]
    | ⟨1, _⟩ => by show (0 : Nat) = if (1 : Nat) = 1 then 0 else u.val; rw [if_pos rfl]
    | ⟨2, _⟩ => by show t.val = if (512 : Nat) = 1 then 0 else t.val; rw [if_neg (by decide)]
    | ⟨3, _⟩ => by show h.val = if (1024 : Nat) = 1 then 0 else h.val; rw [if_neg (by decide)])).trans
  (broadcastInDim_apply ![0, 2, 3] bcast_S2x512x1024_S2x1x512x1024_0_2_3 y (ix4 b (0 : Fin 1) t h) (ix3 b t h) (fun a => match a with
    | ⟨0, _⟩ => by show b.val = if (2 : Nat) = 1 then 0 else b.val; rw [if_neg (by decide)]
    | ⟨1, _⟩ => by show t.val = if (512 : Nat) = 1 then 0 else t.val; rw [if_neg (by decide)]
    | ⟨2, _⟩ => by show h.val = if (1024 : Nat) = 1 then 0 else h.val; rw [if_neg (by decide)]))

/-- The first layer's bias, along the hidden axis. -/
theorem bcastB1_apply (a4 : FVec Ideal S1024 .f32) (b : Fin 2) (u : Fin 48) (t : Fin 512) (h : Fin 1024) :
    (broadcastInDim S2x48x512x1024 ![0, 1, 2, 3] bcast_S1x1x1x1024_S2x48x512x1024_0_1_2_3 (broadcastInDim S1x1x1x1024 ![3] bcast_S1024_S1x1x1x1024_3 a4)) (ix4 b u t h) = a4 (ix1 h) :=
  (broadcastInDim_apply ![0, 1, 2, 3] bcast_S1x1x1x1024_S2x48x512x1024_0_1_2_3 (broadcastInDim S1x1x1x1024 ![3] bcast_S1024_S1x1x1x1024_3 a4) (ix4 b u t h) (ix4 (0 : Fin 1) (0 : Fin 1) (0 : Fin 1) h) (fun a => match a with
    | ⟨0, _⟩ => by show (0 : Nat) = if (1 : Nat) = 1 then 0 else b.val; rw [if_pos rfl]
    | ⟨1, _⟩ => by show (0 : Nat) = if (1 : Nat) = 1 then 0 else u.val; rw [if_pos rfl]
    | ⟨2, _⟩ => by show (0 : Nat) = if (1 : Nat) = 1 then 0 else t.val; rw [if_pos rfl]
    | ⟨3, _⟩ => by show h.val = if (1024 : Nat) = 1 then 0 else h.val; rw [if_neg (by decide)])).trans
  (broadcastInDim_apply ![3] bcast_S1024_S1x1x1x1024_3 a4 (ix4 (0 : Fin 1) (0 : Fin 1) (0 : Fin 1) h) (ix1 h) (fun a => match a with
    | ⟨0, _⟩ => by show h.val = if (1024 : Nat) = 1 then 0 else h.val; rw [if_neg (by decide)]))

/-- The second layer's bias, along the class axis. -/
theorem bcastB2_apply (a6 : FVec Ideal S128 .f32) (b : Fin 2) (u : Fin 48) (t : Fin 512) (k : Fin 128) :
    (broadcastInDim S2x48x512x128 ![0, 1, 2, 3] bcast_S1x1x1x128_S2x48x512x128_0_1_2_3 (broadcastInDim S1x1x1x128 ![3] bcast_S128_S1x1x1x128_3 a6)) (ix4 b u t k) = a6 (ix1 k) :=
  (broadcastInDim_apply ![0, 1, 2, 3] bcast_S1x1x1x128_S2x48x512x128_0_1_2_3 (broadcastInDim S1x1x1x128 ![3] bcast_S128_S1x1x1x128_3 a6) (ix4 b u t k) (ix4 (0 : Fin 1) (0 : Fin 1) (0 : Fin 1) k) (fun a => match a with
    | ⟨0, _⟩ => by show (0 : Nat) = if (1 : Nat) = 1 then 0 else b.val; rw [if_pos rfl]
    | ⟨1, _⟩ => by show (0 : Nat) = if (1 : Nat) = 1 then 0 else u.val; rw [if_pos rfl]
    | ⟨2, _⟩ => by show (0 : Nat) = if (1 : Nat) = 1 then 0 else t.val; rw [if_pos rfl]
    | ⟨3, _⟩ => by show k.val = if (128 : Nat) = 1 then 0 else k.val; rw [if_neg (by decide)])).trans
  (broadcastInDim_apply ![3] bcast_S128_S1x1x1x128_3 a6 (ix4 (0 : Fin 1) (0 : Fin 1) (0 : Fin 1) k) (ix1 k) (fun a => match a with
    | ⟨0, _⟩ => by show k.val = if (128 : Nat) = 1 then 0 else k.val; rw [if_neg (by decide)]))

/-! ## The class scores before normalisation -/

/-- The reference's class scores at (b, u, t, k) are the specification's: the second layer applied to the hidden
    activation tanh((label projection + image projection) + bias), plus its bias. -/
theorem head_apply (a0 : FVec Ideal S2x512x512 .f32) (a1 : FVec Ideal S2x48x512 .f32) (a3 : FVec Ideal S1024x1024 .f32)
    (a4 : FVec Ideal S1024 .f32) (a5 : FVec Ideal S128x1024 .f32) (a6 : FVec Ideal S128 .f32)
    (b : Fin 2) (u : Fin 48) (t : Fin 512) (k : Fin 128) :
    (addf (Host.dotGeneral dot_S2x48x512x1024_S128x1024_S2x48x512x128_3_1_012_0_n_n none (Host.tanh (addf (addf (broadcastInDim S2x48x512x1024 ![0, 1, 2, 3] bcast_S2x48x1x1024_S2x48x512x1024_0_1_2_3 (broadcastInDim S2x48x1x1024 ![0, 1, 3] bcast_S2x48x1024_S2x48x1x1024_0_1_3 (Host.dotGeneral dot_S2x48x512_S1024x512_S2x48x1024_2_1_01_0_n_n none a1 (extractStridedSlice S1024x512 ![0, 0] a3 slices_S1024x1024_S1024x512_0_0)))) (broadcastInDim S2x48x512x1024 ![0, 1, 2, 3] bcast_S2x1x512x1024_S2x48x512x1024_0_1_2_3 (broadcastInDim S2x1x512x1024 ![0, 2, 3] bcast_S2x512x1024_S2x1x512x1024_0_2_3 (Host.dotGeneral dot_S2x512x512_S1024x512_S2x512x1024_2_1_01_0_n_n none a0 (extractStridedSlice S1024x512 ![0, 512] a3 slices_S1024x1024_S1024x512_0_512))))) (broadcastInDim S2x48x512x1024 ![0, 1, 2, 3] bcast_S1x1x1x1024_S2x48x512x1024_0_1_2_3 (broadcastInDim S1x1x1x1024 ![3] bcast_S1024_S1x1x1x1024_3 a4)))) a5) (broadcastInDim S2x48x512x128 ![0, 1, 2, 3] bcast_S1x1x1x128_S2x48x512x128_0_1_2_3 (broadcastInDim S1x1x1x128 ![3] bcast_S128_S1x1x1x128_3 a6))) (ix4 b u t k)
      = jointAt (fun b t d => a0 (ix3 b t d)) (fun b u d => a1 (ix3 b u d)) (fun h e => a3 (ix2 h e)) (fun h => a4 (ix1 h))
          (fun k h => a5 (ix2 k h)) (fun k => a6 (ix1 k)) b u t k := by
  rw [addf_apply, outDot_apply, bcastB2_apply]
  unfold jointAt
  refine congrArg (· + a6 (ix1 k)) (Finset.sum_congr rfl fun h _ => ?_)
  refine congrArg (· * a5 (ix2 k h)) ?_
  show Ideal.tanh (_ : EReal) = _
  unfold Cert.JointNet.hidden Cert.JointNet.labProj Cert.JointNet.imgProj
  rw [addf_apply, addf_apply, bcastLab_apply, bcastImg_apply, bcastB1_apply, labDot_apply, imgDot_apply]
  simp only [sliceLo_apply, sliceHi_apply]

/-! ## The second result -/

/-- The joint-score term: the reference's second result as a function of its arguments. -/
def jointTerm (a0 : FVec Ideal S2x512x512 .f32) (a1 : FVec Ideal S2x48x512 .f32) (a3 : FVec Ideal S1024x1024 .f32)
    (a4 : FVec Ideal S1024 .f32) (a5 : FVec Ideal S128x1024 .f32) (a6 : FVec Ideal S128 .f32) : FVec Ideal S2x48x512x128 .f32 :=
  subf (subf (addf (Host.dotGeneral dot_S2x48x512x1024_S128x1024_S2x48x512x128_3_1_012_0_n_n none (Host.tanh (addf (addf (broadcastInDim S2x48x512x1024 ![0, 1, 2, 3] bcast_S2x48x1x1024_S2x48x512x1024_0_1_2_3 (broadcastInDim S2x48x1x1024 ![0, 1, 3] bcast_S2x48x1024_S2x48x1x1024_0_1_3 (Host.dotGeneral dot_S2x48x512_S1024x512_S2x48x1024_2_1_01_0_n_n none a1 (extractStridedSlice S1024x512 ![0, 0] a3 slices_S1024x1024_S1024x512_0_0)))) (broadcastInDim S2x48x512x1024 ![0, 1, 2, 3] bcast_S2x1x512x1024_S2x48x512x1024_0_1_2_3 (broadcastInDim S2x1x512x1024 ![0, 2, 3] bcast_S2x512x1024_S2x1x512x1024_0_2_3 (Host.dotGeneral dot_S2x512x512_S1024x512_S2x512x1024_2_1_01_0_n_n none a0 (extractStridedSlice S1024x512 ![0, 512] a3 slices_S1024x1024_S1024x512_0_512))))) (broadcastInDim S2x48x512x1024 ![0, 1, 2, 3] bcast_S1x1x1x1024_S2x48x512x1024_0_1_2_3 (broadcastInDim S1x1x1x1024 ![3] bcast_S1024_S1x1x1x1024_3 a4)))) a5) (broadcastInDim S2x48x512x128 ![0, 1, 2, 3] bcast_S1x1x1x128_S2x48x512x128_0_1_2_3 (broadcastInDim S1x1x1x128 ![3] bcast_S128_S1x1x1x128_3 a6))) (broadcastInDim S2x48x512x128 ![0, 1, 2, 3] bcast_S2x48x512x1_S2x48x512x128_0_1_2_3 (broadcastInDim S2x48x512x1 ![0, 1, 2] bcast_S2x48x512_S2x48x512x1_0_1_2 (maximumf (broadcastInDim S2x48x512 ![] bcast_S_S2x48x512 (constant S_ .f32 0xFF800000#32)) (Host.reduce FloatOps.maximumf (addf (Host.dotGeneral dot_S2x48x512x1024_S128x1024_S2x48x512x128_3_1_012_0_n_n none (Host.tanh (addf (addf (broadcastInDim S2x48x512x1024 ![0, 1, 2, 3] bcast_S2x48x1x1024_S2x48x512x1024_0_1_2_3 (broadcastInDim S2x48x1x1024 ![0, 1, 3] bcast_S2x48x1024_S2x48x1x1024_0_1_3 (Host.dotGeneral dot_S2x48x512_S1024x512_S2x48x1024_2_1_01_0_n_n none a1 (extractStridedSlice S1024x512 ![0, 0] a3 slices_S1024x1024_S1024x512_0_0)))) (broadcastInDim S2x48x512x1024 ![0, 1, 2, 3] bcast_S2x1x512x1024_S2x48x512x1024_0_1_2_3 (broadcastInDim S2x1x512x1024 ![0, 2, 3] bcast_S2x512x1024_S2x1x512x1024_0_2_3 (Host.dotGeneral dot_S2x512x512_S1024x512_S2x512x1024_2_1_01_0_n_n none a0 (extractStridedSlice S1024x512 ![0, 512] a3 slices_S1024x1024_S1024x512_0_512))))) (broadcastInDim S2x48x512x1024 ![0, 1, 2, 3] bcast_S1x1x1x1024_S2x48x512x1024_0_1_2_3 (broadcastInDim S1x1x1x1024 ![3] bcast_S1024_S1x1x1x1024_3 a4)))) a5) (broadcastInDim S2x48x512x128 ![0, 1, 2, 3] bcast_S1x1x1x128_S2x48x512x128_0_1_2_3 (broadcastInDim S1x1x1x128 ![3] bcast_S128_S1x1x1x128_3 a6))) (constant S_ .f32 0xFF800000#32) reducesTo_S2x48x512x128_S2x48x512_d3 h_S_))))) (broadcastInDim S2x48x512x128 ![0, 1, 2, 3] bcast_S2x48x512x1_S2x48x512x128_0_1_2_3 (Host.log (broadcastInDim S2x48x512x1 ![0, 1, 2] bcast_S2x48x512_S2x48x512x1_0_1_2 (Host.reduceAdd (Host.exp (subf (addf (Host.dotGeneral dot_S2x48x512x1024_S128x1024_S2x48x512x128_3_1_012_0_n_n none (Host.tanh (addf (addf (broadcastInDim S2x48x512x1024 ![0, 1, 2, 3] bcast_S2x48x1x1024_S2x48x512x1024_0_1_2_3 (broadcastInDim S2x48x1x1024 ![0, 1, 3] bcast_S2x48x1024_S2x48x1x1024_0_1_3 (Host.dotGeneral dot_S2x48x512_S1024x512_S2x48x1024_2_1_01_0_n_n none a1 (extractStridedSlice S1024x512 ![0, 0] a3 slices_S1024x1024_S1024x512_0_0)))) (broadcastInDim S2x48x512x1024 ![0, 1, 2, 3] bcast_S2x1x512x1024_S2x48x512x1024_0_1_2_3 (broadcastInDim S2x1x512x1024 ![0, 2, 3] bcast_S2x512x1024_S2x1x512x1024_0_2_3 (Host.dotGeneral dot_S2x512x512_S1024x512_S2x512x1024_2_1_01_0_n_n none a0 (extractStridedSlice S1024x512 ![0, 512] a3 slices_S1024x1024_S1024x512_0_512))))) (broadcastInDim S2x48x512x1024 ![0, 1, 2, 3] bcast_S1x1x1x1024_S2x48x512x1024_0_1_2_3 (broadcastInDim S1x1x1x1024 ![3] bcast_S1024_S1x1x1x1024_3 a4)))) a5) (broadcastInDim S2x48x512x128 ![0, 1, 2, 3] bcast_S1x1x1x128_S2x48x512x128_0_1_2_3 (broadcastInDim S1x1x1x128 ![3] bcast_S128_S1x1x1x128_3 a6))) (broadcastInDim S2x48x512x128 ![0, 1, 2, 3] bcast_S2x48x512x1_S2x48x512x128_0_1_2_3 (broadcastInDim S2x48x512x1 ![0, 1, 2] bcast_S2x48x512_S2x48x512x1_0_1_2 (maximumf (broadcastInDim S2x48x512 ![] bcast_S_S2x48x512 (constant S_ .f32 0xFF800000#32)) (Host.reduce FloatOps.maximumf (addf (Host.dotGeneral dot_S2x48x512x1024_S128x1024_S2x48x512x128_3_1_012_0_n_n none (Host.tanh (addf (addf (broadcastInDim S2x48x512x1024 ![0, 1, 2, 3] bcast_S2x48x1x1024_S2x48x512x1024_0_1_2_3 (broadcastInDim S2x48x1x1024 ![0, 1, 3] bcast_S2x48x1024_S2x48x1x1024_0_1_3 (Host.dotGeneral dot_S2x48x512_S1024x512_S2x48x1024_2_1_01_0_n_n none a1 (extractStridedSlice S1024x512 ![0, 0] a3 slices_S1024x1024_S1024x512_0_0)))) (broadcastInDim S2x48x512x1024 ![0, 1, 2, 3] bcast_S2x1x512x1024_S2x48x512x1024_0_1_2_3 (broadcastInDim S2x1x512x1024 ![0, 2, 3] bcast_S2x512x1024_S2x1x512x1024_0_2_3 (Host.dotGeneral dot_S2x512x512_S1024x512_S2x512x1024_2_1_01_0_n_n none a0 (extractStridedSlice S1024x512 ![0, 512] a3 slices_S1024x1024_S1024x512_0_512))))) (broadcastInDim S2x48x512x1024 ![0, 1, 2, 3] bcast_S1x1x1x1024_S2x48x512x1024_0_1_2_3 (broadcastInDim S1x1x1x1024 ![3] bcast_S1024_S1x1x1x1024_3 a4)))) a5) (broadcastInDim S2x48x512x128 ![0, 1, 2, 3] bcast_S1x1x1x128_S2x48x512x128_0_1_2_3 (broadcastInDim S1x1x1x128 ![3] bcast_S128_S1x1x1x128_3 a6))) (constant S_ .f32 0xFF800000#32) reducesTo_S2x48x512x128_S2x48x512_d3 h_S_)))))) (constant S_ .f32 0x00000000#32) reducesTo_S2x48x512x128_S2x48x512_d3 h_S_))))

theorem joint_eq (a0 : FVec Ideal S2x512x512 .f32) (a1 : FVec Ideal S2x48x512 .f32) (a3 : FVec Ideal S1024x1024 .f32)
    (a4 : FVec Ideal S1024 .f32) (a5 : FVec Ideal S128x1024 .f32) (a6 : FVec Ideal S128 .f32) :
    jointTerm a0 a1 a3 a4 a5 a6 = Cert.JointNet.outArr a0 a1 a3 a4 a5 a6 := by
  funext j
  obtain ⟨b, u, t, k, rfl⟩ : ∃ (b : Fin 2) (u : Fin 48) (t : Fin 512) (k : Fin 128), j = ix4 b u t k := ⟨j 0, j 1, j 2, j 3, eq_ix4 j⟩
  unfold jointTerm
  refine (tail_apply _ b u t k).trans ?_
  unfold outArr outAt
  exact congrArg (fun r => logSoftmaxRow r k) (funext fun k' => head_apply a0 a1 a3 a4 a5 a6 b u t k')

end Cert.ReferenceIdeal.RefJoint

end
-- ==== Proof.RefValue.lean ====
/-
  The reference program's run, with its two results stated by the specification.

  Every weakly fair execution of the reference's @main terminates with its first result buffer at the masked
  pointwise convolution of the image features, seg[b,k,t] = (Σ_d cw[k,d]·img[b,t,d] + cb[k])·msk[b,0,t], and its
  second at the log-softmax over the classes of the joint scores
  joint[b,u,t,k] = Σ_h tanh((lab·W1ˡᵒ + img·W1ʰⁱ) + b1)[b,u,t,h]·W2[k,h] + b2[k], both as functions of the argument
  arrays' contents at launch, and with the nine arguments unchanged. The run itself is the composed term of the 39
  operations; that the two composed terms are the specification's arrays is proved, index by index, in the two
  modules on the results (the segmentation score, the joint score).
-/
import proofs.«164176_j85237920956984_1_alg».proof.Proof.RefRun
import proofs.«164176_j85237920956984_1_alg».proof.Proof.RefSeg
import proofs.«164176_j85237920956984_1_alg».proof.Proof.RefJoint
import proofs.«164176_j85237920956984_1_alg».proof.Proof.Spec

noncomputable section

namespace Cert.ReferenceIdeal.RefValue

open Cert.ReferenceIdeal Cert.ReferenceIdeal.Gen Cert.JointNet Idealize.ShloMosaic Idealize.ShloMosaic.TcCoe Idealize.SL.Sem
  Idealize.ShloMosaic.StableHlo Idealize.ShloMosaic.ValueIdx

/-- The term the run names for the second result is the joint-score term at the arguments' launch contents: the two
    are the same composition of the same operations. -/
theorem res_eq_jointTerm (m : (ℓ : Loc nD τ sig) → Buf (Elt Ideal) ℓ) (c : Dev nD) :
    ValueP.res_main_v24 (F := Ideal) m c
      = RefJoint.jointTerm (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  unfold ValueP.res_main_v24 RefJoint.jointTerm
  rfl

/-- On every device, from any memory with zero counters, every weakly fair execution of the reference's @main
    terminates with the first result at the specification's segmentation score and the second at its joint score, of
    the arguments' launch contents, and the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v6)
          = Cert.JointNet.segArr (m ((c.tc : Thread nD τ).loc main_arg0)) (m ((c.tc : Thread nD τ).loc main_arg2)) (m ((c.tc : Thread nD τ).loc main_arg7)) (m ((c.tc : Thread nD τ).loc main_arg8))
      ∧ r.2.mem ((c.tc : Thread nD τ).loc main_v24)
          = Cert.JointNet.outArr (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run (defs (F := Ideal)) _ _).mono
    (fun _ h c => ⟨(h c).1.trans (RefSeg.seg_eq _ _ _ _),
      (h c).2.1.trans ((res_eq_jointTerm m c).trans (RefJoint.joint_eq _ _ _ _ _ _)),
      (h c).2.2⟩)
    (ValueP.run (F := Ideal) m ρ)

end Cert.ReferenceIdeal.RefValue

end
-- ==== Proof.lean ====
/-
  The certificate's proof: a joint network (the RNN-T style joint of image and label features) computed by one fused,
  tiled kernel against its plain reference.

  Both programs compute, on the extended reals,
    seg[b,k,t]   = (Σ_d conv_w[k,d]·img[b,t,d] + conv_b[k]) · mask[b,0,t],
    out[b,u,t,·] = log-softmax over k of  Σ_h tanh((Σ_d label[b,u,d]·W1[h,d] + Σ_d img[b,t,d]·W1[h,512+d]) + b1[h])·W2[k,h] + b2[k]
  (Proof/Spec.lean). The kernel tiles (b, t, u) into 2 × 4 × 6 steps, keeps the image projection of a tile in a scratch
  buffer across the six label tiles, and rounds its matrix operands to a shorter float format on the way in; on the
  extended reals a change of format is the identity and a tiled sum is the sum, so no property of the inputs is used
  beyond what the frames need: the precondition is never opened.

  * The three frames: both kernels' by the body's run at a step and the pipeline's frame run (Proof/BodyK.lean,
    Proof/FrameK.lean at the word level; Proof/BodyKI.lean, Proof/FrameKI.lean idealized), the reference's from its run.
  * The idealization rewrote nothing, so there is nothing to preserve.
  * Equal results: the kernel's two arrays end at the specification's (Proof/KernelValue.lean, over the payloads read
    at an index in Proof/PaySeg.lean and Proof/PayJoint.lean and the blocks read off the arrays in
    Proof/BlockReads.lean, Proof/BlockValues.lean, Proof/OutBlocks.lean), and so do the reference's (Proof/RefValue.lean).
-/
import proofs.«164176_j85237920956984_1_alg».proof.Defs
import proofs.«164176_j85237920956984_1_alg».proof.Proof.Gen.Kernel
import proofs.«164176_j85237920956984_1_alg».proof.Proof.Gen.KernelIdeal
import proofs.«164176_j85237920956984_1_alg».proof.Proof.Gen.ReferenceIdeal
import proofs.«164176_j85237920956984_1_alg».proof.Proof.Gen.Pre_finite_inputs
import proofs.«164176_j85237920956984_1_alg».proof.Proof.FrameK
import proofs.«164176_j85237920956984_1_alg».proof.Proof.KernelValue
import proofs.«164176_j85237920956984_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Body.frame m ρ

theorem frame_ki : Cert.frame_KernelIdeal := fun m ρ _ => Cert.KernelIdeal.Body.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.RefValue.run_spec m ρ)

theorem preserves : Cert.preserves_Kernel_KernelIdeal := trivial

/-- Run from memories agreeing on the nine arguments, the kernel and the reference both end with the segmentation and
    joint scores of those arguments. -/
theorem algebraic : Cert.algebraic_KernelIdeal_ReferenceIdeal := by
  intro m ρ m' ρ' _ hagree
  refine ⟨fun c => Cert.KernelIdeal.KValue.segG m c, fun c => Cert.KernelIdeal.KValue.outG m c,
    Cert.KernelIdeal.KValue.run_spec m ρ, ?_⟩
  refine (θ_run Cert.ReferenceIdeal.defs _ _).mono (fun _ h c => ⟨(h c).1.trans ?_, (h c).2.1.trans ?_, (h c).2.2⟩)
    (Cert.ReferenceIdeal.RefValue.run_spec m' ρ')
  · obtain ⟨e0, e1, e2, e3, e4, e5, e6, e7, e8⟩ := hagree c
    rw [e0, e2, e7, e8]
  · obtain ⟨e0, e1, e2, e3, e4, e5, e6, e7, e8⟩ := hagree c
    rw [e0, e1, e3, e4, e5, e6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
